-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 99999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : IVec S16384 32) (main_arg1 : IVec S16384 32) (main_arg2 : FVec F S100000x128 .f32) (main_arg3 : FVec F S100000x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 99999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S16384 : Shape := ⟨1, ![16384]⟩
abbrev S100000x128 : Shape := ⟨2, ![100000, 128]⟩
abbrev S32x4x128 : Shape := ⟨3, ![32, 4, 128]⟩
abbrev S16384x128 : Shape := ⟨2, ![16384, 128]⟩
abbrev S4x128 : Shape := ⟨2, ![4, 128]⟩
abbrev S7x128x128 : Shape := ⟨3, ![7, 128, 128]⟩
abbrev S_ : Shape := ⟨0, ![]⟩
abbrev S1x4x128 : Shape := ⟨3, ![1, 4, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Table → Nat
  | .hbm => 8
  | .local .scVector .vmem => 3
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S32x4x128, .i32⟩
  | .hbm, ⟨5, _⟩ => ⟨S32x4x128, .i32⟩
  | .hbm, ⟨6, _⟩ => ⟨S16384x128, .f32⟩
  | .hbm, ⟨7, _⟩ => ⟨S16384x128, .f32⟩
  | .local .scVector .vmem, ⟨0, _⟩ => ⟨S4x128, .i32⟩
  | .local .scVector .vmem, ⟨1, _⟩ => ⟨S4x128, .i32⟩
  | .local .scVector .vmem, ⟨2, _⟩ => ⟨S7x128x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v0_scv : Ref sig .scVector := ⟨.hbm, 4, rfl⟩
abbrev main_v1_scv : Ref sig .scVector := ⟨.hbm, 5, rfl⟩
abbrev main_arg2_scv : Ref sig .scVector := ⟨.hbm, 2, rfl⟩
abbrev main_arg3_scv : Ref sig .scVector := ⟨.hbm, 3, rfl⟩
abbrev main_v2_0_scv : Ref sig .scVector := ⟨.hbm, 6, rfl⟩
abbrev main_v2_1_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
def k0_off2 (i : grid0.Coords) (c0_i32_66 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v58 : BitVec 32 := Scalar.muli v1 c512_i32
  let v59 : BitVec 32 := Scalar.addi v58 c0_i32_66
  let c0_i32_70 : BitVec 32 := 0#32
  ![v59.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384_S32x4x128 : S16384.ShapeCasts S32x4x128
  squeezes_S1x4x128_S4x128 : S1x4x128.Squeezes S4x128
  inb_S7x128x128_S1x128x128_0_0_0 : ∀ a, (![0, 0, 0] : Fin 3 → Nat) a + S1x128x128.size a ≤ S7x128x128.size a
  squeezes_S1x128x128_S128x128 : S1x128x128.Squeezes S128x128
  inb_S4x128_S1x128_0_0 : ∀ a, (![0, 0] : Fin 2 → Nat) a + S1x128.size a ≤ S4x128.size a
  squeezes_S1x128_S128 : S1x128.Squeezes S128
  inb_S100000x128_S100000x128_0_0 : ∀ a, (![0, 0] : Fin 2 → Nat) a + S100000x128.size a ≤ S100000x128.size a
  gathers_S100000x128_S128x128 : S100000x128.Gathers 0 S128x128
  inb_S7x128x128_S1x128x128_1_0_0 : ∀ a, (![1, 0, 0] : Fin 3 → Nat) a + S1x128x128.size a ≤ S7x128x128.size a
  inb_S4x128_S1x128_1_0 : ∀ a, (![1, 0] : Fin 2 → Nat) a + S1x128.size a ≤ S4x128.size a
  inb_S7x128x128_S1x128x128_2_0_0 : ∀ a, (![2, 0, 0] : Fin 3 → Nat) a + S1x128x128.size a ≤ S7x128x128.size a
  inb_S4x128_S1x128_2_0 : ∀ a, (![2, 0] : Fin 2 → Nat) a + S1x128.size a ≤ S4x128.size a
  inb_S7x128x128_S1x128x128_3_0_0 : ∀ a, (![3, 0, 0] : Fin 3 → Nat) a + S1x128x128.size a ≤ S7x128x128.size a
  inb_S4x128_S1x128_3_0 : ∀ a, (![3, 0] : Fin 2 → Nat) a + S1x128.size a ≤ S4x128.size a
  inb_S7x128x128_S1x128x128_4_0_0 : ∀ a, (![4, 0, 0] : Fin 3 → Nat) a + S1x128x128.size a ≤ S7x128x128.size a
  inb_S7x128x128_S1x128x128_5_0_0 : ∀ a, (![5, 0, 0] : Fin 3 → Nat) a + S1x128x128.size a ≤ S7x128x128.size a
  inb_S7x128x128_S1x128x128_6_0_0 : ∀ a, (![6, 0, 0] : Fin 3 → Nat) a + S1x128x128.size a ≤ S7x128x128.size a
  hcc0_scratch3 : 0 + S_.numel ≤ 16
  hcc0_scratch4 : 1 + S_.numel ≤ 16
  hcc0_scratch5 : 2 + S_.numel ≤ 16
  hcc0_scratch6 : 3 + S_.numel ≤ 16
  hcc0_scratch7 : 4 + S_.numel ≤ 16
  hcc0_scratch8 : 5 + S_.numel ≤ 16
  hcc0_scratch9 : 6 + S_.numel ≤ 16
  hcc0_scratch10 : 7 + S_.numel ≤ 16
  hcc0_scratch11 : 8 + S_.numel ≤ 16
  hcc0_scratch12 : 9 + S_.numel ≤ 16
  hcc0_scratch13 : 10 + S_.numel ≤ 16
  hcc0_scratch14 : 11 + S_.numel ≤ 16
  hcc0_scratch15 : 12 + S_.numel ≤ 16
  hcc0_scratch16 : 13 + S_.numel ≤ 16
  hcc0_scratch17 : 14 + S_.numel ≤ 16
  hcc0_scratch18 : 15 + S_.numel ≤ 16
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x4x128.size a ≤ S32x4x128.size a
  k0_off2_inb : ∀ i : grid0.Coords, ∀ (r : Fin 4), ∀ a, (k0_off2 i (BitVec.ofNat 32 (128 * r.val))) a + S128x128.size a ≤ S16384x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16
abbrev cc0_scratch17 : DmaSems sig S_ := SemArray.consecutive 14 S_ hcc0_scratch17
abbrev cc0_scratch18 : DmaSems sig S_ := SemArray.consecutive 15 S_ hcc0_scratch18

class Facts : Prop extends Facts₀ where

variable [Facts]
-- ==== ReferenceIdeal.lean ====
abbrev S16384 : Shape := ⟨1, ![16384]⟩
abbrev S100000x128 : Shape := ⟨2, ![100000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S100000x128, .f32⟩
  | .hbm, ⟨3, _⟩ => ⟨S100000x128, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S1, .i32⟩
  | .hbm, ⟨13, _⟩ => ⟨S_, .i32⟩
  | .hbm, ⟨14, _⟩ => ⟨S16384x1, .i32⟩
  | .hbm, ⟨15, _⟩ => ⟨S16384x1, .i1⟩
  | .hbm, ⟨16, _⟩ => ⟨S1x1, .i32⟩
  | .hbm, ⟨17, _⟩ => ⟨S16384x1, .i32⟩
  | .hbm, ⟨18, _⟩ => ⟨S16384x1, .i1⟩
  | .hbm, ⟨19, _⟩ => ⟨S16384x1, .i1⟩
  | .hbm, ⟨20, _⟩ => ⟨S_, .i1⟩
  | .hbm, ⟨21, _⟩ => ⟨S16384, .i1⟩
  | .hbm, ⟨22, _⟩ => ⟨S16384x128, .f32⟩
  | .hbm, ⟨23, _⟩ => ⟨S16384x128, .i1⟩
  | .hbm, ⟨24, _⟩ => ⟨S_, .f32⟩
  | .hbm, ⟨25, _⟩ => ⟨S16384x128, .f32⟩
  | .hbm, ⟨26, _⟩ => ⟨S16384x128, .f32⟩
  | .hbm, ⟨27, _⟩ => ⟨S_, .i32⟩
  | .hbm, ⟨28, _⟩ => ⟨S16384, .i32⟩
  | .hbm, ⟨29, _⟩ => ⟨S16384, .i1⟩
  | .hbm, ⟨30, _⟩ => ⟨S_, .i32⟩
  | .hbm, ⟨31, _⟩ => ⟨S16384, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S1, .i32⟩
  | .hbm, ⟨36, _⟩ => ⟨S_, .i32⟩
  | .hbm, ⟨37, _⟩ => ⟨S16384x1, .i32⟩
  | .hbm, ⟨38, _⟩ => ⟨S16384x1, .i1⟩
  | .hbm, ⟨39, _⟩ => ⟨S1x1, .i32⟩
  | .hbm, ⟨40, _⟩ => ⟨S16384x1, .i32⟩
  | .hbm, ⟨41, _⟩ => ⟨S16384x1, .i1⟩
  | .hbm, ⟨42, _⟩ => ⟨S16384x1, .i1⟩
  | .hbm, ⟨43, _⟩ => ⟨S_, .i1⟩
  | .hbm, ⟨44, _⟩ => ⟨S16384, .i1⟩
  | .hbm, ⟨45, _⟩ => ⟨S16384x128, .f32⟩
  | .hbm, ⟨46, _⟩ => ⟨S16384x128, .i1⟩
  | .hbm, ⟨47, _⟩ => ⟨S_, .f32⟩
  | .hbm, ⟨48, _⟩ => ⟨S16384x128, .f32⟩
  | .hbm, ⟨49, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf

class Facts : Prop extends Facts₀ where

variable [Facts]
-- ==== Proof.RefRun.lean ====
/-
  The reference program's run. Its entry function is two calls of one lookup function, each a straight line of
  twenty-three elementwise, re-indexing, reduction and gather operations (one of them inside a nested call): with the
  callee's body substituted at each call the entry function is one list of forty-six operations, each writing a buffer
  of its own. Every execution of such a list terminates, and each buffer ends at the value the operations compose to
  over the launch contents. Here each of the two results ends at one and the same composed function (`takeTerm`)
  of its call's table and list of row numbers, and no operation writes an argument.
-/
import proofs.«215895_g3710851743747_cont_8to1_b_223_15_alg».proof.ReferenceIdeal
import Idealize.ShloMosaic.Lib.StableHlo.Run

noncomputable section

namespace Cert.Proof.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- What one call computes from its table and its list of row numbers, in the operations' own spelling: a negative
    row number is moved up by the number of rows; the list becomes a column of one-coordinate start positions; a
    position is "in range" when it is at least 0 and at most 99999, and-reduced over its one coordinate; the gather
    reads one row of 128 per position; a row whose position is out of range is replaced by the constant
    0x7FC00000. -/
def takeTerm (tbl : FVec F S100000x128 .f32) (idx : IVec S16384 32) : FVec F S16384x128 .f32 :=
  select
    (broadcastInDim S16384x128 ![0] bcast_S16384_S16384x128_0
      (Host.reduce IntOp.andi
        (andi
          (cmpi .sge
            (broadcastInDim S16384x1 ![0] bcast_S16384_S16384x1_0
              (select (cmpi .slt idx (broadcastInDim S16384 ![] bcast_S_S16384 (constantI S_ 32 0#32)))
                (addi idx (broadcastInDim S16384 ![] bcast_S_S16384 (constantI S_ 32 100000#32))) idx))
            (broadcastInDim S16384x1 ![] bcast_S_S16384x1 (constantI S_ 32 0#32)))
          (cmpi .sle
            (broadcastInDim S16384x1 ![0] bcast_S16384_S16384x1_0
              (select (cmpi .slt idx (broadcastInDim S16384 ![] bcast_S_S16384 (constantI S_ 32 0#32)))
                (addi idx (broadcastInDim S16384 ![] bcast_S_S16384 (constantI S_ 32 100000#32))) idx))
            (broadcastInDim S16384x1 ![0, 1] bcast_S1x1_S16384x1_0_1
              (broadcastInDim S1x1 ![1] bcast_S1_S1x1_1 (constantI S1 32 99999#32)))))
        (constantI S_ 1 1#1) reducesTo_S16384x1_S16384_d1 h_S_))
    (Host.gather gather_S100000x128_S16384x1_S16384x128_1_0_n_n_0_1_1128 tbl
      (broadcastInDim S16384x1 ![0] bcast_S16384_S16384x1_0
        (select (cmpi .slt idx (broadcastInDim S16384 ![] bcast_S_S16384 (constantI S_ 32 0#32)))
          (addi idx (broadcastInDim S16384 ![] bcast_S_S16384 (constantI S_ 32 100000#32))) idx)))
    (broadcastInDim S16384x128 ![] bcast_S_S16384x128 (constant S_ .f32 0x7FC00000#32))

/-- The entry function's forty-six operations in order, the two calls (and the call nested in each) substituted. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg2) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 100000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 99999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg3) main_call1.v5 main_call1.v13 (fun x i => Host.gather gather_S100000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select ]

set_option maxRecDepth 1024 in
/-- The entry function is that straight line: the callees' definitions substituted at their calls, both sides are one
    chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- Every execution of the entry function terminates, with every buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather in
set_option maxRecDepth 8192 in
/-- Every execution of the entry function terminates with each result at `takeTerm` of its call's table and list, and
    the four arguments as they were: the fold read at the two result buffers and at the four argument buffers. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = takeTerm (m ((c.tc : Thread nD τ).loc main_arg2)) (m ((c.tc : Thread nD τ).loc main_arg0))
      ∧ r.2.mem ((c.tc : Thread nD τ).loc main_v1) = takeTerm (m ((c.tc : Thread nD τ).loc main_arg3)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v0).trans (by after_results_simp; rfl),
      (h c main_v1).trans (by after_results_simp; rfl),
      (h c main_arg0).trans (by after_results_simp),
      (h c main_arg1).trans (by after_results_simp),
      (h c main_arg2).trans (by after_results_simp),
      (h c main_arg3).trans (by after_results_simp)⟩)
    (run_main m ρ)

end Cert.Proof.RefRun

end
-- ==== Proof.PreFacts.lean ====
/-
  What the precondition says of the two lists of row numbers. The precondition is a conjunction of one-bit words, the
  last two of which are "every word of the list is at least 0 and at most 99999 as a signed number", each an and-reduce
  of an elementwise conjunction of two signed comparisons. When the whole conjunction is 1, every conjunct is 1, every
  element under each and-reduce is 1, and at an element the two comparisons say 0 ≤ v ≤ 99999 for the signed reading
  of the word v; a non-negative signed word reads the same unsigned, so its unsigned reading is below 100000.
-/
import Idealize.ShloMosaic.Lib.ReduceAll
import Idealize.ShloMosaic.Lib.ValueIdx
import proofs.«215895_g3710851743747_cont_8to1_b_223_15_alg».proof.Pre_input_domain

namespace Cert.Proof.PreFacts

open Idealize.ShloMosaic Idealize.ShloMosaic.ValueIdx

/-- The shape of rank 0 has exactly one index. -/
instance : Subsingleton Cert.Pre_input_domain.S_.Idx := ⟨fun a b => funext fun d => d.elim0⟩

/-- A 32-bit word that is at least 0 and at most 99999 as a signed number is non-negative, and below 100000 read
    unsigned. -/
theorem word_range (v : BitVec 32) (h0 : IntOp.cmpi .sge v 0#32 = 1#1) (h1 : IntOp.cmpi .sle v 99999#32 = 1#1) :
    0 ≤ v.toInt ∧ v.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  refine ⟨h0, ?_⟩
  have hc := BitVec.toInt_eq_toNat_cond v
  have hlt := v.isLt
  split at hc <;> omega

/-- Under the precondition every word of either list is non-negative as a signed number and below 100000. -/
theorem idx_lt {F : FTy → Type} [FloatOps F] [Cert.Pre_input_domain.Facts]
    (a0 a1 : IVec Cert.Pre_input_domain.S16384 32) (a2 a3 : FVec F Cert.Pre_input_domain.S100000x128 .f32)
    (h : Cert.Pre_input_domain.fn (F := F) a0 a1 a2 a3 = fun _ => 1#1) :
    (∀ n, 0 ≤ (a0 n).toInt ∧ (a0 n).toNat < 100000) ∧ (∀ n, 0 ≤ (a1 n).toInt ∧ (a1 n).toNat < 100000) := by
  have e := congrFun h ix0
  dsimp only [Cert.Pre_input_domain.fn, Cert.Pre_input_domain.fn_part1] at e
  obtain ⟨e123, e4⟩ := IntOp.andi_eq_one.1 e
  obtain ⟨e12, e3⟩ := IntOp.andi_eq_one.1 e123
  refine ⟨fun n => ?_, fun n => ?_⟩
  · obtain ⟨c0, c1⟩ := IntOp.andi_eq_one.1 (Host.reduce_andi_all _ _ _ _ ix0 e3 n)
    exact word_range (a0 n) c0 c1
  · obtain ⟨c0, c1⟩ := IntOp.andi_eq_one.1 (Host.reduce_andi_all _ _ _ _ ix0 e4 n)
    exact word_range (a1 n) c0 c1

end Cert.Proof.PreFacts
-- ==== Proof.Spec.lean ====
/-
  The specification both programs are compared against: an embedding lookup. For a table of 100000 rows of 128
  numbers and a list of 16384 row numbers, row `n` of the result is row `idx[n]` of the table. The row number is the
  list's word read as a natural number; it is reduced modulo the number of rows only so that the function is total
  (under the precondition every word is already below 100000, where the reduction is the identity).
-/
import Idealize.ShloMosaic.PureOps
import Idealize.ShloMosaic.Lib.ValueIdx

noncomputable section

namespace Cert.Proof.Spec

open Idealize.ShloMosaic Idealize.ShloMosaic.ValueIdx

variable {F : FTy → Type}

/-- The table's shape, the list's, the result's. -/
abbrev STbl : Shape := ⟨2, ![100000, 128]⟩
abbrev SIdx : Shape := ⟨1, ![16384]⟩
abbrev SOut : Shape := ⟨2, ![16384, 128]⟩

/-- The row of the table that position `n` of the list names. -/
def rowOf (idx : IVec SIdx 32) (n : Fin 16384) : Fin 100000 :=
  ⟨(idx (ix1 n)).toNat % 100000, Nat.mod_lt _ (by norm_num)⟩

/-- The lookup: entry `(n, k)` of the result is entry `(idx[n], k)` of the table. -/
def take (tbl : Vec F STbl .f32) (idx : IVec SIdx 32) : Vec F SOut .f32 :=
  fun i => tbl (ix2 (rowOf idx ⟨(i 0).val, idx2_lt0 i⟩) (⟨(i 1).val, idx2_lt1 i⟩ : Fin 128))

theorem take_apply (tbl : Vec F STbl .f32) (idx : IVec SIdx 32) (n : Fin 16384) (k : Fin 128) :
    take tbl idx (ix2 n k) = tbl (ix2 (rowOf idx n) k) := rfl

theorem rowOf_val_of_lt (idx : IVec SIdx 32) (n : Fin 16384) (h : (idx (ix1 n)).toNat < 100000) :
    (rowOf idx n).val = (idx (ix1 n)).toNat := Nat.mod_eq_of_lt h

end Cert.Proof.Spec

end
-- ==== Proof.RefValue.lean ====
/-
  The reference's run meets the specification. Under the precondition every row number is at least 0 and below 100000,
  so in one call's composed function: the move of a negative row number changes nothing; every start position is in
  range, so the and-reduced range mask is 1 everywhere and the outer choice keeps the gathered row; and the gather's
  start position, read signed and clamped to [0, 99999], is the row number itself. Entry (n, k) of the gather is the
  table's entry (row n's number, k): that is the lookup.
-/
import proofs.«215895_g3710851743747_cont_8to1_b_223_15_alg».proof.Proof.RefRun
import proofs.«215895_g3710851743747_cont_8to1_b_223_15_alg».proof.Proof.PreFacts
import proofs.«215895_g3710851743747_cont_8to1_b_223_15_alg».proof.Proof.Spec
import proofs.«215895_g3710851743747_cont_8to1_b_223_15_alg».proof.Defs
import Idealize.ShloMosaic.Lib.ValueIdx
import Idealize.ShloMosaic.Lib.Affine
import Idealize.ShloMosaic.PureOps.Reduce

noncomputable section

namespace Cert.Proof.RefValue

open Cert.ReferenceIdeal Cert.ReferenceIdeal.Facts₀ Idealize.ShloMosaic Idealize.ShloMosaic.ValueIdx Idealize.SL.Sem

section Lemmas

variable {F : FTy → Type} [FloatOps F] [Cert.ReferenceIdeal.Facts]

/-- A left fold by `and` over one-bit words that starts at 1 and meets only 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduce by `and` from an initial value of 1 over an array of 1s is 1 at every result index. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : ∀ k, init k = 1#1) :
    Host.reduce IntOp.andi x init h hu j = 1#1 := by
  rw [Host.reduce_eq_foldl, hi]
  exact foldl_andi_one x _ fun n _ => hx n

/-- A 32-bit word that is non-negative as a signed number and below 100000 read unsigned passes both range
    comparisons: at least 0 and at most 99999, signed. -/
theorem word_cmp (v : BitVec 32) (h0 : 0 ≤ v.toInt) (h1 : v.toNat < 100000) :
    IntOp.cmpi .sge v 0#32 = 1#1 ∧ IntOp.cmpi .sle v 99999#32 = 1#1 := by
  rw [IntOp.cmpi_sge, IntOp.cmpi_sle]
  have e0 : (0#32 : BitVec 32).toInt = 0 := by decide
  have e1 : (99999#32 : BitVec 32).toInt = 99999 := by decide
  rw [e0, e1]
  refine ⟨h0, ?_⟩
  have hc := BitVec.toInt_eq_toNat_cond v
  split at hc <;> omega

/-- The gather read at (n, k): on the table's row axis the operand index is the start position of result row n, read
    signed and clamped to [0, 100000 − 1], with no batching or offset part; on the column axis it is the result's own
    column k (start 0, the one offset axis). -/
theorem gather_row {α : Type} {w : Nat} (tbl : S100000x128.Idx → α) (st : IVec S16384x1 w) (n : Fin 16384) (k : Fin 128) :
    Host.gather gather_S100000x128_S16384x1_S16384x128_1_0_n_n_0_1_1128 tbl st (ix2 n k)
      = tbl (ix2 (⟨min (st (ix2 n (0 : Fin 1))).toInt.toNat 99999, by omega⟩ : Fin 100000) k) := by
  unfold Host.gather
  refine congrArg tbl ?_
  funext a
  refine Fin.ext ?_
  show gather_S100000x128_S16384x1_S16384x128_1_0_n_n_0_1_1128.start (ix2 n k) st a + gather_S100000x128_S16384x1_S16384x128_1_0_n_n_0_1_1128.batchCoord (ix2 n k) a + gather_S100000x128_S16384x1_S16384x128_1_0_n_n_0_1_1128.offCoord (ix2 n k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin S100000x128.rank) ∈ gather_S100000x128_S16384x1_S16384x128_1_0_n_n_0_1_1128.startIndexMap from List.mem_singleton.mpr rfl)]
    have hsi : gather_S100000x128_S16384x1_S16384x128_1_0_n_n_0_1_1128.siIdx (ix2 n k) ⟨List.idxOf (⟨0, h0⟩ : Fin S100000x128.rank) gather_S100000x128_S16384x1_S16384x128_1_0_n_n_0_1_1128.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, h1⟩ =>
    have hne : (⟨1, h1⟩ : Fin S100000x128.rank) ∉ ([0] : List (Fin S100000x128.rank)) := fun hm =>
      absurd (congrArg Fin.val (List.mem_singleton.mp hm)) Nat.one_ne_zero
    rw [show gather_S100000x128_S16384x1_S16384x128_1_0_n_n_0_1_1128.start (ix2 n k) st ⟨1, h1⟩ = 0 from by
      unfold GatherDims.start
      exact dif_neg hne]
    simp only [Nat.zero_add]
    unfold GatherDims.offCoord
    rw [dif_pos ((GatherDims.mem_sKept _ _).mpr ⟨hne, List.not_mem_nil⟩)]
    rfl

/-- With every row number in range, every start position passes both range comparisons, so the and-reduce of the
    range mask over a position's one coordinate is 1 at every position. -/
theorem mask_one (idx : IVec S16384 32) (hidx : ∀ n, 0 ≤ (idx n).toInt ∧ (idx n).toNat < 100000) (j : S16384.Idx) :
    Host.reduce IntOp.andi
      (andi
        (cmpi .sge (broadcastInDim S16384x1 ![0] bcast_S16384_S16384x1_0 idx) (broadcastInDim S16384x1 ![] bcast_S_S16384x1 (constantI S_ 32 0#32)))
        (cmpi .sle (broadcastInDim S16384x1 ![0] bcast_S16384_S16384x1_0 idx)
          (broadcastInDim S16384x1 ![0, 1] bcast_S1x1_S16384x1_0_1
            (broadcastInDim S1x1 ![1] bcast_S1_S1x1_1 (constantI S1 32 99999#32)))))
      (constantI S_ 1 1#1) reducesTo_S16384x1_S16384_d1 h_S_ j = 1#1 := by
  refine reduce_andi_one _ _ _ _ _ (fun i => ?_) (fun _ => rfl)
  exact IntOp.andi_eq_one.2 (word_cmp _ (hidx _).1 (hidx _).2)

/-- A non-negative row number is not moved. -/
theorem wrap_eq (idx : IVec S16384 32) (hidx : ∀ n, 0 ≤ (idx n).toInt) :
    select (cmpi .slt idx (broadcastInDim S16384 ![] bcast_S_S16384 (constantI S_ 32 0#32)))
      (addi idx (broadcastInDim S16384 ![] bcast_S_S16384 (constantI S_ 32 100000#32))) idx = idx := by
  funext j
  have hc : ¬ IntOp.cmpi .slt (idx j) 0#32 = 1#1 := by
    rw [IntOp.cmpi_slt, show (0#32 : BitVec 32).toInt = 0 from by decide]
    exact Int.not_lt.mpr (hidx j)
  exact if_neg hc

/-- In range, one call's composed function is the lookup. -/
theorem takeTerm_eq (tbl : FVec F S100000x128 .f32) (idx : IVec S16384 32)
    (hidx : ∀ n, 0 ≤ (idx n).toInt ∧ (idx n).toNat < 100000) :
    Cert.Proof.RefRun.takeTerm tbl idx = Cert.Proof.Spec.take tbl idx := by
  unfold Cert.Proof.RefRun.takeTerm
  rw [wrap_eq idx fun n => (hidx n).1]
  funext i
  obtain ⟨n, k, rfl⟩ : ∃ (n : Fin 16384) (k : Fin 128), i = ix2 n k := ⟨i 0, i 1, eq_ix2 i⟩
  rw [Cert.Proof.Spec.take_apply]
  show Scalar.select (Host.reduce IntOp.andi _ _ _ _ _) _ _ = _
  rw [mask_one idx hidx, select_one, gather_row]
  have hb : (broadcastInDim S16384x1 ![0] bcast_S16384_S16384x1_0 idx) (ix2 n (0 : Fin 1)) = idx (ix1 n) :=
    congrArg idx (funext fun a => by match a with | ⟨0, _⟩ => rfl)
  obtain ⟨h0, h1⟩ := hidx (ix1 n)
  refine congrArg (fun r => tbl (ix2 r k)) (Fin.ext ?_)
  rw [Cert.Proof.Spec.rowOf_val_of_lt idx n h1]
  show min ((broadcastInDim S16384x1 ![0] bcast_S16384_S16384x1_0 idx) (ix2 n (0 : Fin 1))).toInt.toNat 99999 = (idx (ix1 n)).toNat
  rw [hb]
  have hc := BitVec.toInt_eq_toNat_cond (idx (ix1 n))
  have hv : (idx (ix1 n)).toInt = ((idx (ix1 n)).toNat : Int) := by split at hc <;> omega
  rw [hv, Int.toNat_natCast]
  omega

end Lemmas

/-- The reference's run, read against the specification: under the precondition every execution terminates with each
    result the lookup of its call's table at its call's list of row numbers, and the four arguments as they were. -/
theorem run_take
    (m : (ℓ : Loc Cert.ReferenceIdeal.nD Cert.ReferenceIdeal.τ Cert.ReferenceIdeal.sig) → Buf (Elt Ideal) ℓ)
    (ρ : Dev Cert.ReferenceIdeal.nD → PrngReg)
    [Cert.ReferenceIdeal.Facts] [Cert.Pre_input_domain.Facts] (hpre : Cert.Pre_ReferenceIdeal m) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v0) = Cert.Proof.Spec.take (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v1) = Cert.Proof.Spec.take (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) := by
  refine (θ_run _ _ _).mono (fun r h c => ?_) (Cert.Proof.RefRun.run m ρ)
  obtain ⟨h0, h1, ha0, ha1, ha2, ha3⟩ := h c
  obtain ⟨hi0, hi1⟩ := Cert.Proof.PreFacts.idx_lt _ _ _ _ (hpre c)
  exact ⟨h0.trans (Cert.Proof.RefValue.takeTerm_eq _ _ hi0), h1.trans (Cert.Proof.RefValue.takeTerm_eq _ _ hi1), ha0, ha1, ha2, ha3⟩

end Cert.Proof.RefValue

end
-- ==== Proof.SpecW.lean ====
/-
  The same lookup, read through the list of row numbers cut into 32 blocks of 4 rows of 128: position `n` of the flat
  list sits in block `n / 512`, row `(n mod 512) / 128`, lane `n mod 128`. Cutting a list this way keeps its
  row-major order, so the lookup through the cut list is the lookup through the flat one.
-/
import proofs.«215895_g3710851743747_cont_8to1_b_223_15_alg».proof.Proof.Spec
import Idealize.ShloMosaic.Lib.Pipeline.Value

noncomputable section

namespace Cert.Proof.Spec

open Idealize.ShloMosaic Idealize.ShloMosaic.ValueIdx

variable {F : FTy → Type}

/-- The cut list's shape. -/
abbrev SW : Shape := ⟨3, ![32, 4, 128]⟩

/-- Where position `n` of the flat list sits in the cut list. -/
def posW (n : Fin 16384) : SW.Idx :=
  ix3 (⟨n.val / 512, by have := n.isLt; omega⟩ : Fin 32) (⟨n.val % 512 / 128, by have := n.isLt; omega⟩ : Fin 4)
    (⟨n.val % 128, by omega⟩ : Fin 128)

/-- The row of the table that position `n` names, read off the cut list. -/
def rowOfW (w : IVec SW 32) (n : Fin 16384) : Fin 100000 :=
  ⟨(w (posW n)).toNat % 100000, Nat.mod_lt _ (by norm_num)⟩

/-- The lookup through the cut list. -/
def takeW (tbl : Vec F STbl .f32) (w : IVec SW 32) : Vec F SOut .f32 :=
  fun i => tbl (ix2 (rowOfW w ⟨(i 0).val, idx2_lt0 i⟩) (⟨(i 1).val, idx2_lt1 i⟩ : Fin 128))

theorem takeW_apply (tbl : Vec F STbl .f32) (w : IVec SW 32) (n : Fin 16384) (k : Fin 128) :
    takeW tbl w (ix2 n k) = tbl (ix2 (rowOfW w n) k) := rfl

/-- The cut list at the place of position `n` is the flat list at `n`: the two places have one row-major rank. -/
theorem shapeCast_posW (idx : IVec SIdx 32) (h : SIdx.ShapeCasts SW) (n : Fin 16384) :
    shapeCast SW idx h (posW n) = idx (ix1 n) := by
  refine shapeCast_apply idx h (posW n) (ix1 n) ?_
  rw [Shape.rowMajor_val_one, Shape.rowMajor_val_three]
  show n.val = ((n.val / 512) * 4 + n.val % 512 / 128) * 128 + n.val % 128
  omega

/-- The lookup through the cut list is the lookup through the flat list. -/
theorem takeW_shapeCast (tbl : Vec F STbl .f32) (idx : IVec SIdx 32) (h : SIdx.ShapeCasts SW) :
    takeW tbl (shapeCast SW idx h) = take tbl idx := by
  funext i
  show tbl (ix2 (rowOfW (shapeCast SW idx h) ⟨(i 0).val, idx2_lt0 i⟩) _) = tbl (ix2 (rowOf idx ⟨(i 0).val, idx2_lt0 i⟩) _)
  have e : rowOfW (shapeCast SW idx h) ⟨(i 0).val, idx2_lt0 i⟩ = rowOf idx ⟨(i 0).val, idx2_lt0 i⟩ :=
    Fin.ext (by unfold rowOfW rowOf; dsimp only; rw [shapeCast_posW])
  rw [e]

end Cert.Proof.Spec

end
-- ==== Proof.KI.Setup.lean ====
/-
  The lookup kernel's program as the launch theorem sees it, and what each of its 32 tasks is handed.
  Task `(c, s)` — vector subcore `s` of SparseCore `c`, numbered `w = 2 s + c` — reads block `w` of each cut list of
  row numbers (4 rows of 128), reads both tables whole, and writes rows `[512 w, 512 w + 512)` of each result, in four
  chunks of 128 rows. So a task is handed: its block of each list outright, a read share of each table, and its four
  chunks of each result outright; and hands the same back, the chunks holding the lookup.
-/
import proofs.«215895_g3710851743747_cont_8to1_b_223_15_alg».proof.Proof.SpecW
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«215895_g3710851743747_cont_8to1_b_223_15_alg».proof.Proof.Gen.KernelIdeal
import proofs.«215895_g3710851743747_cont_8to1_b_223_15_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The two lists of row numbers and the two tables (the arguments), the two cut lists, the two results. -/
abbrev a0Loc (d : Dev nD) : Loc nD τ sig := (SparseCore.T d).loc main_arg0
abbrev a1Loc (d : Dev nD) : Loc nD τ sig := (SparseCore.T d).loc main_arg1
abbrev t1Loc (d : Dev nD) : Loc nD τ sig := (SparseCore.T d).loc main_arg2
abbrev t2Loc (d : Dev nD) : Loc nD τ sig := (SparseCore.T d).loc main_arg3
abbrev iwLoc (d : Dev nD) : Loc nD τ sig := (SparseCore.T d).loc main_v0
abbrev owLoc (d : Dev nD) : Loc nD τ sig := (SparseCore.T d).loc main_v1
abbrev o1Loc (d : Dev nD) : Loc nD τ sig := (SparseCore.T d).loc main_v2_0
abbrev o2Loc (d : Dev nD) : Loc nD τ sig := (SparseCore.T d).loc main_v2_1

/-- The kernel's memrefs, as the body table passes them. -/
abbrev iwV : Memref sig .scVector .hbm S32x4x128 .i32 := Memref.whole main_v0_scv
abbrev owV : Memref sig .scVector .hbm S32x4x128 .i32 := Memref.whole main_v1_scv
abbrev t1V : Memref sig .scVector .hbm S100000x128 .f32 := Memref.whole main_arg2_scv
abbrev t2V : Memref sig .scVector .hbm S100000x128 .f32 := Memref.whole main_arg3_scv
abbrev o1V : Memref sig .scVector .hbm S16384x128 .f32 := Memref.whole main_v2_0_scv
abbrev o2V : Memref sig .scVector .hbm S16384x128 .f32 := Memref.whole main_v2_1_scv
abbrev s0V : Memref sig .scVector .vmem S4x128 .i32 := Memref.whole cc0_scratch0
abbrev s1V : Memref sig .scVector .vmem S4x128 .i32 := Memref.whole cc0_scratch1
abbrev s2V : Memref sig .scVector .vmem S7x128x128 .f32 := Memref.whole cc0_scratch2

/-- A task's thread, from its grid coordinates. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The task's block of a cut list, as the kernel slices it. -/
abbrev blkRect (L : grid0.Coords) : Rect S32x4x128 := Rect.unit (s := S32x4x128) (k0_off1 L) S1x4x128.size (k0_off1_inb L)
abbrev iwRow (L : grid0.Coords) : Memref sig .scVector .hbm S4x128 .i32 :=
  ((iwV).slice (blkRect L) (fun _ => rfl)).squeeze S4x128 squeezes_S1x4x128_S4x128
abbrev owRow (L : grid0.Coords) : Memref sig .scVector .hbm S4x128 .i32 :=
  ((owV).slice (blkRect L) (fun _ => rfl)).squeeze S4x128 squeezes_S1x4x128_S4x128
/-- A chunk of 128 rows of a result at a row offset word `w`, as the kernel slices it. -/
abbrev chRect (L : grid0.Coords) (w : BitVec 32) (h : ∀ a, (k0_off2 L w) a + S128x128.size a ≤ S16384x128.size a) : Rect S16384x128 :=
  Rect.unit (s := S16384x128) (k0_off2 L w) S128x128.size h
abbrev o1C (L : grid0.Coords) (w : BitVec 32) (h : ∀ a, (k0_off2 L w) a + S128x128.size a ≤ S16384x128.size a) : Memref sig .scVector .hbm S128x128 .f32 :=
  (o1V).slice (chRect L w h) (fun _ => rfl)
abbrev o2C (L : grid0.Coords) (w : BitVec 32) (h : ∀ a, (k0_off2 L w) a + S128x128.size a ≤ S16384x128.size a) : Memref sig .scVector .hbm S128x128 .f32 :=
  (o2V).slice (chRect L w h) (fun _ => rfl)

/-- The elements of a cut list in the task's block, and of a result in chunk `r` of the task (index sets of the
    arrays, the same whichever thread names the array). -/
abbrev blkSet (L : grid0.Coords) : Finset S32x4x128.Idx := (blkRect L).set
abbrev chSet (L : grid0.Coords) (r : Fin 4) : Finset S16384x128.Idx := (chRect L (BitVec.ofNat 32 (128 * r.val)) (k0_off2_inb L r)).set

theorem set_iwRow (L : grid0.Coords) : (iwRow L).view.set = blkSet L := by
  show ((((iwV).view.slice (blkRect L)).reshape S4x128 squeezes_S1x4x128_S4x128.numel_eq)).set = _
  rw [View.set_reshape]
  show ((View.whole (main_v0_scv : Ref sig .scVector)).slice (blkRect L)).set = _
  rw [View.set_slice]; exact Finset.map_refl
theorem set_owRow (L : grid0.Coords) : (owRow L).view.set = blkSet L := by
  show ((((owV).view.slice (blkRect L)).reshape S4x128 squeezes_S1x4x128_S4x128.numel_eq)).set = _
  rw [View.set_reshape]
  show ((View.whole (main_v1_scv : Ref sig .scVector)).slice (blkRect L)).set = _
  rw [View.set_slice]; exact Finset.map_refl
theorem set_o1C (L : grid0.Coords) (w : BitVec 32) (h) : (o1C L w h).view.set = (chRect L w h).set := by
  show ((View.whole (main_v2_0_scv : Ref sig .scVector)).slice (chRect L w h)).set = _
  rw [View.set_slice]; exact Finset.map_refl
theorem set_o2C (L : grid0.Coords) (w : BitVec 32) (h) : (o2C L w h).view.set = (chRect L w h).set := by
  show ((View.whole (main_v2_1_scv : Ref sig .scVector)).slice (chRect L w h)).set = _
  rw [View.set_slice]; exact Finset.map_refl

/-! ## The launch memory, and what the arrays hold when the kernel is called -/

variable (m : (ℓ : Loc nD τ sig) → Buf (Elt F) ℓ) (ρ : Dev nD → PrngReg)

/-- The cut lists: the flat lists of the launch memory, cut (the two reshapes before the call). -/
def W0 (d : Dev nD) : Buf (Elt F) (iwLoc d) := shapeCast S32x4x128 (m (a0Loc d)) shapeCasts_S16384_S32x4x128
def W1 (d : Dev nD) : Buf (Elt F) (owLoc d) := shapeCast S32x4x128 (m (a1Loc d)) shapeCasts_S16384_S32x4x128
/-- What the results hold in the end: the lookups through the cut lists. -/
def G1 (d : Dev nD) : Buf (Elt F) (o1Loc d) := Spec.takeW (m (t1Loc d)) (W0 m d)
def G2 (d : Dev nD) : Buf (Elt F) (o2Loc d) := Spec.takeW (m (t2Loc d)) (W1 m d)

/-- What the proof asks of the launch memory: every row number names a row of its table. -/
def PreOK : Prop := ∀ d : Dev nD, (∀ n, (m (a0Loc d) n).toNat < 100000) ∧ (∀ n, (m (a1Loc d) n).toNat < 100000)

theorem W0_lt (hpre : PreOK m) (d : Dev nD) (j : S32x4x128.Idx) : (W0 m d j).toNat < 100000 := (hpre d).1 _
theorem W1_lt (hpre : PreOK m) (d : Dev nD) (j : S32x4x128.Idx) : (W1 m d j).toNat < 100000 := (hpre d).2 _

/-! ## What a task is handed -/

variable [FloatOps F]

/-- A task's own parts of the arrays: its block of each cut list, its four chunks of each result (at contents `f1`, `f2`). -/
def tileOwn (d : Dev nD) (L : grid0.Coords) (f1 : Buf (Elt F) (o1Loc d)) (f2 : Buf (Elt F) (o2Loc d)) : sProp 𝕄 :=
  iprop((iwLoc d ↦[blkSet L]{fullShare} W0 m d) ∗ (owLoc d ↦[blkSet L]{fullShare} W1 m d)
    ∗ (bigSep Finset.univ fun r : Fin 4 => o1Loc d ↦[chSet L r]{fullShare} f1)
    ∗ (bigSep Finset.univ fun r : Fin 4 => o2Loc d ↦[chSet L r]{fullShare} f2))

/-- With its read share `q` of each table. -/
def tileRes (d : Dev nD) (L : grid0.Coords) (q : PosShare TreeShare) (f1 : Buf (Elt F) (o1Loc d)) (f2 : Buf (Elt F) (o2Loc d)) : sProp 𝕄 :=
  iprop((t1Loc d ↦{q} m (t1Loc d)) ∗ (t2Loc d ↦{q} m (t2Loc d)) ∗ tileOwn m d L f1 f2)

instance tileOwn_storable (d : Dev nD) (L : grid0.Coords) (f1 f2) : BI.Storable (upEmb : UEmb _ 𝕄) (tileOwn m d L f1 f2) := by
  unfold tileOwn; infer_instance
instance tileRes_storable (d : Dev nD) (L : grid0.Coords) (q) (f1 f2) : BI.Storable (upEmb : UEmb _ 𝕄) (tileRes m d L q f1 f2) := by
  unfold tileRes; infer_instance

/-- The grid coordinates of task `i` of SparseCore `c` of the call. -/
def coordsV (c : Fin (grid0.bound 0)) (s : Fin (grid0.bound 1)) : grid0.Coords :=
  fun | 0 => c | 1 => s | ⟨_ + 2, h⟩ => absurd h (Nat.not_lt.2 (Nat.le_add_left _ _))
abbrev Lc (c : Fin ((K (F := F)).nCore 0)) (i : Fin ((K (F := F)).nSub 0)) : grid0.Coords := coordsV ⟨c.val, c.isLt⟩ ⟨i.val, i.isLt⟩

/-- The read shares: the full share cut once per SparseCore, each cut again once per task. -/
abbrev qc (c : Fin ((K (F := F)).nCore 0)) : PosShare TreeShare := Transfers.shareTok fullShare ((K (F := F)).nCore 0) c
abbrev qt (c : Fin ((K (F := F)).nCore 0)) (i : Fin ((K (F := F)).nSub 0)) : PosShare TreeShare :=
  Transfers.shareTok (qc (F := F) c) ((K (F := F)).nSub 0) i

/-- What a SparseCore is handed: its share of each table and its tasks' own parts. -/
def coreRes (d : Dev nD) (c : Fin ((K (F := F)).nCore 0)) (f1 : Buf (Elt F) (o1Loc d)) (f2 : Buf (Elt F) (o2Loc d)) : sProp 𝕄 :=
  iprop((t1Loc d ↦{qc (F := F) c} m (t1Loc d)) ∗ (t2Loc d ↦{qc (F := F) c} m (t2Loc d))
    ∗ bigSep Finset.univ fun i : Fin ((K (F := F)).nSub 0) => tileOwn m d (Lc c i) f1 f2)
instance coreRes_storable (d : Dev nD) (c) (f1 f2) : BI.Storable (upEmb : UEmb _ 𝕄) (coreRes m d c f1 f2) := by
  unfold coreRes; infer_instance

/-- What the one call carries: to a SparseCore its share of the tables and its tasks' own parts, to a task its share and
    its own parts; back the same, the results' chunks at the lookups. -/
def P : (K (F := F)).Pay (nD := nD) (Val := Elt F) (Name := ℕ) (U := UU) where
  st := fun q d c => match q, c with
    | 0, c => coreRes m d c (m (o1Loc d)) (m (o2Loc d))
  dn := fun q d c => match q, c with
    | 0, c => coreRes m d c (G1 m d) (G2 m d)
  go := fun q d c i => match q, c, i with
    | 0, c, i => tileRes m d (Lc c i) (qt c i) (m (o1Loc d)) (m (o2Loc d))
  td := fun q d c i => match q, c, i with
    | 0, c, i => tileRes m d (Lc c i) (qt c i) (G1 m d) (G2 m d)
  x := fun _ _ => iprop(emp)

instance P_storable : (P (F := F) m).IsStorable where
  st q d c := match q, c with
    | 0, c => (inferInstance : BI.Storable (upEmb : UEmb _ 𝕄) (coreRes m d c (m (o1Loc d)) (m (o2Loc d))))
  dn q d c := match q, c with
    | 0, c => (inferInstance : BI.Storable (upEmb : UEmb _ 𝕄) (coreRes m d c (G1 m d) (G2 m d)))
  go q d c i := match q, c, i with
    | 0, c, i => (inferInstance : BI.Storable (upEmb : UEmb _ 𝕄) (tileRes m d (Lc c i) (qt c i) (m (o1Loc d)) (m (o2Loc d))))
  td q d c i := match q, c, i with
    | 0, c, i => (inferInstance : BI.Storable (upEmb : UEmb _ 𝕄) (tileRes m d (Lc c i) (qt c i) (G1 m d) (G2 m d)))

end Cert.Proof.KI

end
-- ==== Proof.KI.Value.lean ====
/-
  What a task's chunks hold, index by index. A chunk's contents were copied out of one of the seven row buffers; that
  buffer was last filled by one gather; the gather put, at row `k`, the table's row named by word `k` of a row of the
  task's index scratch; and that scratch holds the task's block of the cut list. Followed back, entry `(k, j)` of chunk
  `r` of task `w` is the table at row `list[w, r, k]`, column `j` — the lookup at row `512 w + 128 r + k`.
-/
import proofs.«215895_g3710851743747_cont_8to1_b_223_15_alg».proof.Proof.KI.Setup

noncomputable section

namespace Cert.Proof.KI

open Cert.KernelIdeal Cert.KernelIdeal.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The seven row buffers are disjoint parts of one scratch -/

abbrev slotRect (a : ℕ) (h : ∀ x, (![a, 0, 0] : Fin 3 → ℕ) x + S1x128x128.size x ≤ S7x128x128.size x) : Rect S7x128x128 :=
  Rect.unit (s := S7x128x128) ![a, 0, 0] S1x128x128.size h
abbrev slot (a : ℕ) (h : ∀ x, (![a, 0, 0] : Fin 3 → ℕ) x + S1x128x128.size x ≤ S7x128x128.size x) : Memref sig .scVector .vmem S128x128 .f32 :=
  ((s2V).slice (slotRect a h) (fun _ => rfl)).squeeze S128x128 squeezes_S1x128x128_S128x128

theorem set_slot (a : ℕ) (h) : (slot a h).view.set = (slotRect a h).set := by
  show ((((s2V).view.slice (slotRect a h)).reshape S128x128 squeezes_S1x128x128_S128x128.numel_eq)).set = _
  rw [View.set_reshape]
  show ((View.whole (cc0_scratch2 : Ref sig .scVector)).slice (slotRect a h)).set = _
  rw [View.set_slice]; exact Finset.map_refl

theorem slot_disjoint {a b : ℕ} (ha hb) (hab : a ≠ b) : Disjoint (slot a ha).view.set (slot b hb).view.set := by
  rw [set_slot, set_slot]
  exact Rect.unit_disjoint 0 (by show a + 1 ≤ b ∨ b + 1 ≤ a; omega)

/-- Reading one row buffer sees nothing of a write into another. -/
theorem read_slot_write_other {a b : ℕ} (ha hb) (hab : a ≠ b) (f : BufTy.Contents (Elt F) (slot b hb).view.ty) (w : S128x128.Idx → Elt F .f32) :
    View.read (Elt F) (slot a ha).view (View.write (Elt F) (slot b hb).view f w Finset.univ) = View.read (Elt F) (slot a ha).view f := by
  funext y
  rw [View.read_apply, View.read_apply, View.write_of_not_mem]
  intro hm
  rw [View.setOn_univ] at hm
  exact Finset.disjoint_left.mp (slot_disjoint ha hb hab) ((slot a ha).view.emb_mem_set y) hm

/-- Reading a row buffer just written whole gives what was written. -/
theorem read_slot_write_same {a : ℕ} (ha ha') (f : BufTy.Contents (Elt F) (slot a ha').view.ty) (w : S128x128.Idx → Elt F .f32) :
    View.read (Elt F) (slot a ha).view (View.write (Elt F) (slot a ha').view f w Finset.univ) = w :=
  View.read_write_univ f w

/-- The same row buffers, as views. -/
abbrev slotV (a : ℕ) (h : ∀ x, (![a, 0, 0] : Fin 3 → ℕ) x + S1x128x128.size x ≤ S7x128x128.size x) : View sig .scVector .vmem S128x128 .f32 :=
  ((View.whole (cc0_scratch2 : Ref sig .scVector)).slice (slotRect a h)).reshape S128x128 squeezes_S1x128x128_S128x128.numel_eq

theorem readV_other {a b : ℕ} (ha hb) (hab : a ≠ b) (f : BufTy.Contents (Elt F) (slotV b hb).ty) (w : S128x128.Idx → Elt F .f32) :
    View.read (Elt F) (slotV a ha) (View.write (Elt F) (slotV b hb) f w Finset.univ) = View.read (Elt F) (slotV a ha) f :=
  read_slot_write_other ha hb hab f w
theorem readV_same {a : ℕ} (ha ha') (f : BufTy.Contents (Elt F) (slotV a ha').ty) (w : S128x128.Idx → Elt F .f32) :
    View.read (Elt F) (slotV a ha) (View.write (Elt F) (slotV a ha') f w Finset.univ) = w :=
  View.read_write_univ f w

/-! ## The gather, at an index -/

/-- Row `k` of what a gather delivers is the table's row named by word `k` of the list. -/
theorem gather_apply (hg : S100000x128.Gathers 0 S128x128) (g : S100000x128.Idx → Elt F .f32) (lst : S128.Idx → Elt F .i32)
    (hn : S128.numel = S128x128.size hg.axis') (hin : ∀ x, (lst x).toNat < S100000x128.size hg.axis) (k : Fin 128) (j : Fin 128) :
    SparseCore.gatherPayload hg g (SparseCore.rows lst hn hin) (ix2 k j) = g (ix2 (⟨(lst (ix1 k)).toNat, hin _⟩ : Fin 100000) j) := by
  unfold SparseCore.gatherPayload
  refine congrArg g (funext fun b => Fin.ext ?_)
  match b with
  | ⟨0, _⟩ =>
    have e := Shape.Gathers.idx_axis hg (SparseCore.rows lst hn hin) (ix2 k j)
    rw [show (⟨0, _⟩ : Fin S100000x128.rank) = hg.axis from rfl, e]
    show (lst (S128.rowMajor.symm _)).toNat = (lst (ix1 k)).toNat
    congr 2
    rw [Equiv.symm_apply_eq]
    refine Fin.ext ?_
    rw [Shape.rowMajor_val_one]
    rfl
  | ⟨1, _⟩ =>
    exact Shape.Gathers.idx_of_ne hg (SparseCore.rows lst hn hin) (ix2 k j) ⟨1, by decide⟩ (by decide)

/-! ## The index scratch, the task's block of a cut list, the table -/

/-- The table read through the kernel's whole-array slice of it is the table. -/
theorem read_t1 (h : ∀ a, (![0, 0] : Fin 2 → ℕ) a + S100000x128.size a ≤ S100000x128.size a) (tb : BufTy.Contents (Elt F) (t1V).view.ty) (j : S100000x128.Idx) :
    View.read (Elt F) ((t1V).slice (Rect.unit (s := S100000x128) ![0, 0] S100000x128.size h) (fun _ => rfl)).view tb j = tb j := by
  rw [(View.read_apply _ _).trans (cast_eq _ _)]
  refine congrArg tb (funext fun a => Fin.ext ?_)
  show ((Rect.unit (s := S100000x128) ![0, 0] S100000x128.size h).emb j a : ℕ) = (j a : ℕ)
  rw [Rect.emb_apply]
  match a with
  | ⟨0, _⟩ => show 0 + 1 * (j 0).val = (j 0).val; omega
  | ⟨1, _⟩ => show 0 + 1 * (j 1).val = (j 1).val; omega
theorem read_t2 (h : ∀ a, (![0, 0] : Fin 2 → ℕ) a + S100000x128.size a ≤ S100000x128.size a) (tb : BufTy.Contents (Elt F) (t2V).view.ty) (j : S100000x128.Idx) :
    View.read (Elt F) ((t2V).slice (Rect.unit (s := S100000x128) ![0, 0] S100000x128.size h) (fun _ => rfl)).view tb j = tb j := by
  rw [(View.read_apply _ _).trans (cast_eq _ _)]
  refine congrArg tb (funext fun a => Fin.ext ?_)
  show ((Rect.unit (s := S100000x128) ![0, 0] S100000x128.size h).emb j a : ℕ) = (j a : ℕ)
  rw [Rect.emb_apply]
  match a with
  | ⟨0, _⟩ => show 0 + 1 * (j 0).val = (j 0).val; omega
  | ⟨1, _⟩ => show 0 + 1 * (j 1).val = (j 1).val; omega

/-- Lane `x` of row `r` of an index scratch is entry `(r, x)` of what the scratch was filled with. -/
theorem rowSlot_emb (r : ℕ) (h : ∀ a, (![r, 0] : Fin 2 → ℕ) a + S1x128.size a ≤ S4x128.size a) (hr : r < 4) (x : Fin 128) :
    (Rect.unit (s := S4x128) ![r, 0] S1x128.size h).emb (Shape.reshapeEquiv squeezes_S1x128_S128.numel_eq (ix1 x)) = ix2 (⟨r, hr⟩ : Fin 4) x := by
  have e : Shape.reshapeEquiv squeezes_S1x128_S128.numel_eq (ix1 x) = (ix2 (0 : Fin 1) x : S1x128.Idx) :=
    Shape.reshapeEquiv_eq_of_rowMajor _ (by rw [Shape.rowMajor_val_two, Shape.rowMajor_val_one]; show (0 : ℕ) * 128 + x.val = x.val; omega)
  rw [e]
  funext a; refine Fin.ext ?_
  rw [Rect.emb_apply]
  match a with
  | ⟨0, _⟩ => show r + 1 * 0 = r; omega
  | ⟨1, _⟩ => show 0 + 1 * x.val = x.val; omega

theorem read_row_s0 (r : ℕ) (h : ∀ a, (![r, 0] : Fin 2 → ℕ) a + S1x128.size a ≤ S4x128.size a) (hr : r < 4)
    (g : BufTy.Contents (Elt F) (s0V).view.ty) (pay : S4x128.Idx → Elt F .i32) (x : Fin 128) :
    View.read (Elt F) (((s0V).slice (Rect.unit (s := S4x128) ![r, 0] S1x128.size h) (fun _ => rfl)).squeeze S128 squeezes_S1x128_S128).view
      (View.write (Elt F) (s0V).view g pay Finset.univ) (ix1 x) = pay (ix2 (⟨r, hr⟩ : Fin 4) x) := by
  rw [show View.write (Elt F) (s0V).view g pay Finset.univ = pay from View.write_whole_univ _ _ _]
  rw [(View.read_apply _ _).trans (cast_eq _ _)]
  exact congrArg pay (rowSlot_emb r h hr x)
theorem read_row_s1 (r : ℕ) (h : ∀ a, (![r, 0] : Fin 2 → ℕ) a + S1x128.size a ≤ S4x128.size a) (hr : r < 4)
    (g : BufTy.Contents (Elt F) (s1V).view.ty) (pay : S4x128.Idx → Elt F .i32) (x : Fin 128) :
    View.read (Elt F) (((s1V).slice (Rect.unit (s := S4x128) ![r, 0] S1x128.size h) (fun _ => rfl)).squeeze S128 squeezes_S1x128_S128).view
      (View.write (Elt F) (s1V).view g pay Finset.univ) (ix1 x) = pay (ix2 (⟨r, hr⟩ : Fin 4) x) := by
  rw [show View.write (Elt F) (s1V).view g pay Finset.univ = pay from View.write_whole_univ _ _ _]
  rw [(View.read_apply _ _).trans (cast_eq _ _)]
  exact congrArg pay (rowSlot_emb r h hr x)

/-- The task's number: `2 s + c`. -/
def wid (L : grid0.Coords) : Fin 32 := ⟨2 * (L 1).val + (L 0).val, by have h0 : (L 0).val < 2 := (L 0).isLt; have h1 : (L 1).val < 16 := (L 1).isLt; omega⟩

/-- Entry `(r, x)` of the task's block of a cut list is the cut list at `(w, r, x)`. -/
theorem blk_emb (L : grid0.Coords) (r : Fin 4) (x : Fin 128) :
    (blkRect L).emb (Shape.reshapeEquiv squeezes_S1x4x128_S4x128.numel_eq (ix2 r x)) = ix3 (wid L) r x := by
  have e : Shape.reshapeEquiv squeezes_S1x4x128_S4x128.numel_eq (ix2 r x) = (ix3 (0 : Fin 1) r x : S1x4x128.Idx) :=
    Shape.reshapeEquiv_eq_of_rowMajor _ (by rw [Shape.rowMajor_val_three, Shape.rowMajor_val_two]; show ((0 : ℕ) * 4 + r.val) * 128 + x.val = r.val * 128 + x.val; omega)
  rw [e]
  funext a; refine Fin.ext ?_
  rw [Rect.emb_apply]
  show (k0_off1 L) a + 1 * _ = _
  rw [k0_off1_eq]
  match a with
  | ⟨0, _⟩ => show 2 * (L 1).val + (L 0).val + 1 * 0 = 2 * (L 1).val + (L 0).val; omega
  | ⟨1, _⟩ => show 0 + 1 * r.val = r.val; omega
  | ⟨2, _⟩ => show 0 + 1 * x.val = x.val; omega

theorem read_iwRow (L : grid0.Coords) (wl : BufTy.Contents (Elt F) (iwV).view.ty) (r : Fin 4) (x : Fin 128) :
    View.read (Elt F) (iwRow L).view wl (ix2 r x) = wl (ix3 (wid L) r x) := by
  rw [(View.read_apply _ _).trans (cast_eq _ _)]
  exact congrArg wl (blk_emb L r x)
theorem read_owRow (L : grid0.Coords) (wl : BufTy.Contents (Elt F) (owV).view.ty) (r : Fin 4) (x : Fin 128) :
    View.read (Elt F) (owRow L).view wl (ix2 r x) = wl (ix3 (wid L) r x) := by
  rw [(View.read_apply _ _).trans (cast_eq _ _)]
  exact congrArg wl (blk_emb L r x)

/-! ## A chunk of a result -/

/-- Entry `(k, j)` of chunk `r` of task `w` is entry `(512 w + 128 r + k, j)` of the result. -/
theorem ch_emb (L : grid0.Coords) (r : Fin 4) (w : BitVec 32) (hw : w = BitVec.ofNat 32 (128 * r.val)) (h) (k j : Fin 128) :
    (chRect L w h).emb (ix2 k j) = ix2 (⟨512 * (wid L).val + 128 * r.val + k.val, by have := (wid L).isLt; have := r.isLt; omega⟩ : Fin 16384) j := by
  subst hw
  funext a; refine Fin.ext ?_
  rw [Rect.emb_apply]
  show (k0_off2 L (BitVec.ofNat 32 (128 * r.val))) a + 1 * _ = _
  rw [k0_off2_eq]
  match a with
  | ⟨0, _⟩ => show 1024 * (L 1).val + 512 * (L 0).val + 128 * r.val + 1 * k.val = 512 * (2 * (L 1).val + (L 0).val) + 128 * r.val + k.val; omega
  | ⟨1, _⟩ => show 0 + 1 * j.val = j.val; omega

/-- The lookup through the cut list, at an entry of a chunk: the table's row named by the cut list at `(w, r, k)`. -/
theorem takeW_chunk (tbl : Vec F Spec.STbl .f32) (wl : IVec Spec.SW 32) (hwl : ∀ j, (wl j).toNat < 100000) (L : grid0.Coords) (r : Fin 4) (k j : Fin 128) (hlt) :
    Spec.takeW tbl wl (ix2 (⟨512 * (wid L).val + 128 * r.val + k.val, hlt⟩ : Fin 16384) j)
      = tbl (ix2 (⟨(wl (ix3 (wid L) r k)).toNat, hwl _⟩ : Fin 100000) j) := by
  rw [Spec.takeW_apply]
  refine congrArg tbl (congrArg (fun a => ix2 a j) (Fin.ext ?_))
  show (wl (Spec.posW _)).toNat % 100000 = (wl (ix3 (wid L) r k)).toNat
  have hp : Spec.posW (⟨512 * (wid L).val + 128 * r.val + k.val, hlt⟩ : Fin 16384) = ix3 (wid L) r k := by
    unfold Spec.posW
    have hw := (wid L).isLt; have hr := r.isLt; have hk := k.isLt
    congr 1 <;> refine Fin.ext ?_ <;> dsimp only <;> omega
  rw [hp, Nat.mod_eq_of_lt (hwl _)]

/-! ## What a chunk holds -/

local notation "𝕄" => MT nD τ sig (Idealize.ShloMosaic.SparseCore.Cfg.HIx 1) (Elt F) ℕ UU ℕ

variable (m : (ℓ : Loc nD τ sig) → Buf (Elt F) ℓ)

/-- Chunk `r` of result 1, entry `(k, j)`: the gather's row `k` out of the table, named by row `r` of the index scratch,
    which holds the task's block of the cut list; that is the lookup at that entry. -/
theorem chunk1_val (hpre : PreOK m) (d : Dev nD) (L : grid0.Coords) (r : Fin 4)
    (hg : S100000x128.Gathers 0 S128x128) (ht : ∀ a, (![0, 0] : Fin 2 → ℕ) a + S100000x128.size a ≤ S100000x128.size a)
    (hrow : ∀ a, (![r.val, 0] : Fin 2 → ℕ) a + S1x128.size a ≤ S4x128.size a)
    (g : BufTy.Contents (Elt F) (s0V).view.ty) (hn) (hin)
    (w : BitVec 32) (hw : w = BitVec.ofNat 32 (128 * r.val)) (h) (k j : Fin 128) :
    SparseCore.gatherPayload hg (View.read (Elt F) ((t1V).slice (Rect.unit (s := S100000x128) ![0, 0] S100000x128.size ht) (fun _ => rfl)).view (m (t1Loc d)))
        (SparseCore.rows (View.read (Elt F) (((s0V).slice (Rect.unit (s := S4x128) ![r.val, 0] S1x128.size hrow) (fun _ => rfl)).squeeze S128 squeezes_S1x128_S128).view
          (View.write (Elt F) (s0V).view g (View.read (Elt F) (iwRow L).view (W0 m d)) Finset.univ)) hn hin) (ix2 k j)
      = G1 m d ((chRect L w h).emb (ix2 k j)) := by
  rw [gather_apply, read_t1, ch_emb L r w hw h k j]
  unfold G1
  rw [takeW_chunk (m (t1Loc d)) (W0 m d) (W0_lt m hpre d) L r k j]
  refine congrArg (m (t1Loc d)) (congrArg (fun a => ix2 a j) (Fin.ext ?_))
  exact congrArg BitVec.toNat ((read_row_s0 r.val hrow r.isLt g _ k).trans (read_iwRow L (W0 m d) r k))

/-- Chunk `r` of result 2, entry `(k, j)`: the gather's row `k` out of the table, named by row `r` of the index scratch,
    which holds the task's block of the cut list; that is the lookup at that entry. -/
theorem chunk2_val (hpre : PreOK m) (d : Dev nD) (L : grid0.Coords) (r : Fin 4)
    (hg : S100000x128.Gathers 0 S128x128) (ht : ∀ a, (![0, 0] : Fin 2 → ℕ) a + S100000x128.size a ≤ S100000x128.size a)
    (hrow : ∀ a, (![r.val, 0] : Fin 2 → ℕ) a + S1x128.size a ≤ S4x128.size a)
    (g : BufTy.Contents (Elt F) (s1V).view.ty) (hn) (hin)
    (w : BitVec 32) (hw : w = BitVec.ofNat 32 (128 * r.val)) (h) (k j : Fin 128) :
    SparseCore.gatherPayload hg (View.read (Elt F) ((t2V).slice (Rect.unit (s := S100000x128) ![0, 0] S100000x128.size ht) (fun _ => rfl)).view (m (t2Loc d)))
        (SparseCore.rows (View.read (Elt F) (((s1V).slice (Rect.unit (s := S4x128) ![r.val, 0] S1x128.size hrow) (fun _ => rfl)).squeeze S128 squeezes_S1x128_S128).view
          (View.write (Elt F) (s1V).view g (View.read (Elt F) (owRow L).view (W1 m d)) Finset.univ)) hn hin) (ix2 k j)
      = G2 m d ((chRect L w h).emb (ix2 k j)) := by
  rw [gather_apply, read_t2, ch_emb L r w hw h k j]
  unfold G2
  rw [takeW_chunk (m (t2Loc d)) (W1 m d) (W1_lt m hpre d) L r k j]
  refine congrArg (m (t2Loc d)) (congrArg (fun a => ix2 a j) (Fin.ext ?_))
  exact congrArg BitVec.toNat ((read_row_s1 r.val hrow r.isLt g _ k).trans (read_owRow L (W1 m d) r k))

/-- A chunk of result 1 whose contents are one whole write of `p`, where `p` is `G` read at the chunk's entries, holds `G`. -/
theorem pts_chunk1 (d : Dev nD) (L : grid0.Coords) (w : BitVec 32) (h) (f : Buf (Elt F) (o1Loc d)) (p : S128x128.Idx → Elt F .f32)
    (G : Buf (Elt F) (o1Loc d)) (hp : ∀ k j : Fin 128, p (ix2 k j) = G ((chRect L w h).emb (ix2 k j))) :
    ((o1C L w h).view.loc (thr d L) ↦[(o1C L w h).view.set]{fullShare} (o1C L w h).view.writes (Elt F) f [⟨Rect.whole S128x128, p⟩] : sProp 𝕄)
      = ((o1C L w h).view.loc (thr d L) ↦[(o1C L w h).view.set]{fullShare} G) := by
  refine pointsTo_congr fun i hi => ?_
  obtain ⟨y, -, rfl⟩ := Finset.mem_map.mp hi
  have e : ((o1C L w h).view.slice (Rect.whole S128x128)).emb y = (o1C L w h).view.emb y :=
    congrArg (o1C L w h).view.emb (Rect.emb_whole_apply S128x128 y)
  rw [View.writes_singleton, ← e, View.write_emb_of_mem _ _ (Finset.mem_univ y), cast_eq, e]
  obtain ⟨k, j, rfl⟩ : ∃ k j : Fin 128, y = ix2 k j := ⟨y 0, y 1, eq_ix2 y⟩
  exact hp k j

/-- A chunk of result 2 whose contents are one whole write of `p`, where `p` is `G` read at the chunk's entries, holds `G`. -/
theorem pts_chunk2 (d : Dev nD) (L : grid0.Coords) (w : BitVec 32) (h) (f : Buf (Elt F) (o2Loc d)) (p : S128x128.Idx → Elt F .f32)
    (G : Buf (Elt F) (o2Loc d)) (hp : ∀ k j : Fin 128, p (ix2 k j) = G ((chRect L w h).emb (ix2 k j))) :
    ((o2C L w h).view.loc (thr d L) ↦[(o2C L w h).view.set]{fullShare} (o2C L w h).view.writes (Elt F) f [⟨Rect.whole S128x128, p⟩] : sProp 𝕄)
      = ((o2C L w h).view.loc (thr d L) ↦[(o2C L w h).view.set]{fullShare} G) := by
  refine pointsTo_congr fun i hi => ?_
  obtain ⟨y, -, rfl⟩ := Finset.mem_map.mp hi
  have e : ((o2C L w h).view.slice (Rect.whole S128x128)).emb y = (o2C L w h).view.emb y :=
    congrArg (o2C L w h).view.emb (Rect.emb_whole_apply S128x128 y)
  rw [View.writes_singleton, ← e, View.write_emb_of_mem _ _ (Finset.mem_univ y), cast_eq, e]
  obtain ⟨k, j, rfl⟩ : ∃ k j : Fin 128, y = ix2 k j := ⟨y 0, y 1, eq_ix2 y⟩
  exact hp k j

end Cert.Proof.KI

end
-- ==== Proof.KI.Tile.lean ====
/-
  One task of the lookup kernel, run once at a symbolic (SparseCore, vector subcore) pair. The task copies its block of
  each cut list into an index scratch, then for each of its eight chunks gathers 128 table rows into one of seven row
  buffers and copies the buffer out to the chunk of the result; every copy and gather has its own semaphore free when it
  is issued, and no buffer is touched between a copy's issue and its wait. What the task leaves in its chunks is the
  lookup (the value lemmas of the sibling module); everything else it was handed comes back unchanged.
-/
import proofs.«215895_g3710851743747_cont_8to1_b_223_15_alg».proof.Proof.KI.Value

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## Words in range, at an index scratch's rows -/

/-- A row of the first index scratch, after the whole scratch was overwritten by words all below 100000, holds words below 100000. -/
theorem inb_s0 (pay : S4x128.Idx → Elt F .i32) (hpay : ∀ y, (pay y).toNat < 100000)
    (fs : BufTy.Contents (Elt F) (s0V : Memref sig .scVector .vmem S4x128 .i32).view.ty) (off : Fin 2 → ℕ) (hoff : ∀ a, off a + S1x128.size a ≤ S4x128.size a) (hsq : S1x128.Squeezes S128) :
    ∀ x : S128.Idx, (View.read (Elt F) (((s0V).slice (Rect.unit (s := S4x128) off S1x128.size hoff) (fun _ => rfl)).squeeze S128 hsq).view
        (View.write (Elt F) (s0V).view fs pay Finset.univ) x).toNat < 100000 := by
  intro x
  rw [show View.write (Elt F) (s0V).view fs pay Finset.univ = pay from View.write_whole_univ _ _ _]
  rw [(View.read_apply _ _).trans (cast_eq _ _)]
  exact hpay _
theorem inb_s1 (pay : S4x128.Idx → Elt F .i32) (hpay : ∀ y, (pay y).toNat < 100000)
    (fs : BufTy.Contents (Elt F) (s1V : Memref sig .scVector .vmem S4x128 .i32).view.ty) (off : Fin 2 → ℕ) (hoff : ∀ a, off a + S1x128.size a ≤ S4x128.size a) (hsq : S1x128.Squeezes S128) :
    ∀ x : S128.Idx, (View.read (Elt F) (((s1V).slice (Rect.unit (s := S4x128) off S1x128.size hoff) (fun _ => rfl)).squeeze S128 hsq).view
        (View.write (Elt F) (s1V).view fs pay Finset.univ) x).toNat < 100000 := by
  intro x
  rw [show View.write (Elt F) (s1V).view fs pay Finset.univ = pay from View.write_whole_univ _ _ _]
  rw [(View.read_apply _ _).trans (cast_eq _ _)]
  exact hpay _

section Tile

variable (d : Dev nD) (L : grid0.Coords) [FloatOps F]

/-- The task, with every array part held through the kernel's own memrefs. -/
theorem tile_run (hpre : PreOK m) (O : CellTallies nD τ sig (HIx 1)) (W : Waits sig (HIx 1)) (hO : ∀ g, O g none = 0)
    (q1 q2 : PosShare TreeShare) (f1 : Buf (Elt F) (o1Loc d)) (f2 : Buf (Elt F) (o2Loc d))
    (fs0 : Buf (Elt F) ((s0V).view.loc (thr d L))) (fs1 : Buf (Elt F) ((s1V).view.loc (thr d L))) (fs2 : Buf (Elt F) ((s2V).view.loc (thr d L))) :
    iprop(levAts (K (F := F)).L (K (F := F)).lev
        ∗ ((iwRow L).view.loc (thr d L) ↦[(iwRow L).view.set]{fullShare} W0 m d)
        ∗ ((owRow L).view.loc (thr d L) ↦[(owRow L).view.set]{fullShare} W1 m d)
        ∗ ((t1V).view.loc (thr d L) ↦{Transfers.shareTokN q1 2} m (t1Loc d)) ∗ ((t1V).view.loc (thr d L) ↦{Transfers.shareTokN q1 3} m (t1Loc d)) ∗ ((t1V).view.loc (thr d L) ↦{Transfers.shareTokN q1 4} m (t1Loc d)) ∗ ((t1V).view.loc (thr d L) ↦{Transfers.shareTokN q1 5} m (t1Loc d))
        ∗ ((t2V).view.loc (thr d L) ↦{Transfers.shareTokN q2 6} m (t2Loc d)) ∗ ((t2V).view.loc (thr d L) ↦{Transfers.shareTokN q2 7} m (t2Loc d)) ∗ ((t2V).view.loc (thr d L) ↦{Transfers.shareTokN q2 8} m (t2Loc d)) ∗ ((t2V).view.loc (thr d L) ↦{Transfers.shareTokN q2 2} m (t2Loc d))
        ∗ ((o1C L 0#32 (k0_off2_inb L 0)).view.loc (thr d L) ↦[(o1C L 0#32 (k0_off2_inb L 0)).view.set]{fullShare} f1)
        ∗ ((o1C L 128#32 (k0_off2_inb L 1)).view.loc (thr d L) ↦[(o1C L 128#32 (k0_off2_inb L 1)).view.set]{fullShare} f1)
        ∗ ((o1C L 256#32 (k0_off2_inb L 2)).view.loc (thr d L) ↦[(o1C L 256#32 (k0_off2_inb L 2)).view.set]{fullShare} f1)
        ∗ ((o1C L 384#32 (k0_off2_inb L 3)).view.loc (thr d L) ↦[(o1C L 384#32 (k0_off2_inb L 3)).view.set]{fullShare} f1)
        ∗ ((o2C L 0#32 (k0_off2_inb L 0)).view.loc (thr d L) ↦[(o2C L 0#32 (k0_off2_inb L 0)).view.set]{fullShare} f2)
        ∗ ((o2C L 128#32 (k0_off2_inb L 1)).view.loc (thr d L) ↦[(o2C L 128#32 (k0_off2_inb L 1)).view.set]{fullShare} f2)
        ∗ ((o2C L 256#32 (k0_off2_inb L 2)).view.loc (thr d L) ↦[(o2C L 256#32 (k0_off2_inb L 2)).view.set]{fullShare} f2)
        ∗ ((o2C L 384#32 (k0_off2_inb L 3)).view.loc (thr d L) ↦[(o2C L 384#32 (k0_off2_inb L 3)).view.set]{fullShare} f2)
        ∗ ((s0V).view.loc (thr d L) ↦{fullShare} fs0) ∗ ((s1V).view.loc (thr d L) ↦{fullShare} fs1) ∗ ((s2V).view.loc (thr d L) ↦{fullShare} fs2)
        ∗ semVal (thr d L, SemLoc.dma cc0_scratch3.sem) 0
        ∗ semVal (thr d L, SemLoc.dma cc0_scratch4.sem) 0
        ∗ semVal (thr d L, SemLoc.dma cc0_scratch5.sem) 0
        ∗ semVal (thr d L, SemLoc.dma cc0_scratch6.sem) 0
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ semVal (thr d L, SemLoc.dma cc0_scratch12.sem) 0
        ∗ semVal (thr d L, SemLoc.dma cc0_scratch13.sem) 0
        ∗ semVal (thr d L, SemLoc.dma cc0_scratch14.sem) 0
        ∗ semVal (thr d L, SemLoc.dma cc0_scratch15.sem) 0
        ∗ semVal (thr d L, SemLoc.dma cc0_scratch16.sem) 0
        ∗ semVal (thr d L, SemLoc.dma cc0_scratch17.sem) 0
        ∗ semVal (thr d L, SemLoc.dma cc0_scratch18.sem) 0
        ∗ owes (thr d L) O W)
      ⊢ wp frame (wpE (defs₀ (F := F)) 𝒱₀ (thr d L) none) Set.univ
          (cc0__gather2 L iwV (Memref.isWhole_whole _) owV (Memref.isWhole_whole _) t1V (Memref.isWhole_whole _) t2V (Memref.isWhole_whole _)
            o1V (Memref.isWhole_whole _) o2V (Memref.isWhole_whole _) s0V (Memref.isWhole_whole _) s1V (Memref.isWhole_whole _) s2V (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18)
          fun _ => (iprop(
            ((iwRow L).view.loc (thr d L) ↦[(iwRow L).view.set]{fullShare} W0 m d)
        ∗ ((owRow L).view.loc (thr d L) ↦[(owRow L).view.set]{fullShare} W1 m d)
        ∗ ((t1V).view.loc (thr d L) ↦{Transfers.shareTokN q1 2} m (t1Loc d)) ∗ ((t1V).view.loc (thr d L) ↦{Transfers.shareTokN q1 3} m (t1Loc d)) ∗ ((t1V).view.loc (thr d L) ↦{Transfers.shareTokN q1 4} m (t1Loc d)) ∗ ((t1V).view.loc (thr d L) ↦{Transfers.shareTokN q1 5} m (t1Loc d))
        ∗ ((t2V).view.loc (thr d L) ↦{Transfers.shareTokN q2 6} m (t2Loc d)) ∗ ((t2V).view.loc (thr d L) ↦{Transfers.shareTokN q2 7} m (t2Loc d)) ∗ ((t2V).view.loc (thr d L) ↦{Transfers.shareTokN q2 8} m (t2Loc d)) ∗ ((t2V).view.loc (thr d L) ↦{Transfers.shareTokN q2 2} m (t2Loc d))
        ∗ ((o1C L 0#32 (k0_off2_inb L 0)).view.loc (thr d L) ↦[(o1C L 0#32 (k0_off2_inb L 0)).view.set]{fullShare} G1 m d)
        ∗ ((o1C L 128#32 (k0_off2_inb L 1)).view.loc (thr d L) ↦[(o1C L 128#32 (k0_off2_inb L 1)).view.set]{fullShare} G1 m d)
        ∗ ((o1C L 256#32 (k0_off2_inb L 2)).view.loc (thr d L) ↦[(o1C L 256#32 (k0_off2_inb L 2)).view.set]{fullShare} G1 m d)
        ∗ ((o1C L 384#32 (k0_off2_inb L 3)).view.loc (thr d L) ↦[(o1C L 384#32 (k0_off2_inb L 3)).view.set]{fullShare} G1 m d)
        ∗ ((o2C L 0#32 (k0_off2_inb L 0)).view.loc (thr d L) ↦[(o2C L 0#32 (k0_off2_inb L 0)).view.set]{fullShare} G2 m d)
        ∗ ((o2C L 128#32 (k0_off2_inb L 1)).view.loc (thr d L) ↦[(o2C L 128#32 (k0_off2_inb L 1)).view.set]{fullShare} G2 m d)
        ∗ ((o2C L 256#32 (k0_off2_inb L 2)).view.loc (thr d L) ↦[(o2C L 256#32 (k0_off2_inb L 2)).view.set]{fullShare} G2 m d)
        ∗ ((o2C L 384#32 (k0_off2_inb L 3)).view.loc (thr d L) ↦[(o2C L 384#32 (k0_off2_inb L 3)).view.set]{fullShare} G2 m d)
        ∗ (∃ f, (s0V).view.loc (thr d L) ↦{fullShare} f) ∗ (∃ f, (s1V).view.loc (thr d L) ↦{fullShare} f) ∗ (∃ f, (s2V).view.loc (thr d L) ↦{fullShare} f)
        ∗ semVal (thr d L, SemLoc.dma cc0_scratch3.sem) 0
        ∗ semVal (thr d L, SemLoc.dma cc0_scratch4.sem) 0
        ∗ semVal (thr d L, SemLoc.dma cc0_scratch5.sem) 0
        ∗ semVal (thr d L, SemLoc.dma cc0_scratch6.sem) 0
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ semVal (thr d L, SemLoc.dma cc0_scratch12.sem) 0
        ∗ semVal (thr d L, SemLoc.dma cc0_scratch13.sem) 0
        ∗ semVal (thr d L, SemLoc.dma cc0_scratch14.sem) 0
        ∗ semVal (thr d L, SemLoc.dma cc0_scratch15.sem) 0
        ∗ semVal (thr d L, SemLoc.dma cc0_scratch16.sem) 0
        ∗ semVal (thr d L, SemLoc.dma cc0_scratch17.sem) 0
        ∗ semVal (thr d L, SemLoc.dma cc0_scratch18.sem) 0
        ∗ ∃ W', owes (thr d L) O W') : sProp 𝕄) := by
  iintro ⟨#Hlv, Hiw, How, Ht1a, Ht1b, Ht1c, Ht1d, Ht2a, Ht2b, Ht2c, Ht2d, Ho10, Ho11, Ho12, Ho13, Ho20, Ho21, Ho22, Ho23, Hs0, Hs1, Hs2,
    Hm3, Hm4, Hm5, Hm6, Hm7, Hm8, Hm9, Hm10, Hm11, Hm12, Hm13, Hm14, Hm15, Hm16, Hm17, Hm18, HO⟩
  ihave Hmw := ((K (F := F)).mayWaits_none (thr := thr d L) hO) $$ Hlv
  sl_unfold [cc0__gather2]
  -- the two copies of the list blocks, and the first one's wait
  sl_exec
  -- the index scratches hold words of the cut lists, all in range
  have hp0 : ∀ y, (Cert.Proof.KI.tile_run.sl.dma0 m d L y).toNat < 100000 := fun y => by
    show ((iwRow L).view.read (Elt F) (W0 m d) y).toNat < 100000
    rw [(View.read_apply _ _).trans (cast_eq _ _)]; exact W0_lt m hpre d _
  have hp1 : ∀ y, (Cert.Proof.KI.tile_run.sl.dma0_1 m d L y).toNat < 100000 := fun y => by
    show ((owRow L).view.read (Elt F) (W1 m d) y).toNat < 100000
    rw [(View.read_apply _ _).trans (cast_eq _ _)]; exact W1_lt m hpre d _
  have hin00 := fun g => inb_s0 (Cert.Proof.KI.tile_run.sl.dma0 m d L) hp0 g ![0, 0] inb_S4x128_S1x128_0_0 squeezes_S1x128_S128
  have hin01 := fun g => inb_s0 (Cert.Proof.KI.tile_run.sl.dma0 m d L) hp0 g ![1, 0] inb_S4x128_S1x128_1_0 squeezes_S1x128_S128
  have hin02 := fun g => inb_s0 (Cert.Proof.KI.tile_run.sl.dma0 m d L) hp0 g ![2, 0] inb_S4x128_S1x128_2_0 squeezes_S1x128_S128
  have hin03 := fun g => inb_s0 (Cert.Proof.KI.tile_run.sl.dma0 m d L) hp0 g ![3, 0] inb_S4x128_S1x128_3_0 squeezes_S1x128_S128
  have hin10 := fun g => inb_s1 (Cert.Proof.KI.tile_run.sl.dma0_1 m d L) hp1 g ![0, 0] inb_S4x128_S1x128_0_0 squeezes_S1x128_S128
  have hin11 := fun g => inb_s1 (Cert.Proof.KI.tile_run.sl.dma0_1 m d L) hp1 g ![1, 0] inb_S4x128_S1x128_1_0 squeezes_S1x128_S128
  have hin12 := fun g => inb_s1 (Cert.Proof.KI.tile_run.sl.dma0_1 m d L) hp1 g ![2, 0] inb_S4x128_S1x128_2_0 squeezes_S1x128_S128
  have hin13 := fun g => inb_s1 (Cert.Proof.KI.tile_run.sl.dma0_1 m d L) hp1 g ![3, 0] inb_S4x128_S1x128_3_0 squeezes_S1x128_S128
  -- the eight gathers and the eight copies out, each waited for
  sl_exec
  -- what each chunk holds is the lookup
  ihave Ho10 := (Entails.of_eq (pts_chunk1 (F := F) d L 0#32 (k0_off2_inb L 0) f1 _ (G1 m d) ?hp10)) $$ Ho10
  case hp10 =>
    intro k j
    sl_unfold_run_names
    simp only [ReadAs.apply_same, Memref.view_squeeze, Memref.view_slice, Memref.view_whole]
    rw [readV_other (a := 0) (b := 6) _ _ (by decide), readV_other (a := 0) (b := 5) _ _ (by decide), readV_other (a := 0) (b := 4) _ _ (by decide), readV_other (a := 0) (b := 3) _ _ (by decide), readV_other (a := 0) (b := 2) _ _ (by decide), readV_other (a := 0) (b := 1) _ _ (by decide), readV_same (a := 0)]
    exact chunk1_val m hpre d L 0 _ _ _ _ _ _ 0#32 rfl _ k j
  ihave Ho11 := (Entails.of_eq (pts_chunk1 (F := F) d L 128#32 (k0_off2_inb L 1) f1 _ (G1 m d) ?hp11)) $$ Ho11
  case hp11 =>
    intro k j
    sl_unfold_run_names
    simp only [ReadAs.apply_same, Memref.view_squeeze, Memref.view_slice, Memref.view_whole]
    rw [readV_other (a := 1) (b := 0) _ _ (by decide), readV_other (a := 1) (b := 6) _ _ (by decide), readV_other (a := 1) (b := 5) _ _ (by decide), readV_other (a := 1) (b := 4) _ _ (by decide), readV_other (a := 1) (b := 3) _ _ (by decide), readV_other (a := 1) (b := 2) _ _ (by decide), readV_same (a := 1)]
    exact chunk1_val m hpre d L 1 _ _ _ _ _ _ 128#32 rfl _ k j
  ihave Ho12 := (Entails.of_eq (pts_chunk1 (F := F) d L 256#32 (k0_off2_inb L 2) f1 _ (G1 m d) ?hp12)) $$ Ho12
  case hp12 =>
    intro k j
    sl_unfold_run_names
    simp only [ReadAs.apply_same, Memref.view_squeeze, Memref.view_slice, Memref.view_whole]
    rw [readV_other (a := 2) (b := 0) _ _ (by decide), readV_other (a := 2) (b := 6) _ _ (by decide), readV_other (a := 2) (b := 5) _ _ (by decide), readV_other (a := 2) (b := 4) _ _ (by decide), readV_other (a := 2) (b := 3) _ _ (by decide), readV_same (a := 2)]
    exact chunk1_val m hpre d L 2 _ _ _ _ _ _ 256#32 rfl _ k j
  ihave Ho13 := (Entails.of_eq (pts_chunk1 (F := F) d L 384#32 (k0_off2_inb L 3) f1 _ (G1 m d) ?hp13)) $$ Ho13
  case hp13 =>
    intro k j
    sl_unfold_run_names
    simp only [ReadAs.apply_same, Memref.view_squeeze, Memref.view_slice, Memref.view_whole]
    rw [readV_other (a := 3) (b := 0) _ _ (by decide), readV_other (a := 3) (b := 6) _ _ (by decide), readV_other (a := 3) (b := 5) _ _ (by decide), readV_other (a := 3) (b := 4) _ _ (by decide), readV_same (a := 3)]
    exact chunk1_val m hpre d L 3 _ _ _ _ _ _ 384#32 rfl _ k j
  ihave Ho20 := (Entails.of_eq (pts_chunk2 (F := F) d L 0#32 (k0_off2_inb L 0) f2 _ (G2 m d) ?hp20)) $$ Ho20
  case hp20 =>
    intro k j
    sl_unfold_run_names
    simp only [ReadAs.apply_same, Memref.view_squeeze, Memref.view_slice, Memref.view_whole]
    rw [readV_other (a := 4) (b := 0) _ _ (by decide), readV_other (a := 4) (b := 6) _ _ (by decide), readV_other (a := 4) (b := 5) _ _ (by decide), readV_same (a := 4)]
    exact chunk2_val m hpre d L 0 _ _ _ _ _ _ 0#32 rfl _ k j
  ihave Ho21 := (Entails.of_eq (pts_chunk2 (F := F) d L 128#32 (k0_off2_inb L 1) f2 _ (G2 m d) ?hp21)) $$ Ho21
  case hp21 =>
    intro k j
    sl_unfold_run_names
    simp only [ReadAs.apply_same, Memref.view_squeeze, Memref.view_slice, Memref.view_whole]
    rw [readV_other (a := 5) (b := 0) _ _ (by decide), readV_other (a := 5) (b := 6) _ _ (by decide), readV_same (a := 5)]
    exact chunk2_val m hpre d L 1 _ _ _ _ _ _ 128#32 rfl _ k j
  ihave Ho22 := (Entails.of_eq (pts_chunk2 (F := F) d L 256#32 (k0_off2_inb L 2) f2 _ (G2 m d) ?hp22)) $$ Ho22
  case hp22 =>
    intro k j
    sl_unfold_run_names
    simp only [ReadAs.apply_same, Memref.view_squeeze, Memref.view_slice, Memref.view_whole]
    rw [readV_other (a := 6) (b := 0) _ _ (by decide), readV_same (a := 6)]
    exact chunk2_val m hpre d L 2 _ _ _ _ _ _ 256#32 rfl _ k j
  ihave Ho23 := (Entails.of_eq (pts_chunk2 (F := F) d L 384#32 (k0_off2_inb L 3) f2 _ (G2 m d) ?hp23)) $$ Ho23
  case hp23 =>
    intro k j
    sl_unfold_run_names
    simp only [ReadAs.apply_same, Memref.view_squeeze, Memref.view_slice, Memref.view_whole]
    rw [readV_same (a := 0)]
    exact chunk2_val m hpre d L 3 _ _ _ _ _ _ 384#32 rfl _ k j
  sl_step
  sl_close

end Tile

/-! ## The task's scoped storage, and its read tokens -/

/-- A vector subcore's scoped semaphores are its sixteen DMA semaphores. -/
def semEmb (c : Thread nD τ) : DmaSem sig ↪ GSem nD τ sig := ⟨fun k => (c, SemLoc.dma k), fun a b e => by injection e with _ e; injection e⟩

theorem ownCells_V (d : Dev nD) (c : Fin τ.nSC) (i : Fin τ.nSub) : (ownCells (V d c i) : Finset (GSem nD τ sig)) = Finset.univ.map (semEmb (V d c i)) := by
  have hreg : ∀ s : Sem sig, (SemLoc.reg s : SemLoc sig).isScoped .scVector = false := by decide
  have hdma : ∀ s : DmaSem sig, (SemLoc.dma s : SemLoc sig).isScoped .scVector = true := by decide
  ext g
  rw [mem_ownCells, Finset.mem_map]
  constructor
  · rintro ⟨h1, h2⟩
    obtain ⟨t0, sm⟩ := g
    cases h1
    cases sm with
    | reg s => exact absurd h2 (by rw [show GSem.isScoped ((V d c i, SemLoc.reg s) : GSem nD τ sig) = (SemLoc.reg s : SemLoc sig).isScoped .scVector from rfl, hreg]; decide)
    | dma s => exact ⟨s, Finset.mem_univ _, rfl⟩
  · rintro ⟨k, -, rfl⟩
    exact ⟨rfl, hdma k⟩

theorem ownSems0_V (d : Dev nD) (c : Fin τ.nSC) (i : Fin τ.nSub) :
    (ownSems0 (V d c i) : sProp 𝕄) = iprop(semVal (V d c i, SemLoc.dma cc0_scratch3.sem) 0
      ∗ semVal (V d c i, SemLoc.dma cc0_scratch4.sem) 0
      ∗ semVal (V d c i, SemLoc.dma cc0_scratch5.sem) 0
      ∗ semVal (V d c i, SemLoc.dma cc0_scratch6.sem) 0
      ∗ semVal (V d c i, SemLoc.dma cc0_scratch7.sem) 0
      ∗ semVal (V d c i, SemLoc.dma cc0_scratch8.sem) 0
      ∗ semVal (V d c i, SemLoc.dma cc0_scratch9.sem) 0
      ∗ semVal (V d c i, SemLoc.dma cc0_scratch10.sem) 0
      ∗ semVal (V d c i, SemLoc.dma cc0_scratch11.sem) 0
      ∗ semVal (V d c i, SemLoc.dma cc0_scratch12.sem) 0
      ∗ semVal (V d c i, SemLoc.dma cc0_scratch13.sem) 0
      ∗ semVal (V d c i, SemLoc.dma cc0_scratch14.sem) 0
      ∗ semVal (V d c i, SemLoc.dma cc0_scratch15.sem) 0
      ∗ semVal (V d c i, SemLoc.dma cc0_scratch16.sem) 0
      ∗ semVal (V d c i, SemLoc.dma cc0_scratch17.sem) 0
      ∗ semVal (V d c i, SemLoc.dma cc0_scratch18.sem) 0) := by
  unfold SparseCore.Cfg.ownSems0
  rw [ownCells_V, bigSep_map,
    show (Finset.univ : Finset (DmaSem sig)) = {cc0_scratch3.sem, cc0_scratch4.sem, cc0_scratch5.sem, cc0_scratch6.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem} from by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The three scratch buffers are among the subcore's own. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩⟩)]

/-- A share of an array as nine read tokens and what remains: one token per semaphore a gather may complete on. -/
theorem toks9 (ℓ : Loc nD τ sig) (q : PosShare TreeShare) (f : Buf (Elt F) ℓ) :
    (ℓ ↦{q} f : sProp 𝕄) ⊣⊢ iprop((ℓ ↦{Transfers.shareDrop q 9} f) ∗ (ℓ ↦{Transfers.shareTokN q 0} f) ∗ (ℓ ↦{Transfers.shareTokN q 1} f) ∗ (ℓ ↦{Transfers.shareTokN q 2} f) ∗ (ℓ ↦{Transfers.shareTokN q 3} f) ∗ (ℓ ↦{Transfers.shareTokN q 4} f) ∗ (ℓ ↦{Transfers.shareTokN q 5} f) ∗ (ℓ ↦{Transfers.shareTokN q 6} f) ∗ (ℓ ↦{Transfers.shareTokN q 7} f) ∗ (ℓ ↦{Transfers.shareTokN q 8} f)) := by
  have h : (ℓ ↦{q} f : sProp 𝕄) ⊣⊢ iprop((ℓ ↦{Transfers.shareDrop q 9} f) ∗ bigSep (Finset.range 9) fun i => ℓ ↦{Transfers.shareTokN q i} f) :=
    Transfers.pointsTo_toks_range (ℓ := ℓ) (S := Finset.univ) (f := f) q 9
  rw [show Finset.range 9 = {0, 1, 2, 3, 4, 5, 6, 7, 8} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

section Body

variable (d : Dev nD) (L : grid0.Coords) [FloatOps F]

/-- The task's own parts, as its memrefs name them. -/
theorem tileOwn_eq (f1 : Buf (Elt F) (o1Loc d)) (f2 : Buf (Elt F) (o2Loc d)) :
    tileOwn m d L f1 f2 = iprop(
        ((iwRow L).view.loc (thr d L) ↦[(iwRow L).view.set]{fullShare} W0 m d)
        ∗ ((owRow L).view.loc (thr d L) ↦[(owRow L).view.set]{fullShare} W1 m d)
        ∗ (((o1C L 0#32 (k0_off2_inb L 0)).view.loc (thr d L) ↦[(o1C L 0#32 (k0_off2_inb L 0)).view.set]{fullShare} f1) ∗ ((o1C L 128#32 (k0_off2_inb L 1)).view.loc (thr d L) ↦[(o1C L 128#32 (k0_off2_inb L 1)).view.set]{fullShare} f1) ∗ ((o1C L 256#32 (k0_off2_inb L 2)).view.loc (thr d L) ↦[(o1C L 256#32 (k0_off2_inb L 2)).view.set]{fullShare} f1) ∗ ((o1C L 384#32 (k0_off2_inb L 3)).view.loc (thr d L) ↦[(o1C L 384#32 (k0_off2_inb L 3)).view.set]{fullShare} f1))
        ∗ (((o2C L 0#32 (k0_off2_inb L 0)).view.loc (thr d L) ↦[(o2C L 0#32 (k0_off2_inb L 0)).view.set]{fullShare} f2) ∗ ((o2C L 128#32 (k0_off2_inb L 1)).view.loc (thr d L) ↦[(o2C L 128#32 (k0_off2_inb L 1)).view.set]{fullShare} f2) ∗ ((o2C L 256#32 (k0_off2_inb L 2)).view.loc (thr d L) ↦[(o2C L 256#32 (k0_off2_inb L 2)).view.set]{fullShare} f2) ∗ ((o2C L 384#32 (k0_off2_inb L 3)).view.loc (thr d L) ↦[(o2C L 384#32 (k0_off2_inb L 3)).view.set]{fullShare} f2))) := by
  unfold tileOwn
  rw [set_iwRow, set_owRow, set_o1C, set_o1C, set_o1C, set_o1C, set_o2C, set_o2C, set_o2C, set_o2C,
    show (Finset.univ : Finset (Fin 4)) = {0, 1, 2, 3} by decide,
    SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), bigSep_singleton]
  rfl

/-- The task on vector subcore `(L 0, L 1)` of device `d`, from what the launch deals it to what it hands back: each
    table's share cut into read tokens and rejoined around the run. -/
theorem tile_body (hF : (K (F := F)).Facts) (hpre : PreOK m) (q : PosShare TreeShare) (f1 : Buf (Elt F) (o1Loc d)) (f2 : Buf (Elt F) (o2Loc d))
    (O : CellTallies nD τ sig (HIx 1)) (W : Waits sig (HIx 1)) (hO : ∀ g, O g none = 0) :
    iprop(levAts (K (F := F)).L (K (F := F)).lev ∗ emp ∗ tileRes m d L q f1 f2
        ∗ scopedBufs (thr d L) ∗ scopedSems0 (thr d L) ∗ owes (thr d L) O W)
      ⊢ wp frame (wpE (defs₀ (F := F)) 𝒱₀ (thr d L) none) Set.univ
          (cc0__gather2 L iwV (Memref.isWhole_whole _) owV (Memref.isWhole_whole _) t1V (Memref.isWhole_whole _) t2V (Memref.isWhole_whole _)
            o1V (Memref.isWhole_whole _) o2V (Memref.isWhole_whole _) s0V (Memref.isWhole_whole _) s1V (Memref.isWhole_whole _) s2V (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18)
          fun _ => iprop(tileRes m d L q (G1 m d) (G2 m d) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold tileRes
  rw [tileOwn_eq, tileOwn_eq]
  iintro ⟨#Hlv, -, ⟨Ht1, Ht2, Hiw, How, ⟨Ho10, Ho11, Ho12, Ho13⟩, ⟨Ho20, Ho21, Ho22, Ho23⟩⟩, ⟨⟨%fs0, Hs0⟩, ⟨%fs1, Hs1⟩, ⟨%fs2, Hs2⟩, Hbufs⟩,
    ⟨Hm3, Hm4, Hm5, Hm6, Hm7, Hm8, Hm9, Hm10, Hm11, Hm12, Hm13, Hm14, Hm15, Hm16, Hm17, Hm18⟩, HO⟩
  ihave Ht1' := (toks9 (t1Loc d) q (m (t1Loc d))).1 $$ Ht1
  icases Ht1' with ⟨Ht1r, Ht1_0, Ht1_1, Ht1_2, Ht1_3, Ht1_4, Ht1_5, Ht1_6, Ht1_7, Ht1_8⟩
  ihave Ht2' := (toks9 (t2Loc d) q (m (t2Loc d))).1 $$ Ht2
  icases Ht2' with ⟨Ht2r, Ht2_0, Ht2_1, Ht2_2, Ht2_3, Ht2_4, Ht2_5, Ht2_6, Ht2_7, Ht2_8⟩
  iapply (wp_wand_r Idealize.ShloMosaic.frame (wpE (defs₀ (F := F)) 𝒱₀ (thr d L) none) Set.univ)
  isplitl [Hiw How Ht1_2 Ht1_3 Ht1_4 Ht1_5 Ht2_6 Ht2_7 Ht2_8 Ht2_2 Ho10 Ho11 Ho12 Ho13 Ho20 Ho21 Ho22 Ho23 Hs0 Hs1 Hs2 Hm3 Hm4 Hm5 Hm6 Hm7 Hm8 Hm9 Hm10 Hm11 Hm12 Hm13 Hm14 Hm15 Hm16 Hm17 Hm18 HO]
  · iapply (tile_run m d L hpre O W hO q q f1 f2 fs0 fs1 fs2)
    isplitr; · iexact Hlv
    isplitl [Hiw]; · iexact Hiw
    isplitl [How]; · iexact How
    isplitl [Ht1_2]; · iexact Ht1_2
    isplitl [Ht1_3]; · iexact Ht1_3
    isplitl [Ht1_4]; · iexact Ht1_4
    isplitl [Ht1_5]; · iexact Ht1_5
    isplitl [Ht2_6]; · iexact Ht2_6
    isplitl [Ht2_7]; · iexact Ht2_7
    isplitl [Ht2_8]; · iexact Ht2_8
    isplitl [Ht2_2]; · iexact Ht2_2
    isplitl [Ho10]; · iexact Ho10
    isplitl [Ho11]; · iexact Ho11
    isplitl [Ho12]; · iexact Ho12
    isplitl [Ho13]; · iexact Ho13
    isplitl [Ho20]; · iexact Ho20
    isplitl [Ho21]; · iexact Ho21
    isplitl [Ho22]; · iexact Ho22
    isplitl [Ho23]; · iexact Ho23
    isplitl [Hs0]; · iexact Hs0
    isplitl [Hs1]; · iexact Hs1
    isplitl [Hs2]; · iexact Hs2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    iexact HO
  iintro %_ ⟨Hiw, How, Ht1_2, Ht1_3, Ht1_4, Ht1_5, Ht2_6, Ht2_7, Ht2_8, Ht2_2, Ho10, Ho11, Ho12, Ho13, Ho20, Ho21, Ho22, Ho23, ⟨%g0, Hs0⟩, ⟨%g1, Hs1⟩, ⟨%g2, Hs2⟩,
    Hm3, Hm4, Hm5, Hm6, Hm7, Hm8, Hm9, Hm10, Hm11, Hm12, Hm13, Hm14, Hm15, Hm16, Hm17, Hm18, ⟨%W', HO⟩⟩
  ihave Ht1 := (toks9 (t1Loc d) q (m (t1Loc d))).2 $$ [Ht1r Ht1_0 Ht1_1 Ht1_2 Ht1_3 Ht1_4 Ht1_5 Ht1_6 Ht1_7 Ht1_8]
  · isplitl [Ht1r]; · iexact Ht1r
    isplitl [Ht1_0]; · iexact Ht1_0
    isplitl [Ht1_1]; · iexact Ht1_1
    isplitl [Ht1_2]; · iexact Ht1_2
    isplitl [Ht1_3]; · iexact Ht1_3
    isplitl [Ht1_4]; · iexact Ht1_4
    isplitl [Ht1_5]; · iexact Ht1_5
    isplitl [Ht1_6]; · iexact Ht1_6
    isplitl [Ht1_7]; · iexact Ht1_7
    iexact Ht1_8
  ihave Ht2 := (toks9 (t2Loc d) q (m (t2Loc d))).2 $$ [Ht2r Ht2_0 Ht2_1 Ht2_2 Ht2_3 Ht2_4 Ht2_5 Ht2_6 Ht2_7 Ht2_8]
  · isplitl [Ht2r]; · iexact Ht2r
    isplitl [Ht2_0]; · iexact Ht2_0
    isplitl [Ht2_1]; · iexact Ht2_1
    isplitl [Ht2_2]; · iexact Ht2_2
    isplitl [Ht2_3]; · iexact Ht2_3
    isplitl [Ht2_4]; · iexact Ht2_4
    isplitl [Ht2_5]; · iexact Ht2_5
    isplitl [Ht2_6]; · iexact Ht2_6
    isplitl [Ht2_7]; · iexact Ht2_7
    iexact Ht2_8
  isplitl [Ht1 Ht2 Hiw How Ho10 Ho11 Ho12 Ho13 Ho20 Ho21 Ho22 Ho23]
  · isplitl [Ht1]; · iexact Ht1
    isplitl [Ht2]; · iexact Ht2
    isplitl [Hiw]; · iexact Hiw
    isplitl [How]; · iexact How
    isplitl [Ho10 Ho11 Ho12 Ho13]
    · isplitl [Ho10]; · iexact Ho10
      isplitl [Ho11]; · iexact Ho11
      isplitl [Ho12]; · iexact Ho12
      iexact Ho13
    · isplitl [Ho20]; · iexact Ho20
      isplitl [Ho21]; · iexact Ho21
      isplitl [Ho22]; · iexact Ho22
      iexact Ho23
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hm3 Hm4 Hm5 Hm6 Hm7 Hm8 Hm9 Hm10 Hm11 Hm12 Hm13 Hm14 Hm15 Hm16 Hm17 Hm18]
  · isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    iexact Hm18
  iexists W'; isplitr
  · ipureintro; intro p _
    rcases p.2 with _ | q
    · exact .inr (.inl rfl)
    · exact .inr (.inr (congrArg some (Subsingleton.elim q 0)))
  · iexact HO

end Body

/-! ## The launch theorem's obligation for the tasks -/

theorem defs₀_vector [FloatOps F] (c : Fin τ.nSC) (s : Fin τ.nSub) :
    defs₀ (F := F) (.scVector c s) 0 ()
      = SparseCore.onTile hcore0 hsub0 (fun c s => cc0__gather2 (coordsV c s)
          iwV (Memref.isWhole_whole _) owV (Memref.isWhole_whole _) t1V (Memref.isWhole_whole _) t2V (Memref.isWhole_whole _)
          o1V (Memref.isWhole_whole _) o2V (Memref.isWhole_whole _) s0V (Memref.isWhole_whole _) s1V (Memref.isWhole_whole _) s2V (Memref.isWhole_whole _)
          cc0_scratch3 cc0_scratch4 cc0_scratch5 cc0_scratch6 cc0_scratch7 cc0_scratch8 cc0_scratch9 cc0_scratch10 cc0_scratch11 cc0_scratch12
          cc0_scratch13 cc0_scratch14 cc0_scratch15 cc0_scratch16 cc0_scratch17 cc0_scratch18) ⟨⟩ c s := rfl

theorem tileObl [FloatOps F] (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (Lc c i) hF hpre (qt c i) (m (o1Loc d)) (m (o2Loc d)) O W hO

end Cert.Proof.KI

end
-- ==== Proof.KI.Geom.lean ====
/-
  How the 32 tasks' parts tile the arrays. Task (c, i) has number w = 2 i + c. Its block of a cut list [32, 4, 128] is
  the slab {w} × 4 × 128: an index lies in it exactly when its first coordinate is w, so the 32 slabs are pairwise
  disjoint and cover the list. Its chunk r of a result [16384, 128] is the rows [512 w + 128 r, 512 w + 128 r + 128):
  an index lies in it exactly when its row does, and the 128 row intervals are pairwise disjoint and cover the
  16384 rows. Owning an array whole is therefore owning the parts one by one.
-/
import proofs.«215895_g3710851743747_cont_8to1_b_223_15_alg».proof.Proof.KI.Setup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The index sets -/

/-- An index of a cut list lies in task (c, i)'s block exactly when its first coordinate is the task's number. -/
theorem mem_blkSet (c : Fin ((K (F := F)).nCore 0)) (i : Fin ((K (F := F)).nSub 0)) (j : S32x4x128.Idx) :
    j ∈ blkSet (Lc (F := F) c i) ↔ (j 0).val = 2 * i.val + c.val := by
  rw [Rect.mem_set_unit, k0_off1_eq]
  have h1 : (j 1).val < 4 := (j 1).isLt
  have h2 : (j 2).val < 128 := (j 2).isLt
  constructor
  · intro h
    have h0 := h 0
    change 2 * i.val + c.val ≤ (j 0).val ∧ (j 0).val < 2 * i.val + c.val + 1 at h0
    omega
  · intro h a
    match a with
    | ⟨0, _⟩ =>
      show 2 * i.val + c.val ≤ (j 0).val ∧ (j 0).val < 2 * i.val + c.val + 1
      omega
    | ⟨1, _⟩ =>
      show 0 ≤ (j 1).val ∧ (j 1).val < 0 + 4
      omega
    | ⟨2, _⟩ =>
      show 0 ≤ (j 2).val ∧ (j 2).val < 0 + 128
      omega

/-- An index of a result lies in chunk r of task (c, i) exactly when its row lies in the chunk's 128 rows. -/
theorem mem_chSet (c : Fin ((K (F := F)).nCore 0)) (i : Fin ((K (F := F)).nSub 0)) (r : Fin 4) (j : S16384x128.Idx) :
    j ∈ chSet (Lc (F := F) c i) r
      ↔ 1024 * i.val + 512 * c.val + 128 * r.val ≤ (j 0).val ∧ (j 0).val < 1024 * i.val + 512 * c.val + 128 * r.val + 128 := by
  rw [Rect.mem_set_unit, k0_off2_eq]
  have h1 : (j 1).val < 128 := (j 1).isLt
  constructor
  · intro h
    have h0 := h 0
    change 1024 * i.val + 512 * c.val + 128 * r.val ≤ (j 0).val
      ∧ (j 0).val < 1024 * i.val + 512 * c.val + 128 * r.val + 128 at h0
    exact h0
  · intro h a
    match a with
    | ⟨0, _⟩ => exact h
    | ⟨1, _⟩ =>
      show 0 ≤ (j 1).val ∧ (j 1).val < 0 + 128
      omega

/-- The 32 blocks cover a cut list. -/
theorem blk_cover :
    (Finset.univ : Finset (Fin ((K (F := F)).nCore 0) × Fin ((K (F := F)).nSub 0))).biUnion (fun p => blkSet (Lc (F := F) p.1 p.2)) = Finset.univ := by
  ext j
  simp only [Finset.mem_biUnion, Finset.mem_univ, true_and, iff_true]
  have h0 : (j 0).val < 32 := (j 0).isLt
  exact ⟨(⟨(j 0).val % 2, Nat.mod_lt _ (by decide)⟩, ⟨(j 0).val / 2, show (j 0).val / 2 < 16 by omega⟩),
    (mem_blkSet _ _ j).mpr (by show (j 0).val = 2 * ((j 0).val / 2) + (j 0).val % 2; omega)⟩

/-- Two different tasks' blocks share no index. -/
theorem blk_disjoint (p p' : Fin ((K (F := F)).nCore 0) × Fin ((K (F := F)).nSub 0)) (hne : p ≠ p') :
    Disjoint (blkSet (Lc (F := F) p.1 p.2)) (blkSet (Lc (F := F) p'.1 p'.2)) := by
  refine Finset.disjoint_left.mpr fun j h h' => hne ?_
  rw [mem_blkSet] at h h'
  have c1 : p.1.val < 2 := p.1.isLt
  have c2 : p'.1.val < 2 := p'.1.isLt
  exact Prod.ext (Fin.ext (by omega)) (Fin.ext (by omega))

/-- The 128 chunks cover a result. -/
theorem ch_cover :
    (Finset.univ : Finset ((Fin ((K (F := F)).nCore 0) × Fin ((K (F := F)).nSub 0)) × Fin 4)).biUnion (fun q => chSet (Lc (F := F) q.1.1 q.1.2) q.2) = Finset.univ := by
  ext j
  simp only [Finset.mem_biUnion, Finset.mem_univ, true_and, iff_true]
  have h0 : (j 0).val < 16384 := (j 0).isLt
  refine ⟨((⟨(j 0).val % 1024 / 512, show (j 0).val % 1024 / 512 < 2 by omega⟩,
      ⟨(j 0).val / 1024, show (j 0).val / 1024 < 16 by omega⟩), ⟨(j 0).val % 512 / 128, by omega⟩), ?_⟩
  rw [mem_chSet]
  show 1024 * ((j 0).val / 1024) + 512 * ((j 0).val % 1024 / 512) + 128 * ((j 0).val % 512 / 128) ≤ (j 0).val
    ∧ (j 0).val < 1024 * ((j 0).val / 1024) + 512 * ((j 0).val % 1024 / 512) + 128 * ((j 0).val % 512 / 128) + 128
  omega

/-- Two different chunks share no index. -/
theorem ch_disjoint (q q' : (Fin ((K (F := F)).nCore 0) × Fin ((K (F := F)).nSub 0)) × Fin 4) (hne : q ≠ q') :
    Disjoint (chSet (Lc (F := F) q.1.1 q.1.2) q.2) (chSet (Lc (F := F) q'.1.1 q'.1.2) q'.2) := by
  refine Finset.disjoint_left.mpr fun j h h' => hne ?_
  rw [mem_chSet] at h h'
  have c1 : q.1.1.val < 2 := q.1.1.isLt
  have c2 : q'.1.1.val < 2 := q'.1.1.isLt
  have i1 : q.1.2.val < 16 := q.1.2.isLt
  have i2 : q'.1.2.val < 16 := q'.1.2.isLt
  have r1 : q.2.val < 4 := q.2.isLt
  have r2 : q'.2.val < 4 := q'.2.isLt
  have ei : q.1.2.val = q'.1.2.val := by omega
  have ec : q.1.1.val = q'.1.1.val := by omega
  have er : q.2.val = q'.2.val := by omega
  exact Prod.ext (Prod.ext (Fin.ext ec) (Fin.ext ei)) (Fin.ext er)

/-! ## Owning an array whole is owning its parts -/

/-- A cut list held whole is its 32 blocks held one by one: the first list. -/
theorem iw_blocks (d : Dev nD) (f : Buf (Elt F) (iwLoc d)) :
    (iwLoc d ↦{fullShare} f : sProp 𝕄)
      = bigSep Finset.univ fun c : Fin ((K (F := F)).nCore 0) => bigSep Finset.univ fun i : Fin ((K (F := F)).nSub 0) =>
          iwLoc d ↦[blkSet (Lc c i)]{fullShare} f := by
  rw [← BI.bigSep_univ_prod (fun p : Fin ((K (F := F)).nCore 0) × Fin ((K (F := F)).nSub 0) => (iwLoc d ↦[blkSet (Lc (F := F) p.1 p.2)]{fullShare} f : sProp 𝕄))]
  have h : (iwLoc d ↦[(Finset.univ : Finset (Fin ((K (F := F)).nCore 0) × Fin ((K (F := F)).nSub 0))).biUnion fun p => blkSet (Lc (F := F) p.1 p.2)]{fullShare} f : sProp 𝕄)
      = bigSep Finset.univ fun p : Fin ((K (F := F)).nCore 0) × Fin ((K (F := F)).nSub 0) => iwLoc d ↦[blkSet (Lc (F := F) p.1 p.2)]{fullShare} f :=
    pointsTo_biUnion Finset.univ _ (fun p _ p' _ hne => blk_disjoint p p' hne)
  rw [blk_cover] at h
  exact h

/-- The same for the second list. -/
theorem ow_blocks (d : Dev nD) (f : Buf (Elt F) (owLoc d)) :
    (owLoc d ↦{fullShare} f : sProp 𝕄)
      = bigSep Finset.univ fun c : Fin ((K (F := F)).nCore 0) => bigSep Finset.univ fun i : Fin ((K (F := F)).nSub 0) =>
          owLoc d ↦[blkSet (Lc c i)]{fullShare} f := by
  rw [← BI.bigSep_univ_prod (fun p : Fin ((K (F := F)).nCore 0) × Fin ((K (F := F)).nSub 0) => (owLoc d ↦[blkSet (Lc (F := F) p.1 p.2)]{fullShare} f : sProp 𝕄))]
  have h : (owLoc d ↦[(Finset.univ : Finset (Fin ((K (F := F)).nCore 0) × Fin ((K (F := F)).nSub 0))).biUnion fun p => blkSet (Lc (F := F) p.1 p.2)]{fullShare} f : sProp 𝕄)
      = bigSep Finset.univ fun p : Fin ((K (F := F)).nCore 0) × Fin ((K (F := F)).nSub 0) => owLoc d ↦[blkSet (Lc (F := F) p.1 p.2)]{fullShare} f :=
    pointsTo_biUnion Finset.univ _ (fun p _ p' _ hne => blk_disjoint p p' hne)
  rw [blk_cover] at h
  exact h

/-- A result held whole is its 128 chunks held one by one: the first result. -/
theorem o1_chunks (d : Dev nD) (f : Buf (Elt F) (o1Loc d)) :
    (o1Loc d ↦{fullShare} f : sProp 𝕄)
      = bigSep Finset.univ fun c : Fin ((K (F := F)).nCore 0) => bigSep Finset.univ fun i : Fin ((K (F := F)).nSub 0) =>
          bigSep Finset.univ fun r : Fin 4 => o1Loc d ↦[chSet (Lc c i) r]{fullShare} f := by
  rw [← BI.bigSep_univ_prod (fun p : Fin ((K (F := F)).nCore 0) × Fin ((K (F := F)).nSub 0) => bigSep Finset.univ fun r : Fin 4 =>
      (o1Loc d ↦[chSet (Lc (F := F) p.1 p.2) r]{fullShare} f : sProp 𝕄)),
    ← BI.bigSep_univ_prod (fun q : (Fin ((K (F := F)).nCore 0) × Fin ((K (F := F)).nSub 0)) × Fin 4 => (o1Loc d ↦[chSet (Lc (F := F) q.1.1 q.1.2) q.2]{fullShare} f : sProp 𝕄))]
  have h : (o1Loc d ↦[(Finset.univ : Finset ((Fin ((K (F := F)).nCore 0) × Fin ((K (F := F)).nSub 0)) × Fin 4)).biUnion fun q => chSet (Lc (F := F) q.1.1 q.1.2) q.2]{fullShare} f : sProp 𝕄)
      = bigSep Finset.univ fun q : (Fin ((K (F := F)).nCore 0) × Fin ((K (F := F)).nSub 0)) × Fin 4 => o1Loc d ↦[chSet (Lc (F := F) q.1.1 q.1.2) q.2]{fullShare} f :=
    pointsTo_biUnion Finset.univ _ (fun q _ q' _ hne => ch_disjoint q q' hne)
  rw [ch_cover] at h
  exact h

/-- The same for the second result. -/
theorem o2_chunks (d : Dev nD) (f : Buf (Elt F) (o2Loc d)) :
    (o2Loc d ↦{fullShare} f : sProp 𝕄)
      = bigSep Finset.univ fun c : Fin ((K (F := F)).nCore 0) => bigSep Finset.univ fun i : Fin ((K (F := F)).nSub 0) =>
          bigSep Finset.univ fun r : Fin 4 => o2Loc d ↦[chSet (Lc c i) r]{fullShare} f := by
  rw [← BI.bigSep_univ_prod (fun p : Fin ((K (F := F)).nCore 0) × Fin ((K (F := F)).nSub 0) => bigSep Finset.univ fun r : Fin 4 =>
      (o2Loc d ↦[chSet (Lc (F := F) p.1 p.2) r]{fullShare} f : sProp 𝕄)),
    ← BI.bigSep_univ_prod (fun q : (Fin ((K (F := F)).nCore 0) × Fin ((K (F := F)).nSub 0)) × Fin 4 => (o2Loc d ↦[chSet (Lc (F := F) q.1.1 q.1.2) q.2]{fullShare} f : sProp 𝕄))]
  have h : (o2Loc d ↦[(Finset.univ : Finset ((Fin ((K (F := F)).nCore 0) × Fin ((K (F := F)).nSub 0)) × Fin 4)).biUnion fun q => chSet (Lc (F := F) q.1.1 q.1.2) q.2]{fullShare} f : sProp 𝕄)
      = bigSep Finset.univ fun q : (Fin ((K (F := F)).nCore 0) × Fin ((K (F := F)).nSub 0)) × Fin 4 => o2Loc d ↦[chSet (Lc (F := F) q.1.1 q.1.2) q.2]{fullShare} f :=
    pointsTo_biUnion Finset.univ _ (fun q _ q' _ hne => ch_disjoint q q' hne)
  rw [ch_cover] at h
  exact h

end Cert.Proof.KI

end
-- ==== Proof.KI.Split.lean ====
/-
  How the call's operands are dealt to the two SparseCores and their sixteen tasks each, and gathered back.
  The tables are only read: the full share of a table is cut once per SparseCore, and each SparseCore's share once per
  task, the two remainders set aside and joined back at the end. The cut lists and the results are owned outright in
  parts: a list by its 32 blocks, a result by its 128 chunks, one task's parts disjoint from every other's, so the
  whole arrays are exactly the tasks' parts held together.
-/
import proofs.«215895_g3710851743747_cont_8to1_b_223_15_alg».proof.Proof.KI.Geom

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-! ## A SparseCore's operands among its tasks -/

/-- A SparseCore's share of each table is cut into its sixteen tasks' shares and a remainder; the remainder waits while
    the tasks run and joins their shares back at the end. The tasks' own parts pass through, the results' contents
    changing from what the launch memory held to the lookups. -/
theorem vecSplit : (K (F := F)).VecSplit' (P m) 0 := by
  intro d c
  show coreRes m d c (m (o1Loc d)) (m (o2Loc d)) ⊢ |={Set.univ}=> iprop(
      (bigSep Finset.univ fun i : Fin ((K (F := F)).nSub 0) => tileRes m d (Lc c i) (qt c i) (m (o1Loc d)) (m (o2Loc d)))
      ∗ ((bigSep Finset.univ fun i : Fin ((K (F := F)).nSub 0) => tileRes m d (Lc c i) (qt c i) (G1 m d) (G2 m d))
          -∗ coreRes m d c (G1 m d) (G2 m d)))
  unfold coreRes tileRes
  simp only [bigSep_sep']
  iintro ⟨H1, H2, Hown⟩
  ihave H1' := (Transfers.pointsTo_toks_split (qc (F := F) c) ((K (F := F)).nSub 0)) $$ H1
  icases H1' with ⟨R1, T1⟩
  ihave H2' := (Transfers.pointsTo_toks_split (qc (F := F) c) ((K (F := F)).nSub 0)) $$ H2
  icases H2' with ⟨R2, T2⟩
  imodintro
  isplitl [T1 T2 Hown]
  · isplitl [T1]; · iexact T1
    isplitl [T2]; · iexact T2
    iexact Hown
  iintro ⟨T1, T2, Hown⟩
  isplitl [R1 T1]
  · iapply (Transfers.pointsTo_toks_join (qc (F := F) c) ((K (F := F)).nSub 0))
    isplitl [R1]; · iexact R1
    iexact T1
  isplitl [R2 T2]
  · iapply (Transfers.pointsTo_toks_join (qc (F := F) c) ((K (F := F)).nSub 0))
    isplitl [R2]; · iexact R2
    iexact T2
  iexact Hown

/-! ## The call's operands among the SparseCores -/

/-- What is left of the two tables' full shares once each SparseCore has its share. -/
def tRest (d : Dev nD) : sProp 𝕄 :=
  iprop((t1Loc d ↦{Transfers.shareDrop fullShare ((K (F := F)).nCore 0)} m (t1Loc d))
    ∗ (t2Loc d ↦{Transfers.shareDrop fullShare ((K (F := F)).nCore 0)} m (t2Loc d)))

/-- What the two SparseCores are handed, regrouped: each table's shares together, and the tasks' own parts of each
    cut list and each result together, which are that array whole. -/
theorem cores_eq (d : Dev nD) (f1 : Buf (Elt F) (o1Loc d)) (f2 : Buf (Elt F) (o2Loc d)) :
    (bigSep Finset.univ fun c : Fin ((K (F := F)).nCore 0) => coreRes m d c f1 f2)
      = iprop((bigSep Finset.univ fun c : Fin ((K (F := F)).nCore 0) => t1Loc d ↦{qc (F := F) c} m (t1Loc d))
          ∗ (bigSep Finset.univ fun c : Fin ((K (F := F)).nCore 0) => t2Loc d ↦{qc (F := F) c} m (t2Loc d))
          ∗ (iwLoc d ↦{fullShare} W0 m d) ∗ (owLoc d ↦{fullShare} W1 m d)
          ∗ (o1Loc d ↦{fullShare} f1) ∗ (o2Loc d ↦{fullShare} f2)) := by
  unfold coreRes tileOwn
  simp only [bigSep_sep']
  rw [← iw_blocks, ← ow_blocks, ← o1_chunks, ← o2_chunks]

/-- Dealing: the arrays held whole are the two SparseCores' operands and the tables' remainders. -/
theorem call_in (d : Dev nD) (f1 : Buf (Elt F) (o1Loc d)) (f2 : Buf (Elt F) (o2Loc d)) :
    iprop((t1Loc d ↦{fullShare} m (t1Loc d)) ∗ (t2Loc d ↦{fullShare} m (t2Loc d)) ∗ (iwLoc d ↦{fullShare} W0 m d) ∗ (owLoc d ↦{fullShare} W1 m d) ∗ (o1Loc d ↦{fullShare} f1) ∗ (o2Loc d ↦{fullShare} f2))
      ⊢ iprop((bigSep Finset.univ fun c : Fin ((K (F := F)).nCore 0) => coreRes m d c f1 f2) ∗ tRest m d) := by
  rw [cores_eq]
  unfold tRest
  iintro ⟨H1, H2, Hiw, How, Ho1, Ho2⟩
  ihave H1' := (Transfers.pointsTo_toks_split fullShare ((K (F := F)).nCore 0)) $$ H1
  icases H1' with ⟨R1, T1⟩
  ihave H2' := (Transfers.pointsTo_toks_split fullShare ((K (F := F)).nCore 0)) $$ H2
  icases H2' with ⟨R2, T2⟩
  isplitl [T1 T2 Hiw How Ho1 Ho2]
  · isplitl [T1]; · iexact T1
    isplitl [T2]; · iexact T2
    isplitl [Hiw]; · iexact Hiw
    isplitl [How]; · iexact How
    isplitl [Ho1]; · iexact Ho1
    iexact Ho2
  isplitl [R1]; · iexact R1
  iexact R2

/-- Gathering: the converse. -/
theorem call_out (d : Dev nD) (f1 : Buf (Elt F) (o1Loc d)) (f2 : Buf (Elt F) (o2Loc d)) :
    iprop((bigSep Finset.univ fun c : Fin ((K (F := F)).nCore 0) => coreRes m d c f1 f2) ∗ tRest m d)
      ⊢ iprop((t1Loc d ↦{fullShare} m (t1Loc d)) ∗ (t2Loc d ↦{fullShare} m (t2Loc d)) ∗ (iwLoc d ↦{fullShare} W0 m d) ∗ (owLoc d ↦{fullShare} W1 m d) ∗ (o1Loc d ↦{fullShare} f1) ∗ (o2Loc d ↦{fullShare} f2)) := by
  rw [cores_eq]
  unfold tRest
  iintro ⟨⟨T1, T2, Hiw, How, Ho1, Ho2⟩, R1, R2⟩
  isplitl [R1 T1]
  · iapply (Transfers.pointsTo_toks_join fullShare ((K (F := F)).nCore 0))
    isplitl [R1]; · iexact R1
    iexact T1
  isplitl [R2 T2]
  · iapply (Transfers.pointsTo_toks_join fullShare ((K (F := F)).nCore 0))
    isplitl [R2]; · iexact R2
    iexact T2
  isplitl [Hiw]; · iexact Hiw
  isplitl [How]; · iexact How
  isplitl [Ho1]; · iexact Ho1
  iexact Ho2

/-! ## What the call's start and end carry, per SparseCore -/

theorem st0_eq (d : Dev nD) :
    (bigSep Finset.univ fun c : Fin ((K (F := F)).nCore 0) => (P m).st 0 d c)
      = bigSep Finset.univ fun c : Fin ((K (F := F)).nCore 0) => coreRes m d c (m (o1Loc d)) (m (o2Loc d)) :=
  bigSep_congr fun _ _ => rfl

theorem dn0_eq (d : Dev nD) :
    (bigSep Finset.univ fun c : Fin ((K (F := F)).nCore 0) => (P m).dn 0 d c)
      = bigSep Finset.univ fun c : Fin ((K (F := F)).nCore 0) => coreRes m d c (G1 m d) (G2 m d) :=
  bigSep_congr fun _ _ => rfl

end Cert.Proof.KI

end
-- ==== Proof.KI.Fin.lean ====
/-
  The launch element of the ghost state, the TensorCore's launch holdings by name, and how the final memory reads the
  claim. The kernel's own protocol needs no ghost state beyond the handshakes' rounds, so the launch element is
  theirs beside the unit. The TensorCore names eight arrays, none scoped. At the end the TensorCore holds the four
  arguments at their launch contents and the two results at the lookups, each whole at the full share, and the memory
  agrees with every array so held.
-/
import proofs.«215895_g3710851743747_cont_8to1_b_223_15_alg».proof.Proof.KI.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's launch holdings -/

omit [FloatOps F] in
/-- The TensorCore's arrays, none scoped: the four arguments, the two cut lists, the two results. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (t1Loc d ↦{fullShare} W main_arg2) ∗ (t2Loc d ↦{fullShare} W main_arg3) ∗ (iwLoc d ↦{fullShare} W main_v0) ∗ (owLoc d ↦{fullShare} W main_v1) ∗ (o1Loc d ↦{fullShare} W main_v2_0) ∗ (o2Loc d ↦{fullShare} W main_v2_1)) := by
  unfold unscopedBufs
  rw [show (Finset.univ.filter fun b : Ref sig .tc => ¬ b.isScoped) = {main_arg0, main_arg1, main_arg2, main_arg3, main_v0, main_v1, main_v2_0, main_v2_1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The end: what the TensorCore holds, and what the memory then says -/

/-- At the end the TensorCore holds the arguments as launched and the results at the lookups. -/
abbrev FIN (d : Dev nD) : sProp 𝕄 := iprop((a0Loc d ↦{fullShare} m (a0Loc d)) ∗ (a1Loc d ↦{fullShare} m (a1Loc d)) ∗ (t1Loc d ↦{fullShare} m (t1Loc d)) ∗ (t2Loc d ↦{fullShare} m (t2Loc d)) ∗ (o1Loc d ↦{fullShare} G1 m d) ∗ (o2Loc d ↦{fullShare} G2 m d))

def fq (d : Dev nD) (s' : Phys nD τ sig (Elt F)) : Prop := s'.mem.mem (o1Loc d) = G1 m d ∧ s'.mem.mem (o2Loc d) = G2 m d ∧ s'.mem.mem (a0Loc d) = m (a0Loc d) ∧ s'.mem.mem (a1Loc d) = m (a1Loc d) ∧ s'.mem.mem (t1Loc d) = m (t1Loc d) ∧ s'.mem.mem (t2Loc d) = m (t2Loc d)

/-- The memory agrees with every array held whole: one array after another, the state kept each time. -/
theorem hfin (d : Dev nD) (s' : Phys nD τ sig (Elt F)) : iprop(FIN m d ∗ SI s') ⊢ (⌜fq m d s'⌝ : sProp 𝕄) := by
  iintro ⟨⟨Ha0, Ha1, Ht1, Ht2, Ho1, Ho2⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%ha0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%ha1, HSI, -⟩
  ihave H := (persistent_entails_right (SI_pointsTo_agree (st := s') (ℓ := t1Loc d) (I := Finset.univ) (q := fullShare) (f := m (t1Loc d)))) $$ [HSI Ht1]
  · isplitl [HSI] <;> iassumption
  icases H with ⟨%ht1, HSI, -⟩
  ihave H := (persistent_entails_right (SI_pointsTo_agree (st := s') (ℓ := t2Loc d) (I := Finset.univ) (q := fullShare) (f := m (t2Loc d)))) $$ [HSI Ht2]
  · isplitl [HSI] <;> iassumption
  icases H with ⟨%ht2, HSI, -⟩
  ihave H := (persistent_entails_right (SI_pointsTo_agree (st := s') (ℓ := o1Loc d) (I := Finset.univ) (q := fullShare) (f := G1 m d))) $$ [HSI Ho1]
  · isplitl [HSI] <;> iassumption
  icases H with ⟨%ho1, HSI, -⟩
  ihave H := (SI_pointsTo_agree (st := s') (ℓ := o2Loc d) (I := Finset.univ) (q := fullShare) (f := G2 m d)) $$ [HSI Ho2]
  · isplitl [HSI] <;> iassumption
  icases H with %ho2
  ipureintro
  exact ⟨funext fun i => ho1 i (Finset.mem_univ i), funext fun i => ho2 i (Finset.mem_univ i), funext fun i => ha0 i (Finset.mem_univ i), funext fun i => ha1 i (Finset.mem_univ i), funext fun i => ht1 i (Finset.mem_univ i), funext fun i => ht2 i (Finset.mem_univ i)⟩

def QC : PUnit × MemSt nD τ sig (Elt F) → Prop := fun r => ∀ c : Dev nD, r.2.mem (o1Loc c) = G1 m c ∧ r.2.mem (o2Loc c) = G2 m c ∧ r.2.mem (a0Loc c) = m (a0Loc c) ∧ r.2.mem (a1Loc c) = m (a1Loc c) ∧ r.2.mem (t1Loc c) = m (t1Loc c) ∧ r.2.mem (t2Loc c) = m (t2Loc c)

end Cert.Proof.KI

end
-- ==== Proof.KI.Launch.lean ====
/-
  The whole program: @main on the TensorCore cuts the two lists of row numbers (two reshapes), calls the lookup kernel
  on the 32 vector subcores, and returns the two results. The launch theorem turns "each task's body is proved" into
  the run of every thread: the call hands each SparseCore its share of the tables and its tasks' blocks and chunks, and
  takes them back with the chunks at the lookup; the claim is read off the final memory.
-/
import proofs.«215895_g3710851743747_cont_8to1_b_223_15_alg».proof.Proof.KI.Tile
import proofs.«215895_g3710851743747_cont_8to1_b_223_15_alg».proof.Proof.KI.Fin

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## @main on the TensorCore -/

abbrev a0' : DevRef τ sig := Proc.devRef .tc (main_arg0 : Ref sig .tc)
abbrev a1' : DevRef τ sig := Proc.devRef .tc (main_arg1 : Ref sig .tc)
abbrev t1' : DevRef τ sig := Proc.devRef .tc (main_arg2 : Ref sig .tc)
abbrev t2' : DevRef τ sig := Proc.devRef .tc (main_arg3 : Ref sig .tc)
abbrev iw' : DevRef τ sig := Proc.devRef .tc (main_v0 : Ref sig .tc)
abbrev ow' : DevRef τ sig := Proc.devRef .tc (main_v1 : Ref sig .tc)
abbrev o1' : DevRef τ sig := Proc.devRef .tc (main_v2_0 : Ref sig .tc)
abbrev o2' : DevRef τ sig := Proc.devRef .tc (main_v2_1 : Ref sig .tc)
/-- The two reshapes that cut the lists. -/
abbrev opR0 : HloOp τ sig (Elt F) := StableHlo.reshape main_arg0 main_v0 rfl shapeCasts_S16384_S32x4x128
abbrev opR1 : HloOp τ sig (Elt F) := StableHlo.reshape main_arg1 main_v1 rfl shapeCasts_S16384_S32x4x128

/-- The TensorCore's eight arrays. -/
abbrev S8 : Finset (DevRef τ sig) := {a0', a1', t1', t2', iw', ow', o1', o2'}

omit [FloatOps F] in
theorem held_S8 (d : Dev nD) (W : Valuation τ sig (Elt F)) :
    (held (T d) S8 W : sProp 𝕄) = iprop((a0Loc d ↦{fullShare} W a0') ∗ (a1Loc d ↦{fullShare} W a1') ∗ (t1Loc d ↦{fullShare} W t1') ∗ (t2Loc d ↦{fullShare} W t2') ∗ (iwLoc d ↦{fullShare} W iw') ∗ (owLoc d ↦{fullShare} W ow') ∗ (o1Loc d ↦{fullShare} W o1') ∗ (o2Loc d ↦{fullShare} W o2')) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation; after the two reshapes. -/
def V0 (d : Dev nD) : Valuation τ sig (Elt F) := fun b => m (d, b)
def V2 (d : Dev nD) : Valuation τ sig (Elt F) := (opR1 (F := F)).result ((opR0 (F := F)).result (V0 m d))

theorem unscoped_held (d : Dev nD) : (unscopedBufs d (fun b => m ((SparseCore.T d).loc b)) : sProp 𝕄) = held (T d) S8 (V0 m d) := by
  rw [unscopedBufs_eq, held_S8]; rfl

theorem hR0 : (opR0 (F := F)).bufs ⊆ S8 := show ({a0', iw'} : Finset (DevRef τ sig)) ⊆ S8 by decide
theorem hR1 : (opR1 (F := F)).bufs ⊆ S8 := show ({a1', ow'} : Finset (DevRef τ sig)) ⊆ S8 by decide

theorem V2_keep {r : Ref sig .tc} (d : Dev nD) (h0 : r ≠ main_v0) (h1 : r ≠ main_v1) : V2 m d (Proc.devRef .tc r) = m ((SparseCore.T d).loc r) := by
  unfold V2
  rw [StableHlo.reshape_result_ne' _ _ _ _ _ h1, StableHlo.reshape_result_ne' _ _ _ _ _ h0]; rfl
theorem V2_iw (d : Dev nD) : V2 m d iw' = W0 m d := by
  unfold V2
  rw [StableHlo.reshape_result_ne' _ _ _ _ _ (show (main_v0 : Ref sig .tc) ≠ main_v1 by decide), StableHlo.reshape_result']; rfl
theorem V2_ow (d : Dev nD) : V2 m d ow' = W1 m d := by
  unfold V2
  rw [StableHlo.reshape_result', StableHlo.reshape_result_ne' _ _ _ _ _ (show (main_arg1 : Ref sig .tc) ≠ main_v0 by decide)]; rfl

theorem held_V2 (d : Dev nD) :
    (held (T d) S8 (V2 m d) : sProp 𝕄) = iprop((a0Loc d ↦{fullShare} m (a0Loc d)) ∗ (a1Loc d ↦{fullShare} m (a1Loc d)) ∗ (t1Loc d ↦{fullShare} m (t1Loc d))
      ∗ (t2Loc d ↦{fullShare} m (t2Loc d)) ∗ (iwLoc d ↦{fullShare} W0 m d) ∗ (owLoc d ↦{fullShare} W1 m d) ∗ (o1Loc d ↦{fullShare} m (o1Loc d)) ∗ (o2Loc d ↦{fullShare} m (o2Loc d))) := by
  rw [held_S8, V2_keep m d (r := main_arg0) (by decide) (by decide), V2_keep m d (r := main_arg1) (by decide) (by decide),
    V2_keep m d (r := main_arg2) (by decide) (by decide), V2_keep m d (r := main_arg3) (by decide) (by decide), V2_iw, V2_ow,
    V2_keep m d (r := main_v2_0) (by decide) (by decide), V2_keep m d (r := main_v2_1) (by decide) (by decide)]

theorem held_V2' (d : Dev nD) :
    (held (T d) S8 ((opR1 (F := F)).result ((opR0 (F := F)).result (V0 m d))) : sProp 𝕄) = iprop((a0Loc d ↦{fullShare} m (a0Loc d)) ∗ (a1Loc d ↦{fullShare} m (a1Loc d)) ∗ (t1Loc d ↦{fullShare} m (t1Loc d))
      ∗ (t2Loc d ↦{fullShare} m (t2Loc d)) ∗ (iwLoc d ↦{fullShare} W0 m d) ∗ (owLoc d ↦{fullShare} W1 m d) ∗ (o1Loc d ↦{fullShare} m (o1Loc d)) ∗ (o2Loc d ↦{fullShare} m (o2Loc d))) :=
  held_V2 m d

/-- @main on device `d`'s TensorCore: the two reshapes, the call, the return. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR0) (S := S8) hR0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S8) hR1 (V := (opR0 (F := F)).result (V0 m d))) $$ [Hb Hheld]
  · isplitl [Hb]; · iexact Hb
    iexact Hheld
  iintro ⟨Hb, Hheld⟩
  rw [wp_ret]; imodintro
  ihave Hh := (Entails.of_eq (held_V2' m d)) $$ Hheld
  icases Hh with ⟨Ha0, Ha1, Ht1, Ht2, Hiw, How, Ho1, Ho2⟩
  ihave Hin := (call_in m d (m (o1Loc d)) (m (o2Loc d))) $$ [Ht1 Ht2 Hiw How Ho1 Ho2]
  · isplitl [Ht1]; · iexact Ht1
    isplitl [Ht2]; · iexact Ht2
    isplitl [Hiw]; · iexact Hiw
    isplitl [How]; · iexact How
    isplitl [Ho1]; · iexact Ho1
    iexact Ho2
  icases Hin with ⟨Hcores, Hrest⟩
  iapply ((K (F := F)).wp_run (D (F := F)) 𝒱 (EH := EH) (P := P m) κ d 0) $$ [Hst Hcores Hrest Ha0 Ha1]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hout := (call_out m d (G1 m d) (G2 m d)) $$ [Hdn' Hrest]
  · isplitl [Hdn']; · iexact Hdn'
    iexact Hrest
  icases Hout with ⟨Ht1, Ht2, Hiw, How, Ho1, Ho2⟩
  imodintro
  isplitl [Hst]; · iexact Hst
  isplitl [Ha0]; · iexact Ha0
  isplitl [Ha1]; · iexact Ha1
  isplitl [Ht1]; · iexact Ht1
  isplitl [Ht2]; · iexact Ht2
  isplitl [Ho1]; · iexact Ho1
  iexact Ho2

/-! ## The program's run -/

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KI.Claims.lean ====
/-
  From the kernel program's run to the claim's conjuncts. The run says: under "every row number names a row of its
  table", every execution ends with each result the lookup through the cut list and the four arguments as launched.
  The precondition gives that range; the lookup through the cut list is the lookup through the flat list; so the
  program's frame is the run with the results dropped, and the two programs' results agree because the reference's run
  ends at the same lookup of the same arguments.
-/
import proofs.«215895_g3710851743747_cont_8to1_b_223_15_alg».proof.Proof.KI.Fin
import proofs.«215895_g3710851743747_cont_8to1_b_223_15_alg».proof.Proof.PreFacts
import proofs.«215895_g3710851743747_cont_8to1_b_223_15_alg».proof.Proof.RefValue
import proofs.«215895_g3710851743747_cont_8to1_b_223_15_alg».proof.Defs
import proofs.«215895_g3710851743747_cont_8to1_b_223_15_alg».proof.Proof.Gen.KernelIdeal
import proofs.«215895_g3710851743747_cont_8to1_b_223_15_alg».proof.Proof.Gen.ReferenceIdeal
import proofs.«215895_g3710851743747_cont_8to1_b_223_15_alg».proof.Proof.Gen.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The precondition gives what the run asks of the launch memory: every row number of either list is below 100000. -/
theorem preOK_of_pre (m : (ℓ : Loc nD τ sig) → Buf (Elt Ideal) ℓ) (h : Cert.Pre_KernelIdeal m) : PreOK m := by
  intro d
  have hr := Cert.Proof.PreFacts.idx_lt _ _ _ _ (h d)
  exact ⟨fun n => (hr.1 n).2, fun n => (hr.2 n).2⟩

/-- The lookup through the cut list is the lookup through the flat list: the first result. -/
theorem G1_eq (m : (ℓ : Loc nD τ sig) → Buf (Elt F) ℓ) (d : Dev nD) :
    G1 m d = Spec.take (m (t1Loc d)) (m (a0Loc d)) := by
  unfold G1 W0
  exact Spec.takeW_shapeCast _ _ _

/-- The second result. -/
theorem G2_eq (m : (ℓ : Loc nD τ sig) → Buf (Elt F) ℓ) (d : Dev nD) :
    G2 m d = Spec.take (m (t2Loc d)) (m (a1Loc d)) := by
  unfold G2 W1
  exact Spec.takeW_shapeCast _ _ _

/-- The program's frame: its run with the two results dropped. -/
theorem frame_of_run (hrun : ∀ (m : (ℓ : Loc nD τ sig) → Buf (Elt Ideal) ℓ) (ρ : Dev nD → PrngReg), PreOK m →
      θ_run (Cert.KernelIdeal.defs (F := Ideal)) (Cert.KernelIdeal.threads (F := Ideal)) ⟨m, fun _ => 0, ρ⟩ (QC m)) : Cert.frame_KernelIdeal := by
  intro m g hpre
  refine (θ_run _ _ _).mono (fun r h c => ?_) (hrun m g (preOK_of_pre m hpre))
  obtain ⟨-, -, ha0, ha1, ht1, ht2⟩ := h c
  exact ⟨ha0, ha1, ht1, ht2⟩

/-- The two programs agree: from memories agreeing on the four arguments, both end with each result the lookup of its
    table at its list of row numbers, and the arguments as they were. -/
theorem algebraic_of_run (hrun : ∀ (m : (ℓ : Loc nD τ sig) → Buf (Elt Ideal) ℓ) (ρ : Dev nD → PrngReg), PreOK m →
      θ_run (Cert.KernelIdeal.defs (F := Ideal)) (Cert.KernelIdeal.threads (F := Ideal)) ⟨m, fun _ => 0, ρ⟩ (QC m)) : Cert.algebraic_KernelIdeal_ReferenceIdeal := by
  intro m g m' g' hpre hag
  refine ⟨fun c => Spec.take (m ((c.tc : Thread Cert.KernelIdeal.nD Cert.KernelIdeal.τ).loc Cert.KernelIdeal.main_arg2)) (m ((c.tc : Thread Cert.KernelIdeal.nD Cert.KernelIdeal.τ).loc Cert.KernelIdeal.main_arg0)),
    fun c => Spec.take (m ((c.tc : Thread Cert.KernelIdeal.nD Cert.KernelIdeal.τ).loc Cert.KernelIdeal.main_arg3)) (m ((c.tc : Thread Cert.KernelIdeal.nD Cert.KernelIdeal.τ).loc Cert.KernelIdeal.main_arg1)), ?_, ?_⟩
  · refine (θ_run _ _ _).mono (fun r h c => ?_) (hrun m g (preOK_of_pre m hpre))
    obtain ⟨h1, h2, ha0, ha1, ht1, ht2⟩ := h c
    exact ⟨h1.trans (G1_eq m c), h2.trans (G2_eq m c), ha0, ha1, ht1, ht2⟩
  · have hpre' : Cert.Pre_ReferenceIdeal m' := by
      intro c
      obtain ⟨e0, e1, e2, e3⟩ := hag c
      have hc := hpre c
      rw [← e0, ← e1, ← e2, ← e3] at hc
      exact hc
    refine (θ_run _ _ _).mono (fun r h c => ?_) (Cert.Proof.RefValue.run_take m' g' hpre')
    obtain ⟨e0, e1, e2, e3⟩ := hag c
    obtain ⟨h1, h2, ha0, ha1, ha2, ha3⟩ := h c
    exact ⟨h1.trans (by rw [e2, e0]), h2.trans (by rw [e3, e1]), ha0, ha1, ha2, ha3⟩

end Cert.Proof.KI

end
-- ==== Proof.KB.Setup.lean ====
/-
  The lookup kernel's program as the launch theorem sees it, and what each of its 32 tasks is handed.
  Task `(c, s)` — vector subcore `s` of SparseCore `c`, numbered `w = 2 s + c` — reads block `w` of each cut list of
  row numbers (4 rows of 128), reads both tables whole, and writes rows `[512 w, 512 w + 512)` of each result, in four
  chunks of 128 rows. So a task is handed: its block of each list outright, a read share of each table, and its four
  chunks of each result outright; and hands the same back, the chunks holding the lookup.
-/
import proofs.«215895_g3710851743747_cont_8to1_b_223_15_alg».proof.Proof.SpecW
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«215895_g3710851743747_cont_8to1_b_223_15_alg».proof.Proof.Gen.Kernel
import proofs.«215895_g3710851743747_cont_8to1_b_223_15_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- The two lists of row numbers and the two tables (the arguments), the two cut lists, the two results. -/
abbrev a0Loc (d : Dev nD) : Loc nD τ sig := (SparseCore.T d).loc main_arg0
abbrev a1Loc (d : Dev nD) : Loc nD τ sig := (SparseCore.T d).loc main_arg1
abbrev t1Loc (d : Dev nD) : Loc nD τ sig := (SparseCore.T d).loc main_arg2
abbrev t2Loc (d : Dev nD) : Loc nD τ sig := (SparseCore.T d).loc main_arg3
abbrev iwLoc (d : Dev nD) : Loc nD τ sig := (SparseCore.T d).loc main_v0
abbrev owLoc (d : Dev nD) : Loc nD τ sig := (SparseCore.T d).loc main_v1
abbrev o1Loc (d : Dev nD) : Loc nD τ sig := (SparseCore.T d).loc main_v2_0
abbrev o2Loc (d : Dev nD) : Loc nD τ sig := (SparseCore.T d).loc main_v2_1

/-- The kernel's memrefs, as the body table passes them. -/
abbrev iwV : Memref sig .scVector .hbm S32x4x128 .i32 := Memref.whole main_v0_scv
abbrev owV : Memref sig .scVector .hbm S32x4x128 .i32 := Memref.whole main_v1_scv
abbrev t1V : Memref sig .scVector .hbm S100000x128 .f32 := Memref.whole main_arg2_scv
abbrev t2V : Memref sig .scVector .hbm S100000x128 .f32 := Memref.whole main_arg3_scv
abbrev o1V : Memref sig .scVector .hbm S16384x128 .f32 := Memref.whole main_v2_0_scv
abbrev o2V : Memref sig .scVector .hbm S16384x128 .f32 := Memref.whole main_v2_1_scv
abbrev s0V : Memref sig .scVector .vmem S4x128 .i32 := Memref.whole cc0_scratch0
abbrev s1V : Memref sig .scVector .vmem S4x128 .i32 := Memref.whole cc0_scratch1
abbrev s2V : Memref sig .scVector .vmem S7x128x128 .f32 := Memref.whole cc0_scratch2

/-- A task's thread, from its grid coordinates. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The task's block of a cut list, as the kernel slices it. -/
abbrev blkRect (L : grid0.Coords) : Rect S32x4x128 := Rect.unit (s := S32x4x128) (k0_off1 L) S1x4x128.size (k0_off1_inb L)
abbrev iwRow (L : grid0.Coords) : Memref sig .scVector .hbm S4x128 .i32 :=
  ((iwV).slice (blkRect L) (fun _ => rfl)).squeeze S4x128 squeezes_S1x4x128_S4x128
abbrev owRow (L : grid0.Coords) : Memref sig .scVector .hbm S4x128 .i32 :=
  ((owV).slice (blkRect L) (fun _ => rfl)).squeeze S4x128 squeezes_S1x4x128_S4x128
/-- A chunk of 128 rows of a result at a row offset word `w`, as the kernel slices it. -/
abbrev chRect (L : grid0.Coords) (w : BitVec 32) (h : ∀ a, (k0_off2 L w) a + S128x128.size a ≤ S16384x128.size a) : Rect S16384x128 :=
  Rect.unit (s := S16384x128) (k0_off2 L w) S128x128.size h
abbrev o1C (L : grid0.Coords) (w : BitVec 32) (h : ∀ a, (k0_off2 L w) a + S128x128.size a ≤ S16384x128.size a) : Memref sig .scVector .hbm S128x128 .f32 :=
  (o1V).slice (chRect L w h) (fun _ => rfl)
abbrev o2C (L : grid0.Coords) (w : BitVec 32) (h : ∀ a, (k0_off2 L w) a + S128x128.size a ≤ S16384x128.size a) : Memref sig .scVector .hbm S128x128 .f32 :=
  (o2V).slice (chRect L w h) (fun _ => rfl)

/-- The elements of a cut list in the task's block, and of a result in chunk `r` of the task (index sets of the
    arrays, the same whichever thread names the array). -/
abbrev blkSet (L : grid0.Coords) : Finset S32x4x128.Idx := (blkRect L).set
abbrev chSet (L : grid0.Coords) (r : Fin 4) : Finset S16384x128.Idx := (chRect L (BitVec.ofNat 32 (128 * r.val)) (k0_off2_inb L r)).set

theorem set_iwRow (L : grid0.Coords) : (iwRow L).view.set = blkSet L := by
  show ((((iwV).view.slice (blkRect L)).reshape S4x128 squeezes_S1x4x128_S4x128.numel_eq)).set = _
  rw [View.set_reshape]
  show ((View.whole (main_v0_scv : Ref sig .scVector)).slice (blkRect L)).set = _
  rw [View.set_slice]; exact Finset.map_refl
theorem set_owRow (L : grid0.Coords) : (owRow L).view.set = blkSet L := by
  show ((((owV).view.slice (blkRect L)).reshape S4x128 squeezes_S1x4x128_S4x128.numel_eq)).set = _
  rw [View.set_reshape]
  show ((View.whole (main_v1_scv : Ref sig .scVector)).slice (blkRect L)).set = _
  rw [View.set_slice]; exact Finset.map_refl
theorem set_o1C (L : grid0.Coords) (w : BitVec 32) (h) : (o1C L w h).view.set = (chRect L w h).set := by
  show ((View.whole (main_v2_0_scv : Ref sig .scVector)).slice (chRect L w h)).set = _
  rw [View.set_slice]; exact Finset.map_refl
theorem set_o2C (L : grid0.Coords) (w : BitVec 32) (h) : (o2C L w h).view.set = (chRect L w h).set := by
  show ((View.whole (main_v2_1_scv : Ref sig .scVector)).slice (chRect L w h)).set = _
  rw [View.set_slice]; exact Finset.map_refl

/-! ## The launch memory, and what the arrays hold when the kernel is called -/

variable (m : (ℓ : Loc nD τ sig) → Buf (Elt F) ℓ) (ρ : Dev nD → PrngReg)

/-- The cut lists: the flat lists of the launch memory, cut (the two reshapes before the call). -/
def W0 (d : Dev nD) : Buf (Elt F) (iwLoc d) := shapeCast S32x4x128 (m (a0Loc d)) shapeCasts_S16384_S32x4x128
def W1 (d : Dev nD) : Buf (Elt F) (owLoc d) := shapeCast S32x4x128 (m (a1Loc d)) shapeCasts_S16384_S32x4x128
/-- What the results hold in the end: the lookups through the cut lists. -/
def G1 (d : Dev nD) : Buf (Elt F) (o1Loc d) := Spec.takeW (m (t1Loc d)) (W0 m d)
def G2 (d : Dev nD) : Buf (Elt F) (o2Loc d) := Spec.takeW (m (t2Loc d)) (W1 m d)

/-- What the proof asks of the launch memory: every row number names a row of its table. -/
def PreOK : Prop := ∀ d : Dev nD, (∀ n, (m (a0Loc d) n).toNat < 100000) ∧ (∀ n, (m (a1Loc d) n).toNat < 100000)

theorem W0_lt (hpre : PreOK m) (d : Dev nD) (j : S32x4x128.Idx) : (W0 m d j).toNat < 100000 := (hpre d).1 _
theorem W1_lt (hpre : PreOK m) (d : Dev nD) (j : S32x4x128.Idx) : (W1 m d j).toNat < 100000 := (hpre d).2 _

/-! ## What a task is handed -/

variable [FloatOps F]

/-- A task's own parts of the arrays: its block of each cut list, its four chunks of each result (at contents `f1`, `f2`). -/
def tileOwn (d : Dev nD) (L : grid0.Coords) (f1 : Buf (Elt F) (o1Loc d)) (f2 : Buf (Elt F) (o2Loc d)) : sProp 𝕄 :=
  iprop((iwLoc d ↦[blkSet L]{fullShare} W0 m d) ∗ (owLoc d ↦[blkSet L]{fullShare} W1 m d)
    ∗ (bigSep Finset.univ fun r : Fin 4 => o1Loc d ↦[chSet L r]{fullShare} f1)
    ∗ (bigSep Finset.univ fun r : Fin 4 => o2Loc d ↦[chSet L r]{fullShare} f2))

/-- With its read share `q` of each table. -/
def tileRes (d : Dev nD) (L : grid0.Coords) (q : PosShare TreeShare) (f1 : Buf (Elt F) (o1Loc d)) (f2 : Buf (Elt F) (o2Loc d)) : sProp 𝕄 :=
  iprop((t1Loc d ↦{q} m (t1Loc d)) ∗ (t2Loc d ↦{q} m (t2Loc d)) ∗ tileOwn m d L f1 f2)

instance tileOwn_storable (d : Dev nD) (L : grid0.Coords) (f1 f2) : BI.Storable (upEmb : UEmb _ 𝕄) (tileOwn m d L f1 f2) := by
  unfold tileOwn; infer_instance
instance tileRes_storable (d : Dev nD) (L : grid0.Coords) (q) (f1 f2) : BI.Storable (upEmb : UEmb _ 𝕄) (tileRes m d L q f1 f2) := by
  unfold tileRes; infer_instance

/-- The grid coordinates of task `i` of SparseCore `c` of the call. -/
def coordsV (c : Fin (grid0.bound 0)) (s : Fin (grid0.bound 1)) : grid0.Coords :=
  fun | 0 => c | 1 => s | ⟨_ + 2, h⟩ => absurd h (Nat.not_lt.2 (Nat.le_add_left _ _))
abbrev Lc (c : Fin ((K (F := F)).nCore 0)) (i : Fin ((K (F := F)).nSub 0)) : grid0.Coords := coordsV ⟨c.val, c.isLt⟩ ⟨i.val, i.isLt⟩

/-- The read shares: the full share cut once per SparseCore, each cut again once per task. -/
abbrev qc (c : Fin ((K (F := F)).nCore 0)) : PosShare TreeShare := Transfers.shareTok fullShare ((K (F := F)).nCore 0) c
abbrev qt (c : Fin ((K (F := F)).nCore 0)) (i : Fin ((K (F := F)).nSub 0)) : PosShare TreeShare :=
  Transfers.shareTok (qc (F := F) c) ((K (F := F)).nSub 0) i

/-- What a SparseCore is handed: its share of each table and its tasks' own parts. -/
def coreRes (d : Dev nD) (c : Fin ((K (F := F)).nCore 0)) (f1 : Buf (Elt F) (o1Loc d)) (f2 : Buf (Elt F) (o2Loc d)) : sProp 𝕄 :=
  iprop((t1Loc d ↦{qc (F := F) c} m (t1Loc d)) ∗ (t2Loc d ↦{qc (F := F) c} m (t2Loc d))
    ∗ bigSep Finset.univ fun i : Fin ((K (F := F)).nSub 0) => tileOwn m d (Lc c i) f1 f2)
instance coreRes_storable (d : Dev nD) (c) (f1 f2) : BI.Storable (upEmb : UEmb _ 𝕄) (coreRes m d c f1 f2) := by
  unfold coreRes; infer_instance

/-- What the one call carries: to a SparseCore its share of the tables and its tasks' own parts, to a task its share and
    its own parts; back the same, the results' chunks at the lookups. -/
def P : (K (F := F)).Pay (nD := nD) (Val := Elt F) (Name := ℕ) (U := UU) where
  st := fun q d c => match q, c with
    | 0, c => coreRes m d c (m (o1Loc d)) (m (o2Loc d))
  dn := fun q d c => match q, c with
    | 0, c => coreRes m d c (G1 m d) (G2 m d)
  go := fun q d c i => match q, c, i with
    | 0, c, i => tileRes m d (Lc c i) (qt c i) (m (o1Loc d)) (m (o2Loc d))
  td := fun q d c i => match q, c, i with
    | 0, c, i => tileRes m d (Lc c i) (qt c i) (G1 m d) (G2 m d)
  x := fun _ _ => iprop(emp)

instance P_storable : (P (F := F) m).IsStorable where
  st q d c := match q, c with
    | 0, c => (inferInstance : BI.Storable (upEmb : UEmb _ 𝕄) (coreRes m d c (m (o1Loc d)) (m (o2Loc d))))
  dn q d c := match q, c with
    | 0, c => (inferInstance : BI.Storable (upEmb : UEmb _ 𝕄) (coreRes m d c (G1 m d) (G2 m d)))
  go q d c i := match q, c, i with
    | 0, c, i => (inferInstance : BI.Storable (upEmb : UEmb _ 𝕄) (tileRes m d (Lc c i) (qt c i) (m (o1Loc d)) (m (o2Loc d))))
  td q d c i := match q, c, i with
    | 0, c, i => (inferInstance : BI.Storable (upEmb : UEmb _ 𝕄) (tileRes m d (Lc c i) (qt c i) (G1 m d) (G2 m d)))

end Cert.Proof.KB

end
-- ==== Proof.KB.Value.lean ====
/-
  What a task's chunks hold, index by index. A chunk's contents were copied out of one of the seven row buffers; that
  buffer was last filled by one gather; the gather put, at row `k`, the table's row named by word `k` of a row of the
  task's index scratch; and that scratch holds the task's block of the cut list. Followed back, entry `(k, j)` of chunk
  `r` of task `w` is the table at row `list[w, r, k]`, column `j` — the lookup at row `512 w + 128 r + k`.
-/
import proofs.«215895_g3710851743747_cont_8to1_b_223_15_alg».proof.Proof.KB.Setup

noncomputable section

namespace Cert.Proof.KB

open Cert.Kernel Cert.Kernel.Gen

open Idealize.ShloMosaic Idealize.ShloMosaic.ValueIdx
open Idealize.ShloMosaic.SparseCore (S V T)
open Idealize.SL Idealize.SL.RA Idealize.SL.BI
open scoped Idealize.SL.BI
open Idealize.SL.BI.BIBase Idealize.SL.BI.Laws Idealize.SL.ProofMode Idealize.SL.Sem

variable {F : FTy → Type}

/-! ## The seven row buffers are disjoint parts of one scratch -/

abbrev slotRect (a : ℕ) (h : ∀ x, (![a, 0, 0] : Fin 3 → ℕ) x + S1x128x128.size x ≤ S7x128x128.size x) : Rect S7x128x128 :=
  Rect.unit (s := S7x128x128) ![a, 0, 0] S1x128x128.size h
abbrev slot (a : ℕ) (h : ∀ x, (![a, 0, 0] : Fin 3 → ℕ) x + S1x128x128.size x ≤ S7x128x128.size x) : Memref sig .scVector .vmem S128x128 .f32 :=
  ((s2V).slice (slotRect a h) (fun _ => rfl)).squeeze S128x128 squeezes_S1x128x128_S128x128

theorem set_slot (a : ℕ) (h) : (slot a h).view.set = (slotRect a h).set := by
  show ((((s2V).view.slice (slotRect a h)).reshape S128x128 squeezes_S1x128x128_S128x128.numel_eq)).set = _
  rw [View.set_reshape]
  show ((View.whole (cc0_scratch2 : Ref sig .scVector)).slice (slotRect a h)).set = _
  rw [View.set_slice]; exact Finset.map_refl

theorem slot_disjoint {a b : ℕ} (ha hb) (hab : a ≠ b) : Disjoint (slot a ha).view.set (slot b hb).view.set := by
  rw [set_slot, set_slot]
  exact Rect.unit_disjoint 0 (by show a + 1 ≤ b ∨ b + 1 ≤ a; omega)

/-- Reading one row buffer sees nothing of a write into another. -/
theorem read_slot_write_other {a b : ℕ} (ha hb) (hab : a ≠ b) (f : BufTy.Contents (Elt F) (slot b hb).view.ty) (w : S128x128.Idx → Elt F .f32) :
    View.read (Elt F) (slot a ha).view (View.write (Elt F) (slot b hb).view f w Finset.univ) = View.read (Elt F) (slot a ha).view f := by
  funext y
  rw [View.read_apply, View.read_apply, View.write_of_not_mem]
  intro hm
  rw [View.setOn_univ] at hm
  exact Finset.disjoint_left.mp (slot_disjoint ha hb hab) ((slot a ha).view.emb_mem_set y) hm

/-- Reading a row buffer just written whole gives what was written. -/
theorem read_slot_write_same {a : ℕ} (ha ha') (f : BufTy.Contents (Elt F) (slot a ha').view.ty) (w : S128x128.Idx → Elt F .f32) :
    View.read (Elt F) (slot a ha).view (View.write (Elt F) (slot a ha').view f w Finset.univ) = w :=
  View.read_write_univ f w

/-- The same row buffers, as views. -/
abbrev slotV (a : ℕ) (h : ∀ x, (![a, 0, 0] : Fin 3 → ℕ) x + S1x128x128.size x ≤ S7x128x128.size x) : View sig .scVector .vmem S128x128 .f32 :=
  ((View.whole (cc0_scratch2 : Ref sig .scVector)).slice (slotRect a h)).reshape S128x128 squeezes_S1x128x128_S128x128.numel_eq

theorem readV_other {a b : ℕ} (ha hb) (hab : a ≠ b) (f : BufTy.Contents (Elt F) (slotV b hb).ty) (w : S128x128.Idx → Elt F .f32) :
    View.read (Elt F) (slotV a ha) (View.write (Elt F) (slotV b hb) f w Finset.univ) = View.read (Elt F) (slotV a ha) f :=
  read_slot_write_other ha hb hab f w
theorem readV_same {a : ℕ} (ha ha') (f : BufTy.Contents (Elt F) (slotV a ha').ty) (w : S128x128.Idx → Elt F .f32) :
    View.read (Elt F) (slotV a ha) (View.write (Elt F) (slotV a ha') f w Finset.univ) = w :=
  View.read_write_univ f w

/-! ## The gather, at an index -/

/-- Row `k` of what a gather delivers is the table's row named by word `k` of the list. -/
theorem gather_apply (hg : S100000x128.Gathers 0 S128x128) (g : S100000x128.Idx → Elt F .f32) (lst : S128.Idx → Elt F .i32)
    (hn : S128.numel = S128x128.size hg.axis') (hin : ∀ x, (lst x).toNat < S100000x128.size hg.axis) (k : Fin 128) (j : Fin 128) :
    SparseCore.gatherPayload hg g (SparseCore.rows lst hn hin) (ix2 k j) = g (ix2 (⟨(lst (ix1 k)).toNat, hin _⟩ : Fin 100000) j) := by
  unfold SparseCore.gatherPayload
  refine congrArg g (funext fun b => Fin.ext ?_)
  match b with
  | ⟨0, _⟩ =>
    have e := Shape.Gathers.idx_axis hg (SparseCore.rows lst hn hin) (ix2 k j)
    rw [show (⟨0, _⟩ : Fin S100000x128.rank) = hg.axis from rfl, e]
    show (lst (S128.rowMajor.symm _)).toNat = (lst (ix1 k)).toNat
    congr 2
    rw [Equiv.symm_apply_eq]
    refine Fin.ext ?_
    rw [Shape.rowMajor_val_one]
    rfl
  | ⟨1, _⟩ =>
    exact Shape.Gathers.idx_of_ne hg (SparseCore.rows lst hn hin) (ix2 k j) ⟨1, by decide⟩ (by decide)

/-! ## The index scratch, the task's block of a cut list, the table -/

/-- The table read through the kernel's whole-array slice of it is the table. -/
theorem read_t1 (h : ∀ a, (![0, 0] : Fin 2 → ℕ) a + S100000x128.size a ≤ S100000x128.size a) (tb : BufTy.Contents (Elt F) (t1V).view.ty) (j : S100000x128.Idx) :
    View.read (Elt F) ((t1V).slice (Rect.unit (s := S100000x128) ![0, 0] S100000x128.size h) (fun _ => rfl)).view tb j = tb j := by
  rw [(View.read_apply _ _).trans (cast_eq _ _)]
  refine congrArg tb (funext fun a => Fin.ext ?_)
  show ((Rect.unit (s := S100000x128) ![0, 0] S100000x128.size h).emb j a : ℕ) = (j a : ℕ)
  rw [Rect.emb_apply]
  match a with
  | ⟨0, _⟩ => show 0 + 1 * (j 0).val = (j 0).val; omega
  | ⟨1, _⟩ => show 0 + 1 * (j 1).val = (j 1).val; omega
theorem read_t2 (h : ∀ a, (![0, 0] : Fin 2 → ℕ) a + S100000x128.size a ≤ S100000x128.size a) (tb : BufTy.Contents (Elt F) (t2V).view.ty) (j : S100000x128.Idx) :
    View.read (Elt F) ((t2V).slice (Rect.unit (s := S100000x128) ![0, 0] S100000x128.size h) (fun _ => rfl)).view tb j = tb j := by
  rw [(View.read_apply _ _).trans (cast_eq _ _)]
  refine congrArg tb (funext fun a => Fin.ext ?_)
  show ((Rect.unit (s := S100000x128) ![0, 0] S100000x128.size h).emb j a : ℕ) = (j a : ℕ)
  rw [Rect.emb_apply]
  match a with
  | ⟨0, _⟩ => show 0 + 1 * (j 0).val = (j 0).val; omega
  | ⟨1, _⟩ => show 0 + 1 * (j 1).val = (j 1).val; omega

/-- Lane `x` of row `r` of an index scratch is entry `(r, x)` of what the scratch was filled with. -/
theorem rowSlot_emb (r : ℕ) (h : ∀ a, (![r, 0] : Fin 2 → ℕ) a + S1x128.size a ≤ S4x128.size a) (hr : r < 4) (x : Fin 128) :
    (Rect.unit (s := S4x128) ![r, 0] S1x128.size h).emb (Shape.reshapeEquiv squeezes_S1x128_S128.numel_eq (ix1 x)) = ix2 (⟨r, hr⟩ : Fin 4) x := by
  have e : Shape.reshapeEquiv squeezes_S1x128_S128.numel_eq (ix1 x) = (ix2 (0 : Fin 1) x : S1x128.Idx) :=
    Shape.reshapeEquiv_eq_of_rowMajor _ (by rw [Shape.rowMajor_val_two, Shape.rowMajor_val_one]; show (0 : ℕ) * 128 + x.val = x.val; omega)
  rw [e]
  funext a; refine Fin.ext ?_
  rw [Rect.emb_apply]
  match a with
  | ⟨0, _⟩ => show r + 1 * 0 = r; omega
  | ⟨1, _⟩ => show 0 + 1 * x.val = x.val; omega

theorem read_row_s0 (r : ℕ) (h : ∀ a, (![r, 0] : Fin 2 → ℕ) a + S1x128.size a ≤ S4x128.size a) (hr : r < 4)
    (g : BufTy.Contents (Elt F) (s0V).view.ty) (pay : S4x128.Idx → Elt F .i32) (x : Fin 128) :
    View.read (Elt F) (((s0V).slice (Rect.unit (s := S4x128) ![r, 0] S1x128.size h) (fun _ => rfl)).squeeze S128 squeezes_S1x128_S128).view
      (View.write (Elt F) (s0V).view g pay Finset.univ) (ix1 x) = pay (ix2 (⟨r, hr⟩ : Fin 4) x) := by
  rw [show View.write (Elt F) (s0V).view g pay Finset.univ = pay from View.write_whole_univ _ _ _]
  rw [(View.read_apply _ _).trans (cast_eq _ _)]
  exact congrArg pay (rowSlot_emb r h hr x)
theorem read_row_s1 (r : ℕ) (h : ∀ a, (![r, 0] : Fin 2 → ℕ) a + S1x128.size a ≤ S4x128.size a) (hr : r < 4)
    (g : BufTy.Contents (Elt F) (s1V).view.ty) (pay : S4x128.Idx → Elt F .i32) (x : Fin 128) :
    View.read (Elt F) (((s1V).slice (Rect.unit (s := S4x128) ![r, 0] S1x128.size h) (fun _ => rfl)).squeeze S128 squeezes_S1x128_S128).view
      (View.write (Elt F) (s1V).view g pay Finset.univ) (ix1 x) = pay (ix2 (⟨r, hr⟩ : Fin 4) x) := by
  rw [show View.write (Elt F) (s1V).view g pay Finset.univ = pay from View.write_whole_univ _ _ _]
  rw [(View.read_apply _ _).trans (cast_eq _ _)]
  exact congrArg pay (rowSlot_emb r h hr x)

/-- The task's number: `2 s + c`. -/
def wid (L : grid0.Coords) : Fin 32 := ⟨2 * (L 1).val + (L 0).val, by have h0 : (L 0).val < 2 := (L 0).isLt; have h1 : (L 1).val < 16 := (L 1).isLt; omega⟩

/-- Entry `(r, x)` of the task's block of a cut list is the cut list at `(w, r, x)`. -/
theorem blk_emb (L : grid0.Coords) (r : Fin 4) (x : Fin 128) :
    (blkRect L).emb (Shape.reshapeEquiv squeezes_S1x4x128_S4x128.numel_eq (ix2 r x)) = ix3 (wid L) r x := by
  have e : Shape.reshapeEquiv squeezes_S1x4x128_S4x128.numel_eq (ix2 r x) = (ix3 (0 : Fin 1) r x : S1x4x128.Idx) :=
    Shape.reshapeEquiv_eq_of_rowMajor _ (by rw [Shape.rowMajor_val_three, Shape.rowMajor_val_two]; show ((0 : ℕ) * 4 + r.val) * 128 + x.val = r.val * 128 + x.val; omega)
  rw [e]
  funext a; refine Fin.ext ?_
  rw [Rect.emb_apply]
  show (k0_off1 L) a + 1 * _ = _
  rw [k0_off1_eq]
  match a with
  | ⟨0, _⟩ => show 2 * (L 1).val + (L 0).val + 1 * 0 = 2 * (L 1).val + (L 0).val; omega
  | ⟨1, _⟩ => show 0 + 1 * r.val = r.val; omega
  | ⟨2, _⟩ => show 0 + 1 * x.val = x.val; omega

theorem read_iwRow (L : grid0.Coords) (wl : BufTy.Contents (Elt F) (iwV).view.ty) (r : Fin 4) (x : Fin 128) :
    View.read (Elt F) (iwRow L).view wl (ix2 r x) = wl (ix3 (wid L) r x) := by
  rw [(View.read_apply _ _).trans (cast_eq _ _)]
  exact congrArg wl (blk_emb L r x)
theorem read_owRow (L : grid0.Coords) (wl : BufTy.Contents (Elt F) (owV).view.ty) (r : Fin 4) (x : Fin 128) :
    View.read (Elt F) (owRow L).view wl (ix2 r x) = wl (ix3 (wid L) r x) := by
  rw [(View.read_apply _ _).trans (cast_eq _ _)]
  exact congrArg wl (blk_emb L r x)

/-! ## A chunk of a result -/

/-- Entry `(k, j)` of chunk `r` of task `w` is entry `(512 w + 128 r + k, j)` of the result. -/
theorem ch_emb (L : grid0.Coords) (r : Fin 4) (w : BitVec 32) (hw : w = BitVec.ofNat 32 (128 * r.val)) (h) (k j : Fin 128) :
    (chRect L w h).emb (ix2 k j) = ix2 (⟨512 * (wid L).val + 128 * r.val + k.val, by have := (wid L).isLt; have := r.isLt; omega⟩ : Fin 16384) j := by
  subst hw
  funext a; refine Fin.ext ?_
  rw [Rect.emb_apply]
  show (k0_off2 L (BitVec.ofNat 32 (128 * r.val))) a + 1 * _ = _
  rw [k0_off2_eq]
  match a with
  | ⟨0, _⟩ => show 1024 * (L 1).val + 512 * (L 0).val + 128 * r.val + 1 * k.val = 512 * (2 * (L 1).val + (L 0).val) + 128 * r.val + k.val; omega
  | ⟨1, _⟩ => show 0 + 1 * j.val = j.val; omega

/-- The lookup through the cut list, at an entry of a chunk: the table's row named by the cut list at `(w, r, k)`. -/
theorem takeW_chunk (tbl : Vec F Spec.STbl .f32) (wl : IVec Spec.SW 32) (hwl : ∀ j, (wl j).toNat < 100000) (L : grid0.Coords) (r : Fin 4) (k j : Fin 128) (hlt) :
    Spec.takeW tbl wl (ix2 (⟨512 * (wid L).val + 128 * r.val + k.val, hlt⟩ : Fin 16384) j)
      = tbl (ix2 (⟨(wl (ix3 (wid L) r k)).toNat, hwl _⟩ : Fin 100000) j) := by
  rw [Spec.takeW_apply]
  refine congrArg tbl (congrArg (fun a => ix2 a j) (Fin.ext ?_))
  show (wl (Spec.posW _)).toNat % 100000 = (wl (ix3 (wid L) r k)).toNat
  have hp : Spec.posW (⟨512 * (wid L).val + 128 * r.val + k.val, hlt⟩ : Fin 16384) = ix3 (wid L) r k := by
    unfold Spec.posW
    have hw := (wid L).isLt; have hr := r.isLt; have hk := k.isLt
    congr 1 <;> refine Fin.ext ?_ <;> dsimp only <;> omega
  rw [hp, Nat.mod_eq_of_lt (hwl _)]

/-! ## What a chunk holds -/

local notation "𝕄" => MT nD τ sig (Idealize.ShloMosaic.SparseCore.Cfg.HIx 1) (Elt F) ℕ UU ℕ

variable (m : (ℓ : Loc nD τ sig) → Buf (Elt F) ℓ)

/-- Chunk `r` of result 1, entry `(k, j)`: the gather's row `k` out of the table, named by row `r` of the index scratch,
    which holds the task's block of the cut list; that is the lookup at that entry. -/
theorem chunk1_val (hpre : PreOK m) (d : Dev nD) (L : grid0.Coords) (r : Fin 4)
    (hg : S100000x128.Gathers 0 S128x128) (ht : ∀ a, (![0, 0] : Fin 2 → ℕ) a + S100000x128.size a ≤ S100000x128.size a)
    (hrow : ∀ a, (![r.val, 0] : Fin 2 → ℕ) a + S1x128.size a ≤ S4x128.size a)
    (g : BufTy.Contents (Elt F) (s0V).view.ty) (hn) (hin)
    (w : BitVec 32) (hw : w = BitVec.ofNat 32 (128 * r.val)) (h) (k j : Fin 128) :
    SparseCore.gatherPayload hg (View.read (Elt F) ((t1V).slice (Rect.unit (s := S100000x128) ![0, 0] S100000x128.size ht) (fun _ => rfl)).view (m (t1Loc d)))
        (SparseCore.rows (View.read (Elt F) (((s0V).slice (Rect.unit (s := S4x128) ![r.val, 0] S1x128.size hrow) (fun _ => rfl)).squeeze S128 squeezes_S1x128_S128).view
          (View.write (Elt F) (s0V).view g (View.read (Elt F) (iwRow L).view (W0 m d)) Finset.univ)) hn hin) (ix2 k j)
      = G1 m d ((chRect L w h).emb (ix2 k j)) := by
  rw [gather_apply, read_t1, ch_emb L r w hw h k j]
  unfold G1
  rw [takeW_chunk (m (t1Loc d)) (W0 m d) (W0_lt m hpre d) L r k j]
  refine congrArg (m (t1Loc d)) (congrArg (fun a => ix2 a j) (Fin.ext ?_))
  exact congrArg BitVec.toNat ((read_row_s0 r.val hrow r.isLt g _ k).trans (read_iwRow L (W0 m d) r k))

/-- Chunk `r` of result 2, entry `(k, j)`: the gather's row `k` out of the table, named by row `r` of the index scratch,
    which holds the task's block of the cut list; that is the lookup at that entry. -/
theorem chunk2_val (hpre : PreOK m) (d : Dev nD) (L : grid0.Coords) (r : Fin 4)
    (hg : S100000x128.Gathers 0 S128x128) (ht : ∀ a, (![0, 0] : Fin 2 → ℕ) a + S100000x128.size a ≤ S100000x128.size a)
    (hrow : ∀ a, (![r.val, 0] : Fin 2 → ℕ) a + S1x128.size a ≤ S4x128.size a)
    (g : BufTy.Contents (Elt F) (s1V).view.ty) (hn) (hin)
    (w : BitVec 32) (hw : w = BitVec.ofNat 32 (128 * r.val)) (h) (k j : Fin 128) :
    SparseCore.gatherPayload hg (View.read (Elt F) ((t2V).slice (Rect.unit (s := S100000x128) ![0, 0] S100000x128.size ht) (fun _ => rfl)).view (m (t2Loc d)))
        (SparseCore.rows (View.read (Elt F) (((s1V).slice (Rect.unit (s := S4x128) ![r.val, 0] S1x128.size hrow) (fun _ => rfl)).squeeze S128 squeezes_S1x128_S128).view
          (View.write (Elt F) (s1V).view g (View.read (Elt F) (owRow L).view (W1 m d)) Finset.univ)) hn hin) (ix2 k j)
      = G2 m d ((chRect L w h).emb (ix2 k j)) := by
  rw [gather_apply, read_t2, ch_emb L r w hw h k j]
  unfold G2
  rw [takeW_chunk (m (t2Loc d)) (W1 m d) (W1_lt m hpre d) L r k j]
  refine congrArg (m (t2Loc d)) (congrArg (fun a => ix2 a j) (Fin.ext ?_))
  exact congrArg BitVec.toNat ((read_row_s1 r.val hrow r.isLt g _ k).trans (read_owRow L (W1 m d) r k))

/-- A chunk of result 1 whose contents are one whole write of `p`, where `p` is `G` read at the chunk's entries, holds `G`. -/
theorem pts_chunk1 (d : Dev nD) (L : grid0.Coords) (w : BitVec 32) (h) (f : Buf (Elt F) (o1Loc d)) (p : S128x128.Idx → Elt F .f32)
    (G : Buf (Elt F) (o1Loc d)) (hp : ∀ k j : Fin 128, p (ix2 k j) = G ((chRect L w h).emb (ix2 k j))) :
    ((o1C L w h).view.loc (thr d L) ↦[(o1C L w h).view.set]{fullShare} (o1C L w h).view.writes (Elt F) f [⟨Rect.whole S128x128, p⟩] : sProp 𝕄)
      = ((o1C L w h).view.loc (thr d L) ↦[(o1C L w h).view.set]{fullShare} G) := by
  refine pointsTo_congr fun i hi => ?_
  obtain ⟨y, -, rfl⟩ := Finset.mem_map.mp hi
  have e : ((o1C L w h).view.slice (Rect.whole S128x128)).emb y = (o1C L w h).view.emb y :=
    congrArg (o1C L w h).view.emb (Rect.emb_whole_apply S128x128 y)
  rw [View.writes_singleton, ← e, View.write_emb_of_mem _ _ (Finset.mem_univ y), cast_eq, e]
  obtain ⟨k, j, rfl⟩ : ∃ k j : Fin 128, y = ix2 k j := ⟨y 0, y 1, eq_ix2 y⟩
  exact hp k j

/-- A chunk of result 2 whose contents are one whole write of `p`, where `p` is `G` read at the chunk's entries, holds `G`. -/
theorem pts_chunk2 (d : Dev nD) (L : grid0.Coords) (w : BitVec 32) (h) (f : Buf (Elt F) (o2Loc d)) (p : S128x128.Idx → Elt F .f32)
    (G : Buf (Elt F) (o2Loc d)) (hp : ∀ k j : Fin 128, p (ix2 k j) = G ((chRect L w h).emb (ix2 k j))) :
    ((o2C L w h).view.loc (thr d L) ↦[(o2C L w h).view.set]{fullShare} (o2C L w h).view.writes (Elt F) f [⟨Rect.whole S128x128, p⟩] : sProp 𝕄)
      = ((o2C L w h).view.loc (thr d L) ↦[(o2C L w h).view.set]{fullShare} G) := by
  refine pointsTo_congr fun i hi => ?_
  obtain ⟨y, -, rfl⟩ := Finset.mem_map.mp hi
  have e : ((o2C L w h).view.slice (Rect.whole S128x128)).emb y = (o2C L w h).view.emb y :=
    congrArg (o2C L w h).view.emb (Rect.emb_whole_apply S128x128 y)
  rw [View.writes_singleton, ← e, View.write_emb_of_mem _ _ (Finset.mem_univ y), cast_eq, e]
  obtain ⟨k, j, rfl⟩ : ∃ k j : Fin 128, y = ix2 k j := ⟨y 0, y 1, eq_ix2 y⟩
  exact hp k j

end Cert.Proof.KB

end
-- ==== Proof.KB.Tile.lean ====
/-
  One task of the lookup kernel, run once at a symbolic (SparseCore, vector subcore) pair. The task copies its block of
  each cut list into an index scratch, then for each of its eight chunks gathers 128 table rows into one of seven row
  buffers and copies the buffer out to the chunk of the result; every copy and gather has its own semaphore free when it
  is issued, and no buffer is touched between a copy's issue and its wait. What the task leaves in its chunks is the
  lookup (the value lemmas of the sibling module); everything else it was handed comes back unchanged.
-/
import proofs.«215895_g3710851743747_cont_8to1_b_223_15_alg».proof.Proof.KB.Value

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## Words in range, at an index scratch's rows -/

/-- A row of the first index scratch, after the whole scratch was overwritten by words all below 100000, holds words below 100000. -/
theorem inb_s0 (pay : S4x128.Idx → Elt F .i32) (hpay : ∀ y, (pay y).toNat < 100000)
    (fs : BufTy.Contents (Elt F) (s0V : Memref sig .scVector .vmem S4x128 .i32).view.ty) (off : Fin 2 → ℕ) (hoff : ∀ a, off a + S1x128.size a ≤ S4x128.size a) (hsq : S1x128.Squeezes S128) :
    ∀ x : S128.Idx, (View.read (Elt F) (((s0V).slice (Rect.unit (s := S4x128) off S1x128.size hoff) (fun _ => rfl)).squeeze S128 hsq).view
        (View.write (Elt F) (s0V).view fs pay Finset.univ) x).toNat < 100000 := by
  intro x
  rw [show View.write (Elt F) (s0V).view fs pay Finset.univ = pay from View.write_whole_univ _ _ _]
  rw [(View.read_apply _ _).trans (cast_eq _ _)]
  exact hpay _
theorem inb_s1 (pay : S4x128.Idx → Elt F .i32) (hpay : ∀ y, (pay y).toNat < 100000)
    (fs : BufTy.Contents (Elt F) (s1V : Memref sig .scVector .vmem S4x128 .i32).view.ty) (off : Fin 2 → ℕ) (hoff : ∀ a, off a + S1x128.size a ≤ S4x128.size a) (hsq : S1x128.Squeezes S128) :
    ∀ x : S128.Idx, (View.read (Elt F) (((s1V).slice (Rect.unit (s := S4x128) off S1x128.size hoff) (fun _ => rfl)).squeeze S128 hsq).view
        (View.write (Elt F) (s1V).view fs pay Finset.univ) x).toNat < 100000 := by
  intro x
  rw [show View.write (Elt F) (s1V).view fs pay Finset.univ = pay from View.write_whole_univ _ _ _]
  rw [(View.read_apply _ _).trans (cast_eq _ _)]
  exact hpay _

section Tile

variable (d : Dev nD) (L : grid0.Coords) [FloatOps F]

/-- The task, with every array part held through the kernel's own memrefs. -/
theorem tile_run (hpre : PreOK m) (O : CellTallies nD τ sig (HIx 1)) (W : Waits sig (HIx 1)) (hO : ∀ g, O g none = 0)
    (q1 q2 : PosShare TreeShare) (f1 : Buf (Elt F) (o1Loc d)) (f2 : Buf (Elt F) (o2Loc d))
    (fs0 : Buf (Elt F) ((s0V).view.loc (thr d L))) (fs1 : Buf (Elt F) ((s1V).view.loc (thr d L))) (fs2 : Buf (Elt F) ((s2V).view.loc (thr d L))) :
    iprop(levAts (K (F := F)).L (K (F := F)).lev
        ∗ ((iwRow L).view.loc (thr d L) ↦[(iwRow L).view.set]{fullShare} W0 m d)
        ∗ ((owRow L).view.loc (thr d L) ↦[(owRow L).view.set]{fullShare} W1 m d)
        ∗ ((t1V).view.loc (thr d L) ↦{Transfers.shareTokN q1 2} m (t1Loc d)) ∗ ((t1V).view.loc (thr d L) ↦{Transfers.shareTokN q1 3} m (t1Loc d)) ∗ ((t1V).view.loc (thr d L) ↦{Transfers.shareTokN q1 4} m (t1Loc d)) ∗ ((t1V).view.loc (thr d L) ↦{Transfers.shareTokN q1 5} m (t1Loc d))
        ∗ ((t2V).view.loc (thr d L) ↦{Transfers.shareTokN q2 6} m (t2Loc d)) ∗ ((t2V).view.loc (thr d L) ↦{Transfers.shareTokN q2 7} m (t2Loc d)) ∗ ((t2V).view.loc (thr d L) ↦{Transfers.shareTokN q2 8} m (t2Loc d)) ∗ ((t2V).view.loc (thr d L) ↦{Transfers.shareTokN q2 2} m (t2Loc d))
        ∗ ((o1C L 0#32 (k0_off2_inb L 0)).view.loc (thr d L) ↦[(o1C L 0#32 (k0_off2_inb L 0)).view.set]{fullShare} f1)
        ∗ ((o1C L 128#32 (k0_off2_inb L 1)).view.loc (thr d L) ↦[(o1C L 128#32 (k0_off2_inb L 1)).view.set]{fullShare} f1)
        ∗ ((o1C L 256#32 (k0_off2_inb L 2)).view.loc (thr d L) ↦[(o1C L 256#32 (k0_off2_inb L 2)).view.set]{fullShare} f1)
        ∗ ((o1C L 384#32 (k0_off2_inb L 3)).view.loc (thr d L) ↦[(o1C L 384#32 (k0_off2_inb L 3)).view.set]{fullShare} f1)
        ∗ ((o2C L 0#32 (k0_off2_inb L 0)).view.loc (thr d L) ↦[(o2C L 0#32 (k0_off2_inb L 0)).view.set]{fullShare} f2)
        ∗ ((o2C L 128#32 (k0_off2_inb L 1)).view.loc (thr d L) ↦[(o2C L 128#32 (k0_off2_inb L 1)).view.set]{fullShare} f2)
        ∗ ((o2C L 256#32 (k0_off2_inb L 2)).view.loc (thr d L) ↦[(o2C L 256#32 (k0_off2_inb L 2)).view.set]{fullShare} f2)
        ∗ ((o2C L 384#32 (k0_off2_inb L 3)).view.loc (thr d L) ↦[(o2C L 384#32 (k0_off2_inb L 3)).view.set]{fullShare} f2)
        ∗ ((s0V).view.loc (thr d L) ↦{fullShare} fs0) ∗ ((s1V).view.loc (thr d L) ↦{fullShare} fs1) ∗ ((s2V).view.loc (thr d L) ↦{fullShare} fs2)
        ∗ semVal (thr d L, SemLoc.dma cc0_scratch3.sem) 0
        ∗ semVal (thr d L, SemLoc.dma cc0_scratch4.sem) 0
        ∗ semVal (thr d L, SemLoc.dma cc0_scratch5.sem) 0
        ∗ semVal (thr d L, SemLoc.dma cc0_scratch6.sem) 0
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ semVal (thr d L, SemLoc.dma cc0_scratch12.sem) 0
        ∗ semVal (thr d L, SemLoc.dma cc0_scratch13.sem) 0
        ∗ semVal (thr d L, SemLoc.dma cc0_scratch14.sem) 0
        ∗ semVal (thr d L, SemLoc.dma cc0_scratch15.sem) 0
        ∗ semVal (thr d L, SemLoc.dma cc0_scratch16.sem) 0
        ∗ semVal (thr d L, SemLoc.dma cc0_scratch17.sem) 0
        ∗ semVal (thr d L, SemLoc.dma cc0_scratch18.sem) 0
        ∗ owes (thr d L) O W)
      ⊢ wp frame (wpE (defs₀ (F := F)) 𝒱₀ (thr d L) none) Set.univ
          (cc0__gather2 L iwV (Memref.isWhole_whole _) owV (Memref.isWhole_whole _) t1V (Memref.isWhole_whole _) t2V (Memref.isWhole_whole _)
            o1V (Memref.isWhole_whole _) o2V (Memref.isWhole_whole _) s0V (Memref.isWhole_whole _) s1V (Memref.isWhole_whole _) s2V (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18)
          fun _ => (iprop(
            ((iwRow L).view.loc (thr d L) ↦[(iwRow L).view.set]{fullShare} W0 m d)
        ∗ ((owRow L).view.loc (thr d L) ↦[(owRow L).view.set]{fullShare} W1 m d)
        ∗ ((t1V).view.loc (thr d L) ↦{Transfers.shareTokN q1 2} m (t1Loc d)) ∗ ((t1V).view.loc (thr d L) ↦{Transfers.shareTokN q1 3} m (t1Loc d)) ∗ ((t1V).view.loc (thr d L) ↦{Transfers.shareTokN q1 4} m (t1Loc d)) ∗ ((t1V).view.loc (thr d L) ↦{Transfers.shareTokN q1 5} m (t1Loc d))
        ∗ ((t2V).view.loc (thr d L) ↦{Transfers.shareTokN q2 6} m (t2Loc d)) ∗ ((t2V).view.loc (thr d L) ↦{Transfers.shareTokN q2 7} m (t2Loc d)) ∗ ((t2V).view.loc (thr d L) ↦{Transfers.shareTokN q2 8} m (t2Loc d)) ∗ ((t2V).view.loc (thr d L) ↦{Transfers.shareTokN q2 2} m (t2Loc d))
        ∗ ((o1C L 0#32 (k0_off2_inb L 0)).view.loc (thr d L) ↦[(o1C L 0#32 (k0_off2_inb L 0)).view.set]{fullShare} G1 m d)
        ∗ ((o1C L 128#32 (k0_off2_inb L 1)).view.loc (thr d L) ↦[(o1C L 128#32 (k0_off2_inb L 1)).view.set]{fullShare} G1 m d)
        ∗ ((o1C L 256#32 (k0_off2_inb L 2)).view.loc (thr d L) ↦[(o1C L 256#32 (k0_off2_inb L 2)).view.set]{fullShare} G1 m d)
        ∗ ((o1C L 384#32 (k0_off2_inb L 3)).view.loc (thr d L) ↦[(o1C L 384#32 (k0_off2_inb L 3)).view.set]{fullShare} G1 m d)
        ∗ ((o2C L 0#32 (k0_off2_inb L 0)).view.loc (thr d L) ↦[(o2C L 0#32 (k0_off2_inb L 0)).view.set]{fullShare} G2 m d)
        ∗ ((o2C L 128#32 (k0_off2_inb L 1)).view.loc (thr d L) ↦[(o2C L 128#32 (k0_off2_inb L 1)).view.set]{fullShare} G2 m d)
        ∗ ((o2C L 256#32 (k0_off2_inb L 2)).view.loc (thr d L) ↦[(o2C L 256#32 (k0_off2_inb L 2)).view.set]{fullShare} G2 m d)
        ∗ ((o2C L 384#32 (k0_off2_inb L 3)).view.loc (thr d L) ↦[(o2C L 384#32 (k0_off2_inb L 3)).view.set]{fullShare} G2 m d)
        ∗ (∃ f, (s0V).view.loc (thr d L) ↦{fullShare} f) ∗ (∃ f, (s1V).view.loc (thr d L) ↦{fullShare} f) ∗ (∃ f, (s2V).view.loc (thr d L) ↦{fullShare} f)
        ∗ semVal (thr d L, SemLoc.dma cc0_scratch3.sem) 0
        ∗ semVal (thr d L, SemLoc.dma cc0_scratch4.sem) 0
        ∗ semVal (thr d L, SemLoc.dma cc0_scratch5.sem) 0
        ∗ semVal (thr d L, SemLoc.dma cc0_scratch6.sem) 0
        ∗ semVal (thr d L, SemLoc.dma cc0_scratch7.sem) 0
        ∗ semVal (thr d L, SemLoc.dma cc0_scratch8.sem) 0
        ∗ semVal (thr d L, SemLoc.dma cc0_scratch9.sem) 0
        ∗ semVal (thr d L, SemLoc.dma cc0_scratch10.sem) 0
        ∗ semVal (thr d L, SemLoc.dma cc0_scratch11.sem) 0
        ∗ semVal (thr d L, SemLoc.dma cc0_scratch12.sem) 0
        ∗ semVal (thr d L, SemLoc.dma cc0_scratch13.sem) 0
        ∗ semVal (thr d L, SemLoc.dma cc0_scratch14.sem) 0
        ∗ semVal (thr d L, SemLoc.dma cc0_scratch15.sem) 0
        ∗ semVal (thr d L, SemLoc.dma cc0_scratch16.sem) 0
        ∗ semVal (thr d L, SemLoc.dma cc0_scratch17.sem) 0
        ∗ semVal (thr d L, SemLoc.dma cc0_scratch18.sem) 0
        ∗ ∃ W', owes (thr d L) O W') : sProp 𝕄) := by
  iintro ⟨#Hlv, Hiw, How, Ht1a, Ht1b, Ht1c, Ht1d, Ht2a, Ht2b, Ht2c, Ht2d, Ho10, Ho11, Ho12, Ho13, Ho20, Ho21, Ho22, Ho23, Hs0, Hs1, Hs2,
    Hm3, Hm4, Hm5, Hm6, Hm7, Hm8, Hm9, Hm10, Hm11, Hm12, Hm13, Hm14, Hm15, Hm16, Hm17, Hm18, HO⟩
  ihave Hmw := ((K (F := F)).mayWaits_none (thr := thr d L) hO) $$ Hlv
  sl_unfold [cc0__gather2]
  -- the two copies of the list blocks, and the first one's wait
  sl_exec
  -- the index scratches hold words of the cut lists, all in range
  have hp0 : ∀ y, (Cert.Proof.KB.tile_run.sl.dma0 m d L y).toNat < 100000 := fun y => by
    show ((iwRow L).view.read (Elt F) (W0 m d) y).toNat < 100000
    rw [(View.read_apply _ _).trans (cast_eq _ _)]; exact W0_lt m hpre d _
  have hp1 : ∀ y, (Cert.Proof.KB.tile_run.sl.dma0_1 m d L y).toNat < 100000 := fun y => by
    show ((owRow L).view.read (Elt F) (W1 m d) y).toNat < 100000
    rw [(View.read_apply _ _).trans (cast_eq _ _)]; exact W1_lt m hpre d _
  have hin00 := fun g => inb_s0 (Cert.Proof.KB.tile_run.sl.dma0 m d L) hp0 g ![0, 0] inb_S4x128_S1x128_0_0 squeezes_S1x128_S128
  have hin01 := fun g => inb_s0 (Cert.Proof.KB.tile_run.sl.dma0 m d L) hp0 g ![1, 0] inb_S4x128_S1x128_1_0 squeezes_S1x128_S128
  have hin02 := fun g => inb_s0 (Cert.Proof.KB.tile_run.sl.dma0 m d L) hp0 g ![2, 0] inb_S4x128_S1x128_2_0 squeezes_S1x128_S128
  have hin03 := fun g => inb_s0 (Cert.Proof.KB.tile_run.sl.dma0 m d L) hp0 g ![3, 0] inb_S4x128_S1x128_3_0 squeezes_S1x128_S128
  have hin10 := fun g => inb_s1 (Cert.Proof.KB.tile_run.sl.dma0_1 m d L) hp1 g ![0, 0] inb_S4x128_S1x128_0_0 squeezes_S1x128_S128
  have hin11 := fun g => inb_s1 (Cert.Proof.KB.tile_run.sl.dma0_1 m d L) hp1 g ![1, 0] inb_S4x128_S1x128_1_0 squeezes_S1x128_S128
  have hin12 := fun g => inb_s1 (Cert.Proof.KB.tile_run.sl.dma0_1 m d L) hp1 g ![2, 0] inb_S4x128_S1x128_2_0 squeezes_S1x128_S128
  have hin13 := fun g => inb_s1 (Cert.Proof.KB.tile_run.sl.dma0_1 m d L) hp1 g ![3, 0] inb_S4x128_S1x128_3_0 squeezes_S1x128_S128
  -- the eight gathers and the eight copies out, each waited for
  sl_exec
  -- what each chunk holds is the lookup
  ihave Ho10 := (Entails.of_eq (pts_chunk1 (F := F) d L 0#32 (k0_off2_inb L 0) f1 _ (G1 m d) ?hp10)) $$ Ho10
  case hp10 =>
    intro k j
    sl_unfold_run_names
    simp only [ReadAs.apply_same, Memref.view_squeeze, Memref.view_slice, Memref.view_whole]
    rw [readV_other (a := 0) (b := 6) _ _ (by decide), readV_other (a := 0) (b := 5) _ _ (by decide), readV_other (a := 0) (b := 4) _ _ (by decide), readV_other (a := 0) (b := 3) _ _ (by decide), readV_other (a := 0) (b := 2) _ _ (by decide), readV_other (a := 0) (b := 1) _ _ (by decide), readV_same (a := 0)]
    exact chunk1_val m hpre d L 0 _ _ _ _ _ _ 0#32 rfl _ k j
  ihave Ho11 := (Entails.of_eq (pts_chunk1 (F := F) d L 128#32 (k0_off2_inb L 1) f1 _ (G1 m d) ?hp11)) $$ Ho11
  case hp11 =>
    intro k j
    sl_unfold_run_names
    simp only [ReadAs.apply_same, Memref.view_squeeze, Memref.view_slice, Memref.view_whole]
    rw [readV_other (a := 1) (b := 0) _ _ (by decide), readV_other (a := 1) (b := 6) _ _ (by decide), readV_other (a := 1) (b := 5) _ _ (by decide), readV_other (a := 1) (b := 4) _ _ (by decide), readV_other (a := 1) (b := 3) _ _ (by decide), readV_other (a := 1) (b := 2) _ _ (by decide), readV_same (a := 1)]
    exact chunk1_val m hpre d L 1 _ _ _ _ _ _ 128#32 rfl _ k j
  ihave Ho12 := (Entails.of_eq (pts_chunk1 (F := F) d L 256#32 (k0_off2_inb L 2) f1 _ (G1 m d) ?hp12)) $$ Ho12
  case hp12 =>
    intro k j
    sl_unfold_run_names
    simp only [ReadAs.apply_same, Memref.view_squeeze, Memref.view_slice, Memref.view_whole]
    rw [readV_other (a := 2) (b := 0) _ _ (by decide), readV_other (a := 2) (b := 6) _ _ (by decide), readV_other (a := 2) (b := 5) _ _ (by decide), readV_other (a := 2) (b := 4) _ _ (by decide), readV_other (a := 2) (b := 3) _ _ (by decide), readV_same (a := 2)]
    exact chunk1_val m hpre d L 2 _ _ _ _ _ _ 256#32 rfl _ k j
  ihave Ho13 := (Entails.of_eq (pts_chunk1 (F := F) d L 384#32 (k0_off2_inb L 3) f1 _ (G1 m d) ?hp13)) $$ Ho13
  case hp13 =>
    intro k j
    sl_unfold_run_names
    simp only [ReadAs.apply_same, Memref.view_squeeze, Memref.view_slice, Memref.view_whole]
    rw [readV_other (a := 3) (b := 0) _ _ (by decide), readV_other (a := 3) (b := 6) _ _ (by decide), readV_other (a := 3) (b := 5) _ _ (by decide), readV_other (a := 3) (b := 4) _ _ (by decide), readV_same (a := 3)]
    exact chunk1_val m hpre d L 3 _ _ _ _ _ _ 384#32 rfl _ k j
  ihave Ho20 := (Entails.of_eq (pts_chunk2 (F := F) d L 0#32 (k0_off2_inb L 0) f2 _ (G2 m d) ?hp20)) $$ Ho20
  case hp20 =>
    intro k j
    sl_unfold_run_names
    simp only [ReadAs.apply_same, Memref.view_squeeze, Memref.view_slice, Memref.view_whole]
    rw [readV_other (a := 4) (b := 0) _ _ (by decide), readV_other (a := 4) (b := 6) _ _ (by decide), readV_other (a := 4) (b := 5) _ _ (by decide), readV_same (a := 4)]
    exact chunk2_val m hpre d L 0 _ _ _ _ _ _ 0#32 rfl _ k j
  ihave Ho21 := (Entails.of_eq (pts_chunk2 (F := F) d L 128#32 (k0_off2_inb L 1) f2 _ (G2 m d) ?hp21)) $$ Ho21
  case hp21 =>
    intro k j
    sl_unfold_run_names
    simp only [ReadAs.apply_same, Memref.view_squeeze, Memref.view_slice, Memref.view_whole]
    rw [readV_other (a := 5) (b := 0) _ _ (by decide), readV_other (a := 5) (b := 6) _ _ (by decide), readV_same (a := 5)]
    exact chunk2_val m hpre d L 1 _ _ _ _ _ _ 128#32 rfl _ k j
  ihave Ho22 := (Entails.of_eq (pts_chunk2 (F := F) d L 256#32 (k0_off2_inb L 2) f2 _ (G2 m d) ?hp22)) $$ Ho22
  case hp22 =>
    intro k j
    sl_unfold_run_names
    simp only [ReadAs.apply_same, Memref.view_squeeze, Memref.view_slice, Memref.view_whole]
    rw [readV_other (a := 6) (b := 0) _ _ (by decide), readV_same (a := 6)]
    exact chunk2_val m hpre d L 2 _ _ _ _ _ _ 256#32 rfl _ k j
  ihave Ho23 := (Entails.of_eq (pts_chunk2 (F := F) d L 384#32 (k0_off2_inb L 3) f2 _ (G2 m d) ?hp23)) $$ Ho23
  case hp23 =>
    intro k j
    sl_unfold_run_names
    simp only [ReadAs.apply_same, Memref.view_squeeze, Memref.view_slice, Memref.view_whole]
    rw [readV_same (a := 0)]
    exact chunk2_val m hpre d L 3 _ _ _ _ _ _ 384#32 rfl _ k j
  sl_step
  sl_close

end Tile

/-! ## The task's scoped storage, and its read tokens -/

/-- A vector subcore's scoped semaphores are its sixteen DMA semaphores. -/
def semEmb (c : Thread nD τ) : DmaSem sig ↪ GSem nD τ sig := ⟨fun k => (c, SemLoc.dma k), fun a b e => by injection e with _ e; injection e⟩

theorem ownCells_V (d : Dev nD) (c : Fin τ.nSC) (i : Fin τ.nSub) : (ownCells (V d c i) : Finset (GSem nD τ sig)) = Finset.univ.map (semEmb (V d c i)) := by
  have hreg : ∀ s : Sem sig, (SemLoc.reg s : SemLoc sig).isScoped .scVector = false := by decide
  have hdma : ∀ s : DmaSem sig, (SemLoc.dma s : SemLoc sig).isScoped .scVector = true := by decide
  ext g
  rw [mem_ownCells, Finset.mem_map]
  constructor
  · rintro ⟨h1, h2⟩
    obtain ⟨t0, sm⟩ := g
    cases h1
    cases sm with
    | reg s => exact absurd h2 (by rw [show GSem.isScoped ((V d c i, SemLoc.reg s) : GSem nD τ sig) = (SemLoc.reg s : SemLoc sig).isScoped .scVector from rfl, hreg]; decide)
    | dma s => exact ⟨s, Finset.mem_univ _, rfl⟩
  · rintro ⟨k, -, rfl⟩
    exact ⟨rfl, hdma k⟩

theorem ownSems0_V (d : Dev nD) (c : Fin τ.nSC) (i : Fin τ.nSub) :
    (ownSems0 (V d c i) : sProp 𝕄) = iprop(semVal (V d c i, SemLoc.dma cc0_scratch3.sem) 0
      ∗ semVal (V d c i, SemLoc.dma cc0_scratch4.sem) 0
      ∗ semVal (V d c i, SemLoc.dma cc0_scratch5.sem) 0
      ∗ semVal (V d c i, SemLoc.dma cc0_scratch6.sem) 0
      ∗ semVal (V d c i, SemLoc.dma cc0_scratch7.sem) 0
      ∗ semVal (V d c i, SemLoc.dma cc0_scratch8.sem) 0
      ∗ semVal (V d c i, SemLoc.dma cc0_scratch9.sem) 0
      ∗ semVal (V d c i, SemLoc.dma cc0_scratch10.sem) 0
      ∗ semVal (V d c i, SemLoc.dma cc0_scratch11.sem) 0
      ∗ semVal (V d c i, SemLoc.dma cc0_scratch12.sem) 0
      ∗ semVal (V d c i, SemLoc.dma cc0_scratch13.sem) 0
      ∗ semVal (V d c i, SemLoc.dma cc0_scratch14.sem) 0
      ∗ semVal (V d c i, SemLoc.dma cc0_scratch15.sem) 0
      ∗ semVal (V d c i, SemLoc.dma cc0_scratch16.sem) 0
      ∗ semVal (V d c i, SemLoc.dma cc0_scratch17.sem) 0
      ∗ semVal (V d c i, SemLoc.dma cc0_scratch18.sem) 0) := by
  unfold SparseCore.Cfg.ownSems0
  rw [ownCells_V, bigSep_map,
    show (Finset.univ : Finset (DmaSem sig)) = {cc0_scratch3.sem, cc0_scratch4.sem, cc0_scratch5.sem, cc0_scratch6.sem, cc0_scratch7.sem, cc0_scratch8.sem, cc0_scratch9.sem, cc0_scratch10.sem, cc0_scratch11.sem, cc0_scratch12.sem, cc0_scratch13.sem, cc0_scratch14.sem, cc0_scratch15.sem, cc0_scratch16.sem, cc0_scratch17.sem, cc0_scratch18.sem} from by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The three scratch buffers are among the subcore's own. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f)
          ∗ bigSep ((((ownRefs (τ := τ) (.scVector c i)).erase ((Proc.scVector c i).devRef cc0_scratch0)).erase
              ((Proc.scVector c i).devRef cc0_scratch1)).erase ((Proc.scVector c i).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector c i)
    (b := (Proc.scVector c i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector c i) (b := (Proc.scVector c i).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector c i) (b := (Proc.scVector c i).devRef cc0_scratch2) rfl⟩⟩)]

/-- A share of an array as nine read tokens and what remains: one token per semaphore a gather may complete on. -/
theorem toks9 (ℓ : Loc nD τ sig) (q : PosShare TreeShare) (f : Buf (Elt F) ℓ) :
    (ℓ ↦{q} f : sProp 𝕄) ⊣⊢ iprop((ℓ ↦{Transfers.shareDrop q 9} f) ∗ (ℓ ↦{Transfers.shareTokN q 0} f) ∗ (ℓ ↦{Transfers.shareTokN q 1} f) ∗ (ℓ ↦{Transfers.shareTokN q 2} f) ∗ (ℓ ↦{Transfers.shareTokN q 3} f) ∗ (ℓ ↦{Transfers.shareTokN q 4} f) ∗ (ℓ ↦{Transfers.shareTokN q 5} f) ∗ (ℓ ↦{Transfers.shareTokN q 6} f) ∗ (ℓ ↦{Transfers.shareTokN q 7} f) ∗ (ℓ ↦{Transfers.shareTokN q 8} f)) := by
  have h : (ℓ ↦{q} f : sProp 𝕄) ⊣⊢ iprop((ℓ ↦{Transfers.shareDrop q 9} f) ∗ bigSep (Finset.range 9) fun i => ℓ ↦{Transfers.shareTokN q i} f) :=
    Transfers.pointsTo_toks_range (ℓ := ℓ) (S := Finset.univ) (f := f) q 9
  rw [show Finset.range 9 = {0, 1, 2, 3, 4, 5, 6, 7, 8} by decide, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton] at h
  exact h

section Body

variable (d : Dev nD) (L : grid0.Coords) [FloatOps F]

/-- The task's own parts, as its memrefs name them. -/
theorem tileOwn_eq (f1 : Buf (Elt F) (o1Loc d)) (f2 : Buf (Elt F) (o2Loc d)) :
    tileOwn m d L f1 f2 = iprop(
        ((iwRow L).view.loc (thr d L) ↦[(iwRow L).view.set]{fullShare} W0 m d)
        ∗ ((owRow L).view.loc (thr d L) ↦[(owRow L).view.set]{fullShare} W1 m d)
        ∗ (((o1C L 0#32 (k0_off2_inb L 0)).view.loc (thr d L) ↦[(o1C L 0#32 (k0_off2_inb L 0)).view.set]{fullShare} f1) ∗ ((o1C L 128#32 (k0_off2_inb L 1)).view.loc (thr d L) ↦[(o1C L 128#32 (k0_off2_inb L 1)).view.set]{fullShare} f1) ∗ ((o1C L 256#32 (k0_off2_inb L 2)).view.loc (thr d L) ↦[(o1C L 256#32 (k0_off2_inb L 2)).view.set]{fullShare} f1) ∗ ((o1C L 384#32 (k0_off2_inb L 3)).view.loc (thr d L) ↦[(o1C L 384#32 (k0_off2_inb L 3)).view.set]{fullShare} f1))
        ∗ (((o2C L 0#32 (k0_off2_inb L 0)).view.loc (thr d L) ↦[(o2C L 0#32 (k0_off2_inb L 0)).view.set]{fullShare} f2) ∗ ((o2C L 128#32 (k0_off2_inb L 1)).view.loc (thr d L) ↦[(o2C L 128#32 (k0_off2_inb L 1)).view.set]{fullShare} f2) ∗ ((o2C L 256#32 (k0_off2_inb L 2)).view.loc (thr d L) ↦[(o2C L 256#32 (k0_off2_inb L 2)).view.set]{fullShare} f2) ∗ ((o2C L 384#32 (k0_off2_inb L 3)).view.loc (thr d L) ↦[(o2C L 384#32 (k0_off2_inb L 3)).view.set]{fullShare} f2))) := by
  unfold tileOwn
  rw [set_iwRow, set_owRow, set_o1C, set_o1C, set_o1C, set_o1C, set_o2C, set_o2C, set_o2C, set_o2C,
    show (Finset.univ : Finset (Fin 4)) = {0, 1, 2, 3} by decide,
    SparseCore.bigSep_insert' (by decide), SparseCore.bigSep_insert' (by decide), SparseCore.bigSep_insert' (by decide), bigSep_singleton,
    SparseCore.bigSep_insert' (by decide), SparseCore.bigSep_insert' (by decide), SparseCore.bigSep_insert' (by decide), bigSep_singleton]
  rfl

/-- The task on vector subcore `(L 0, L 1)` of device `d`, from what the launch deals it to what it hands back: each
    table's share cut into read tokens and rejoined around the run. -/
theorem tile_body (hF : (K (F := F)).Facts) (hpre : PreOK m) (q : PosShare TreeShare) (f1 : Buf (Elt F) (o1Loc d)) (f2 : Buf (Elt F) (o2Loc d))
    (O : CellTallies nD τ sig (HIx 1)) (W : Waits sig (HIx 1)) (hO : ∀ g, O g none = 0) :
    iprop(levAts (K (F := F)).L (K (F := F)).lev ∗ emp ∗ tileRes m d L q f1 f2
        ∗ scopedBufs (thr d L) ∗ scopedSems0 (thr d L) ∗ owes (thr d L) O W)
      ⊢ wp frame (wpE (defs₀ (F := F)) 𝒱₀ (thr d L) none) Set.univ
          (cc0__gather2 L iwV (Memref.isWhole_whole _) owV (Memref.isWhole_whole _) t1V (Memref.isWhole_whole _) t2V (Memref.isWhole_whole _)
            o1V (Memref.isWhole_whole _) o2V (Memref.isWhole_whole _) s0V (Memref.isWhole_whole _) s1V (Memref.isWhole_whole _) s2V (Memref.isWhole_whole _)
            cc0_scratch3 cc0_scratch4 cc0_scratch5 cc0_scratch6 cc0_scratch7 cc0_scratch8 cc0_scratch9 cc0_scratch10 cc0_scratch11 cc0_scratch12
            cc0_scratch13 cc0_scratch14 cc0_scratch15 cc0_scratch16 cc0_scratch17 cc0_scratch18)
          fun _ => iprop(tileRes m d L q (G1 m d) (G2 m d) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold tileRes
  rw [tileOwn_eq, tileOwn_eq]
  iintro ⟨#Hlv, -, ⟨Ht1, Ht2, Hiw, How, ⟨Ho10, Ho11, Ho12, Ho13⟩, ⟨Ho20, Ho21, Ho22, Ho23⟩⟩, ⟨⟨%fs0, Hs0⟩, ⟨%fs1, Hs1⟩, ⟨%fs2, Hs2⟩, Hbufs⟩,
    ⟨Hm3, Hm4, Hm5, Hm6, Hm7, Hm8, Hm9, Hm10, Hm11, Hm12, Hm13, Hm14, Hm15, Hm16, Hm17, Hm18⟩, HO⟩
  ihave Ht1' := (toks9 (t1Loc d) q (m (t1Loc d))).1 $$ Ht1
  icases Ht1' with ⟨Ht1r, Ht1_0, Ht1_1, Ht1_2, Ht1_3, Ht1_4, Ht1_5, Ht1_6, Ht1_7, Ht1_8⟩
  ihave Ht2' := (toks9 (t2Loc d) q (m (t2Loc d))).1 $$ Ht2
  icases Ht2' with ⟨Ht2r, Ht2_0, Ht2_1, Ht2_2, Ht2_3, Ht2_4, Ht2_5, Ht2_6, Ht2_7, Ht2_8⟩
  iapply (wp_wand_r Idealize.ShloMosaic.frame (wpE (defs₀ (F := F)) 𝒱₀ (thr d L) none) Set.univ)
  isplitl [Hiw How Ht1_2 Ht1_3 Ht1_4 Ht1_5 Ht2_6 Ht2_7 Ht2_8 Ht2_2 Ho10 Ho11 Ho12 Ho13 Ho20 Ho21 Ho22 Ho23 Hs0 Hs1 Hs2 Hm3 Hm4 Hm5 Hm6 Hm7 Hm8 Hm9 Hm10 Hm11 Hm12 Hm13 Hm14 Hm15 Hm16 Hm17 Hm18 HO]
  · iapply (tile_run m d L hpre O W hO q q f1 f2 fs0 fs1 fs2)
    isplitr; · iexact Hlv
    isplitl [Hiw]; · iexact Hiw
    isplitl [How]; · iexact How
    isplitl [Ht1_2]; · iexact Ht1_2
    isplitl [Ht1_3]; · iexact Ht1_3
    isplitl [Ht1_4]; · iexact Ht1_4
    isplitl [Ht1_5]; · iexact Ht1_5
    isplitl [Ht2_6]; · iexact Ht2_6
    isplitl [Ht2_7]; · iexact Ht2_7
    isplitl [Ht2_8]; · iexact Ht2_8
    isplitl [Ht2_2]; · iexact Ht2_2
    isplitl [Ho10]; · iexact Ho10
    isplitl [Ho11]; · iexact Ho11
    isplitl [Ho12]; · iexact Ho12
    isplitl [Ho13]; · iexact Ho13
    isplitl [Ho20]; · iexact Ho20
    isplitl [Ho21]; · iexact Ho21
    isplitl [Ho22]; · iexact Ho22
    isplitl [Ho23]; · iexact Ho23
    isplitl [Hs0]; · iexact Hs0
    isplitl [Hs1]; · iexact Hs1
    isplitl [Hs2]; · iexact Hs2
    isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    isplitl [Hm18]; · iexact Hm18
    iexact HO
  iintro %_ ⟨Hiw, How, Ht1_2, Ht1_3, Ht1_4, Ht1_5, Ht2_6, Ht2_7, Ht2_8, Ht2_2, Ho10, Ho11, Ho12, Ho13, Ho20, Ho21, Ho22, Ho23, ⟨%g0, Hs0⟩, ⟨%g1, Hs1⟩, ⟨%g2, Hs2⟩,
    Hm3, Hm4, Hm5, Hm6, Hm7, Hm8, Hm9, Hm10, Hm11, Hm12, Hm13, Hm14, Hm15, Hm16, Hm17, Hm18, ⟨%W', HO⟩⟩
  ihave Ht1 := (toks9 (t1Loc d) q (m (t1Loc d))).2 $$ [Ht1r Ht1_0 Ht1_1 Ht1_2 Ht1_3 Ht1_4 Ht1_5 Ht1_6 Ht1_7 Ht1_8]
  · isplitl [Ht1r]; · iexact Ht1r
    isplitl [Ht1_0]; · iexact Ht1_0
    isplitl [Ht1_1]; · iexact Ht1_1
    isplitl [Ht1_2]; · iexact Ht1_2
    isplitl [Ht1_3]; · iexact Ht1_3
    isplitl [Ht1_4]; · iexact Ht1_4
    isplitl [Ht1_5]; · iexact Ht1_5
    isplitl [Ht1_6]; · iexact Ht1_6
    isplitl [Ht1_7]; · iexact Ht1_7
    iexact Ht1_8
  ihave Ht2 := (toks9 (t2Loc d) q (m (t2Loc d))).2 $$ [Ht2r Ht2_0 Ht2_1 Ht2_2 Ht2_3 Ht2_4 Ht2_5 Ht2_6 Ht2_7 Ht2_8]
  · isplitl [Ht2r]; · iexact Ht2r
    isplitl [Ht2_0]; · iexact Ht2_0
    isplitl [Ht2_1]; · iexact Ht2_1
    isplitl [Ht2_2]; · iexact Ht2_2
    isplitl [Ht2_3]; · iexact Ht2_3
    isplitl [Ht2_4]; · iexact Ht2_4
    isplitl [Ht2_5]; · iexact Ht2_5
    isplitl [Ht2_6]; · iexact Ht2_6
    isplitl [Ht2_7]; · iexact Ht2_7
    iexact Ht2_8
  isplitl [Ht1 Ht2 Hiw How Ho10 Ho11 Ho12 Ho13 Ho20 Ho21 Ho22 Ho23]
  · isplitl [Ht1]; · iexact Ht1
    isplitl [Ht2]; · iexact Ht2
    isplitl [Hiw]; · iexact Hiw
    isplitl [How]; · iexact How
    isplitl [Ho10 Ho11 Ho12 Ho13]
    · isplitl [Ho10]; · iexact Ho10
      isplitl [Ho11]; · iexact Ho11
      isplitl [Ho12]; · iexact Ho12
      iexact Ho13
    · isplitl [Ho20]; · iexact Ho20
      isplitl [Ho21]; · iexact Ho21
      isplitl [Ho22]; · iexact Ho22
      iexact Ho23
  isplitl [Hs0 Hs1 Hs2 Hbufs]
  · isplitl [Hs0]; · iexists _; iexact Hs0
    isplitl [Hs1]; · iexists _; iexact Hs1
    isplitl [Hs2]; · iexists _; iexact Hs2
    iexact Hbufs
  isplitl [Hm3 Hm4 Hm5 Hm6 Hm7 Hm8 Hm9 Hm10 Hm11 Hm12 Hm13 Hm14 Hm15 Hm16 Hm17 Hm18]
  · isplitl [Hm3]; · iexact Hm3
    isplitl [Hm4]; · iexact Hm4
    isplitl [Hm5]; · iexact Hm5
    isplitl [Hm6]; · iexact Hm6
    isplitl [Hm7]; · iexact Hm7
    isplitl [Hm8]; · iexact Hm8
    isplitl [Hm9]; · iexact Hm9
    isplitl [Hm10]; · iexact Hm10
    isplitl [Hm11]; · iexact Hm11
    isplitl [Hm12]; · iexact Hm12
    isplitl [Hm13]; · iexact Hm13
    isplitl [Hm14]; · iexact Hm14
    isplitl [Hm15]; · iexact Hm15
    isplitl [Hm16]; · iexact Hm16
    isplitl [Hm17]; · iexact Hm17
    iexact Hm18
  iexists W'; isplitr
  · ipureintro; intro p _
    rcases p.2 with _ | q
    · exact .inr (.inl rfl)
    · exact .inr (.inr (congrArg some (Subsingleton.elim q 0)))
  · iexact HO

end Body

/-! ## The launch theorem's obligation for the tasks -/

theorem defs₀_vector [FloatOps F] (c : Fin τ.nSC) (s : Fin τ.nSub) :
    defs₀ (F := F) (.scVector c s) 0 ()
      = SparseCore.onTile hcore0 hsub0 (fun c s => cc0__gather2 (coordsV c s)
          iwV (Memref.isWhole_whole _) owV (Memref.isWhole_whole _) t1V (Memref.isWhole_whole _) t2V (Memref.isWhole_whole _)
          o1V (Memref.isWhole_whole _) o2V (Memref.isWhole_whole _) s0V (Memref.isWhole_whole _) s1V (Memref.isWhole_whole _) s2V (Memref.isWhole_whole _)
          cc0_scratch3 cc0_scratch4 cc0_scratch5 cc0_scratch6 cc0_scratch7 cc0_scratch8 cc0_scratch9 cc0_scratch10 cc0_scratch11 cc0_scratch12
          cc0_scratch13 cc0_scratch14 cc0_scratch15 cc0_scratch16 cc0_scratch17 cc0_scratch18) ⟨⟩ c s := rfl

theorem tileObl [FloatOps F] (hF : (K (F := F)).Facts) (hpre : PreOK m) : (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact tile_body m d (Lc c i) hF hpre (qt c i) (m (o1Loc d)) (m (o2Loc d)) O W hO

end Cert.Proof.KB

end
-- ==== Proof.KB.Geom.lean ====
/-
  How the 32 tasks' parts tile the arrays. Task (c, i) has number w = 2 i + c. Its block of a cut list [32, 4, 128] is
  the slab {w} × 4 × 128: an index lies in it exactly when its first coordinate is w, so the 32 slabs are pairwise
  disjoint and cover the list. Its chunk r of a result [16384, 128] is the rows [512 w + 128 r, 512 w + 128 r + 128):
  an index lies in it exactly when its row does, and the 128 row intervals are pairwise disjoint and cover the
  16384 rows. Owning an array whole is therefore owning the parts one by one.
-/
import proofs.«215895_g3710851743747_cont_8to1_b_223_15_alg».proof.Proof.KB.Setup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The index sets -/

/-- An index of a cut list lies in task (c, i)'s block exactly when its first coordinate is the task's number. -/
theorem mem_blkSet (c : Fin ((K (F := F)).nCore 0)) (i : Fin ((K (F := F)).nSub 0)) (j : S32x4x128.Idx) :
    j ∈ blkSet (Lc (F := F) c i) ↔ (j 0).val = 2 * i.val + c.val := by
  rw [Rect.mem_set_unit, k0_off1_eq]
  have h1 : (j 1).val < 4 := (j 1).isLt
  have h2 : (j 2).val < 128 := (j 2).isLt
  constructor
  · intro h
    have h0 := h 0
    change 2 * i.val + c.val ≤ (j 0).val ∧ (j 0).val < 2 * i.val + c.val + 1 at h0
    omega
  · intro h a
    match a with
    | ⟨0, _⟩ =>
      show 2 * i.val + c.val ≤ (j 0).val ∧ (j 0).val < 2 * i.val + c.val + 1
      omega
    | ⟨1, _⟩ =>
      show 0 ≤ (j 1).val ∧ (j 1).val < 0 + 4
      omega
    | ⟨2, _⟩ =>
      show 0 ≤ (j 2).val ∧ (j 2).val < 0 + 128
      omega

/-- An index of a result lies in chunk r of task (c, i) exactly when its row lies in the chunk's 128 rows. -/
theorem mem_chSet (c : Fin ((K (F := F)).nCore 0)) (i : Fin ((K (F := F)).nSub 0)) (r : Fin 4) (j : S16384x128.Idx) :
    j ∈ chSet (Lc (F := F) c i) r
      ↔ 1024 * i.val + 512 * c.val + 128 * r.val ≤ (j 0).val ∧ (j 0).val < 1024 * i.val + 512 * c.val + 128 * r.val + 128 := by
  rw [Rect.mem_set_unit, k0_off2_eq]
  have h1 : (j 1).val < 128 := (j 1).isLt
  constructor
  · intro h
    have h0 := h 0
    change 1024 * i.val + 512 * c.val + 128 * r.val ≤ (j 0).val
      ∧ (j 0).val < 1024 * i.val + 512 * c.val + 128 * r.val + 128 at h0
    exact h0
  · intro h a
    match a with
    | ⟨0, _⟩ => exact h
    | ⟨1, _⟩ =>
      show 0 ≤ (j 1).val ∧ (j 1).val < 0 + 128
      omega

/-- The 32 blocks cover a cut list. -/
theorem blk_cover :
    (Finset.univ : Finset (Fin ((K (F := F)).nCore 0) × Fin ((K (F := F)).nSub 0))).biUnion (fun p => blkSet (Lc (F := F) p.1 p.2)) = Finset.univ := by
  ext j
  simp only [Finset.mem_biUnion, Finset.mem_univ, true_and, iff_true]
  have h0 : (j 0).val < 32 := (j 0).isLt
  exact ⟨(⟨(j 0).val % 2, Nat.mod_lt _ (by decide)⟩, ⟨(j 0).val / 2, show (j 0).val / 2 < 16 by omega⟩),
    (mem_blkSet _ _ j).mpr (by show (j 0).val = 2 * ((j 0).val / 2) + (j 0).val % 2; omega)⟩

/-- Two different tasks' blocks share no index. -/
theorem blk_disjoint (p p' : Fin ((K (F := F)).nCore 0) × Fin ((K (F := F)).nSub 0)) (hne : p ≠ p') :
    Disjoint (blkSet (Lc (F := F) p.1 p.2)) (blkSet (Lc (F := F) p'.1 p'.2)) := by
  refine Finset.disjoint_left.mpr fun j h h' => hne ?_
  rw [mem_blkSet] at h h'
  have c1 : p.1.val < 2 := p.1.isLt
  have c2 : p'.1.val < 2 := p'.1.isLt
  exact Prod.ext (Fin.ext (by omega)) (Fin.ext (by omega))

/-- The 128 chunks cover a result. -/
theorem ch_cover :
    (Finset.univ : Finset ((Fin ((K (F := F)).nCore 0) × Fin ((K (F := F)).nSub 0)) × Fin 4)).biUnion (fun q => chSet (Lc (F := F) q.1.1 q.1.2) q.2) = Finset.univ := by
  ext j
  simp only [Finset.mem_biUnion, Finset.mem_univ, true_and, iff_true]
  have h0 : (j 0).val < 16384 := (j 0).isLt
  refine ⟨((⟨(j 0).val % 1024 / 512, show (j 0).val % 1024 / 512 < 2 by omega⟩,
      ⟨(j 0).val / 1024, show (j 0).val / 1024 < 16 by omega⟩), ⟨(j 0).val % 512 / 128, by omega⟩), ?_⟩
  rw [mem_chSet]
  show 1024 * ((j 0).val / 1024) + 512 * ((j 0).val % 1024 / 512) + 128 * ((j 0).val % 512 / 128) ≤ (j 0).val
    ∧ (j 0).val < 1024 * ((j 0).val / 1024) + 512 * ((j 0).val % 1024 / 512) + 128 * ((j 0).val % 512 / 128) + 128
  omega

/-- Two different chunks share no index. -/
theorem ch_disjoint (q q' : (Fin ((K (F := F)).nCore 0) × Fin ((K (F := F)).nSub 0)) × Fin 4) (hne : q ≠ q') :
    Disjoint (chSet (Lc (F := F) q.1.1 q.1.2) q.2) (chSet (Lc (F := F) q'.1.1 q'.1.2) q'.2) := by
  refine Finset.disjoint_left.mpr fun j h h' => hne ?_
  rw [mem_chSet] at h h'
  have c1 : q.1.1.val < 2 := q.1.1.isLt
  have c2 : q'.1.1.val < 2 := q'.1.1.isLt
  have i1 : q.1.2.val < 16 := q.1.2.isLt
  have i2 : q'.1.2.val < 16 := q'.1.2.isLt
  have r1 : q.2.val < 4 := q.2.isLt
  have r2 : q'.2.val < 4 := q'.2.isLt
  have ei : q.1.2.val = q'.1.2.val := by omega
  have ec : q.1.1.val = q'.1.1.val := by omega
  have er : q.2.val = q'.2.val := by omega
  exact Prod.ext (Prod.ext (Fin.ext ec) (Fin.ext ei)) (Fin.ext er)

/-! ## Owning an array whole is owning its parts -/

/-- A cut list held whole is its 32 blocks held one by one: the first list. -/
theorem iw_blocks (d : Dev nD) (f : Buf (Elt F) (iwLoc d)) :
    (iwLoc d ↦{fullShare} f : sProp 𝕄)
      = bigSep Finset.univ fun c : Fin ((K (F := F)).nCore 0) => bigSep Finset.univ fun i : Fin ((K (F := F)).nSub 0) =>
          iwLoc d ↦[blkSet (Lc c i)]{fullShare} f := by
  rw [← BI.bigSep_univ_prod (fun p : Fin ((K (F := F)).nCore 0) × Fin ((K (F := F)).nSub 0) => (iwLoc d ↦[blkSet (Lc (F := F) p.1 p.2)]{fullShare} f : sProp 𝕄))]
  have h : (iwLoc d ↦[(Finset.univ : Finset (Fin ((K (F := F)).nCore 0) × Fin ((K (F := F)).nSub 0))).biUnion fun p => blkSet (Lc (F := F) p.1 p.2)]{fullShare} f : sProp 𝕄)
      = bigSep Finset.univ fun p : Fin ((K (F := F)).nCore 0) × Fin ((K (F := F)).nSub 0) => iwLoc d ↦[blkSet (Lc (F := F) p.1 p.2)]{fullShare} f :=
    pointsTo_biUnion Finset.univ _ (fun p _ p' _ hne => blk_disjoint p p' hne)
  rw [blk_cover] at h
  exact h

/-- The same for the second list. -/
theorem ow_blocks (d : Dev nD) (f : Buf (Elt F) (owLoc d)) :
    (owLoc d ↦{fullShare} f : sProp 𝕄)
      = bigSep Finset.univ fun c : Fin ((K (F := F)).nCore 0) => bigSep Finset.univ fun i : Fin ((K (F := F)).nSub 0) =>
          owLoc d ↦[blkSet (Lc c i)]{fullShare} f := by
  rw [← BI.bigSep_univ_prod (fun p : Fin ((K (F := F)).nCore 0) × Fin ((K (F := F)).nSub 0) => (owLoc d ↦[blkSet (Lc (F := F) p.1 p.2)]{fullShare} f : sProp 𝕄))]
  have h : (owLoc d ↦[(Finset.univ : Finset (Fin ((K (F := F)).nCore 0) × Fin ((K (F := F)).nSub 0))).biUnion fun p => blkSet (Lc (F := F) p.1 p.2)]{fullShare} f : sProp 𝕄)
      = bigSep Finset.univ fun p : Fin ((K (F := F)).nCore 0) × Fin ((K (F := F)).nSub 0) => owLoc d ↦[blkSet (Lc (F := F) p.1 p.2)]{fullShare} f :=
    pointsTo_biUnion Finset.univ _ (fun p _ p' _ hne => blk_disjoint p p' hne)
  rw [blk_cover] at h
  exact h

/-- A result held whole is its 128 chunks held one by one: the first result. -/
theorem o1_chunks (d : Dev nD) (f : Buf (Elt F) (o1Loc d)) :
    (o1Loc d ↦{fullShare} f : sProp 𝕄)
      = bigSep Finset.univ fun c : Fin ((K (F := F)).nCore 0) => bigSep Finset.univ fun i : Fin ((K (F := F)).nSub 0) =>
          bigSep Finset.univ fun r : Fin 4 => o1Loc d ↦[chSet (Lc c i) r]{fullShare} f := by
  rw [← BI.bigSep_univ_prod (fun p : Fin ((K (F := F)).nCore 0) × Fin ((K (F := F)).nSub 0) => bigSep Finset.univ fun r : Fin 4 =>
      (o1Loc d ↦[chSet (Lc (F := F) p.1 p.2) r]{fullShare} f : sProp 𝕄)),
    ← BI.bigSep_univ_prod (fun q : (Fin ((K (F := F)).nCore 0) × Fin ((K (F := F)).nSub 0)) × Fin 4 => (o1Loc d ↦[chSet (Lc (F := F) q.1.1 q.1.2) q.2]{fullShare} f : sProp 𝕄))]
  have h : (o1Loc d ↦[(Finset.univ : Finset ((Fin ((K (F := F)).nCore 0) × Fin ((K (F := F)).nSub 0)) × Fin 4)).biUnion fun q => chSet (Lc (F := F) q.1.1 q.1.2) q.2]{fullShare} f : sProp 𝕄)
      = bigSep Finset.univ fun q : (Fin ((K (F := F)).nCore 0) × Fin ((K (F := F)).nSub 0)) × Fin 4 => o1Loc d ↦[chSet (Lc (F := F) q.1.1 q.1.2) q.2]{fullShare} f :=
    pointsTo_biUnion Finset.univ _ (fun q _ q' _ hne => ch_disjoint q q' hne)
  rw [ch_cover] at h
  exact h

/-- The same for the second result. -/
theorem o2_chunks (d : Dev nD) (f : Buf (Elt F) (o2Loc d)) :
    (o2Loc d ↦{fullShare} f : sProp 𝕄)
      = bigSep Finset.univ fun c : Fin ((K (F := F)).nCore 0) => bigSep Finset.univ fun i : Fin ((K (F := F)).nSub 0) =>
          bigSep Finset.univ fun r : Fin 4 => o2Loc d ↦[chSet (Lc c i) r]{fullShare} f := by
  rw [← BI.bigSep_univ_prod (fun p : Fin ((K (F := F)).nCore 0) × Fin ((K (F := F)).nSub 0) => bigSep Finset.univ fun r : Fin 4 =>
      (o2Loc d ↦[chSet (Lc (F := F) p.1 p.2) r]{fullShare} f : sProp 𝕄)),
    ← BI.bigSep_univ_prod (fun q : (Fin ((K (F := F)).nCore 0) × Fin ((K (F := F)).nSub 0)) × Fin 4 => (o2Loc d ↦[chSet (Lc (F := F) q.1.1 q.1.2) q.2]{fullShare} f : sProp 𝕄))]
  have h : (o2Loc d ↦[(Finset.univ : Finset ((Fin ((K (F := F)).nCore 0) × Fin ((K (F := F)).nSub 0)) × Fin 4)).biUnion fun q => chSet (Lc (F := F) q.1.1 q.1.2) q.2]{fullShare} f : sProp 𝕄)
      = bigSep Finset.univ fun q : (Fin ((K (F := F)).nCore 0) × Fin ((K (F := F)).nSub 0)) × Fin 4 => o2Loc d ↦[chSet (Lc (F := F) q.1.1 q.1.2) q.2]{fullShare} f :=
    pointsTo_biUnion Finset.univ _ (fun q _ q' _ hne => ch_disjoint q q' hne)
  rw [ch_cover] at h
  exact h

end Cert.Proof.KB

end
-- ==== Proof.KB.Split.lean ====
/-
  How the call's operands are dealt to the two SparseCores and their sixteen tasks each, and gathered back.
  The tables are only read: the full share of a table is cut once per SparseCore, and each SparseCore's share once per
  task, the two remainders set aside and joined back at the end. The cut lists and the results are owned outright in
  parts: a list by its 32 blocks, a result by its 128 chunks, one task's parts disjoint from every other's, so the
  whole arrays are exactly the tasks' parts held together.
-/
import proofs.«215895_g3710851743747_cont_8to1_b_223_15_alg».proof.Proof.KB.Geom

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-! ## A SparseCore's operands among its tasks -/

/-- A SparseCore's share of each table is cut into its sixteen tasks' shares and a remainder; the remainder waits while
    the tasks run and joins their shares back at the end. The tasks' own parts pass through, the results' contents
    changing from what the launch memory held to the lookups. -/
theorem vecSplit : (K (F := F)).VecSplit' (P m) 0 := by
  intro d c
  show coreRes m d c (m (o1Loc d)) (m (o2Loc d)) ⊢ |={Set.univ}=> iprop(
      (bigSep Finset.univ fun i : Fin ((K (F := F)).nSub 0) => tileRes m d (Lc c i) (qt c i) (m (o1Loc d)) (m (o2Loc d)))
      ∗ ((bigSep Finset.univ fun i : Fin ((K (F := F)).nSub 0) => tileRes m d (Lc c i) (qt c i) (G1 m d) (G2 m d))
          -∗ coreRes m d c (G1 m d) (G2 m d)))
  unfold coreRes tileRes
  simp only [bigSep_sep']
  iintro ⟨H1, H2, Hown⟩
  ihave H1' := (Transfers.pointsTo_toks_split (qc (F := F) c) ((K (F := F)).nSub 0)) $$ H1
  icases H1' with ⟨R1, T1⟩
  ihave H2' := (Transfers.pointsTo_toks_split (qc (F := F) c) ((K (F := F)).nSub 0)) $$ H2
  icases H2' with ⟨R2, T2⟩
  imodintro
  isplitl [T1 T2 Hown]
  · isplitl [T1]; · iexact T1
    isplitl [T2]; · iexact T2
    iexact Hown
  iintro ⟨T1, T2, Hown⟩
  isplitl [R1 T1]
  · iapply (Transfers.pointsTo_toks_join (qc (F := F) c) ((K (F := F)).nSub 0))
    isplitl [R1]; · iexact R1
    iexact T1
  isplitl [R2 T2]
  · iapply (Transfers.pointsTo_toks_join (qc (F := F) c) ((K (F := F)).nSub 0))
    isplitl [R2]; · iexact R2
    iexact T2
  iexact Hown

/-! ## The call's operands among the SparseCores -/

/-- What is left of the two tables' full shares once each SparseCore has its share. -/
def tRest (d : Dev nD) : sProp 𝕄 :=
  iprop((t1Loc d ↦{Transfers.shareDrop fullShare ((K (F := F)).nCore 0)} m (t1Loc d))
    ∗ (t2Loc d ↦{Transfers.shareDrop fullShare ((K (F := F)).nCore 0)} m (t2Loc d)))

/-- What the two SparseCores are handed, regrouped: each table's shares together, and the tasks' own parts of each
    cut list and each result together, which are that array whole. -/
theorem cores_eq (d : Dev nD) (f1 : Buf (Elt F) (o1Loc d)) (f2 : Buf (Elt F) (o2Loc d)) :
    (bigSep Finset.univ fun c : Fin ((K (F := F)).nCore 0) => coreRes m d c f1 f2)
      = iprop((bigSep Finset.univ fun c : Fin ((K (F := F)).nCore 0) => t1Loc d ↦{qc (F := F) c} m (t1Loc d))
          ∗ (bigSep Finset.univ fun c : Fin ((K (F := F)).nCore 0) => t2Loc d ↦{qc (F := F) c} m (t2Loc d))
          ∗ (iwLoc d ↦{fullShare} W0 m d) ∗ (owLoc d ↦{fullShare} W1 m d)
          ∗ (o1Loc d ↦{fullShare} f1) ∗ (o2Loc d ↦{fullShare} f2)) := by
  unfold coreRes tileOwn
  simp only [bigSep_sep']
  rw [← iw_blocks, ← ow_blocks, ← o1_chunks, ← o2_chunks]

/-- Dealing: the arrays held whole are the two SparseCores' operands and the tables' remainders. -/
theorem call_in (d : Dev nD) (f1 : Buf (Elt F) (o1Loc d)) (f2 : Buf (Elt F) (o2Loc d)) :
    iprop((t1Loc d ↦{fullShare} m (t1Loc d)) ∗ (t2Loc d ↦{fullShare} m (t2Loc d)) ∗ (iwLoc d ↦{fullShare} W0 m d) ∗ (owLoc d ↦{fullShare} W1 m d) ∗ (o1Loc d ↦{fullShare} f1) ∗ (o2Loc d ↦{fullShare} f2))
      ⊢ iprop((bigSep Finset.univ fun c : Fin ((K (F := F)).nCore 0) => coreRes m d c f1 f2) ∗ tRest m d) := by
  rw [cores_eq]
  unfold tRest
  iintro ⟨H1, H2, Hiw, How, Ho1, Ho2⟩
  ihave H1' := (Transfers.pointsTo_toks_split fullShare ((K (F := F)).nCore 0)) $$ H1
  icases H1' with ⟨R1, T1⟩
  ihave H2' := (Transfers.pointsTo_toks_split fullShare ((K (F := F)).nCore 0)) $$ H2
  icases H2' with ⟨R2, T2⟩
  isplitl [T1 T2 Hiw How Ho1 Ho2]
  · isplitl [T1]; · iexact T1
    isplitl [T2]; · iexact T2
    isplitl [Hiw]; · iexact Hiw
    isplitl [How]; · iexact How
    isplitl [Ho1]; · iexact Ho1
    iexact Ho2
  isplitl [R1]; · iexact R1
  iexact R2

/-- Gathering: the converse. -/
theorem call_out (d : Dev nD) (f1 : Buf (Elt F) (o1Loc d)) (f2 : Buf (Elt F) (o2Loc d)) :
    iprop((bigSep Finset.univ fun c : Fin ((K (F := F)).nCore 0) => coreRes m d c f1 f2) ∗ tRest m d)
      ⊢ iprop((t1Loc d ↦{fullShare} m (t1Loc d)) ∗ (t2Loc d ↦{fullShare} m (t2Loc d)) ∗ (iwLoc d ↦{fullShare} W0 m d) ∗ (owLoc d ↦{fullShare} W1 m d) ∗ (o1Loc d ↦{fullShare} f1) ∗ (o2Loc d ↦{fullShare} f2)) := by
  rw [cores_eq]
  unfold tRest
  iintro ⟨⟨T1, T2, Hiw, How, Ho1, Ho2⟩, R1, R2⟩
  isplitl [R1 T1]
  · iapply (Transfers.pointsTo_toks_join fullShare ((K (F := F)).nCore 0))
    isplitl [R1]; · iexact R1
    iexact T1
  isplitl [R2 T2]
  · iapply (Transfers.pointsTo_toks_join fullShare ((K (F := F)).nCore 0))
    isplitl [R2]; · iexact R2
    iexact T2
  isplitl [Hiw]; · iexact Hiw
  isplitl [How]; · iexact How
  isplitl [Ho1]; · iexact Ho1
  iexact Ho2

/-! ## What the call's start and end carry, per SparseCore -/

theorem st0_eq (d : Dev nD) :
    (bigSep Finset.univ fun c : Fin ((K (F := F)).nCore 0) => (P m).st 0 d c)
      = bigSep Finset.univ fun c : Fin ((K (F := F)).nCore 0) => coreRes m d c (m (o1Loc d)) (m (o2Loc d)) :=
  bigSep_congr fun _ _ => rfl

theorem dn0_eq (d : Dev nD) :
    (bigSep Finset.univ fun c : Fin ((K (F := F)).nCore 0) => (P m).dn 0 d c)
      = bigSep Finset.univ fun c : Fin ((K (F := F)).nCore 0) => coreRes m d c (G1 m d) (G2 m d) :=
  bigSep_congr fun _ _ => rfl

end Cert.Proof.KB

end
-- ==== Proof.KB.Fin.lean ====
/-
  The launch element of the ghost state, the TensorCore's launch holdings by name, and how the final memory reads the
  claim. The kernel's own protocol needs no ghost state beyond the handshakes' rounds, so the launch element is
  theirs beside the unit. The TensorCore names eight arrays, none scoped. At the end the TensorCore holds the four
  arguments at their launch contents and the two results at the lookups, each whole at the full share, and the memory
  agrees with every array so held.
-/
import proofs.«215895_g3710851743747_cont_8to1_b_223_15_alg».proof.Proof.KB.Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's launch holdings -/

omit [FloatOps F] in
/-- The TensorCore's arrays, none scoped: the four arguments, the two cut lists, the two results. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (t1Loc d ↦{fullShare} W main_arg2) ∗ (t2Loc d ↦{fullShare} W main_arg3) ∗ (iwLoc d ↦{fullShare} W main_v0) ∗ (owLoc d ↦{fullShare} W main_v1) ∗ (o1Loc d ↦{fullShare} W main_v2_0) ∗ (o2Loc d ↦{fullShare} W main_v2_1)) := by
  unfold unscopedBufs
  rw [show (Finset.univ.filter fun b : Ref sig .tc => ¬ b.isScoped) = {main_arg0, main_arg1, main_arg2, main_arg3, main_v0, main_v1, main_v2_0, main_v2_1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-! ## The end: what the TensorCore holds, and what the memory then says -/

/-- At the end the TensorCore holds the arguments as launched and the results at the lookups. -/
abbrev FIN (d : Dev nD) : sProp 𝕄 := iprop((a0Loc d ↦{fullShare} m (a0Loc d)) ∗ (a1Loc d ↦{fullShare} m (a1Loc d)) ∗ (t1Loc d ↦{fullShare} m (t1Loc d)) ∗ (t2Loc d ↦{fullShare} m (t2Loc d)) ∗ (o1Loc d ↦{fullShare} G1 m d) ∗ (o2Loc d ↦{fullShare} G2 m d))

def fq (d : Dev nD) (s' : Phys nD τ sig (Elt F)) : Prop := s'.mem.mem (o1Loc d) = G1 m d ∧ s'.mem.mem (o2Loc d) = G2 m d ∧ s'.mem.mem (a0Loc d) = m (a0Loc d) ∧ s'.mem.mem (a1Loc d) = m (a1Loc d) ∧ s'.mem.mem (t1Loc d) = m (t1Loc d) ∧ s'.mem.mem (t2Loc d) = m (t2Loc d)

/-- The memory agrees with every array held whole: one array after another, the state kept each time. -/
theorem hfin (d : Dev nD) (s' : Phys nD τ sig (Elt F)) : iprop(FIN m d ∗ SI s') ⊢ (⌜fq m d s'⌝ : sProp 𝕄) := by
  iintro ⟨⟨Ha0, Ha1, Ht1, Ht2, Ho1, Ho2⟩, HSI⟩
  ihave H := (persistent_entails_right (SI_pointsTo_agree (st := s') (ℓ := a0Loc d) (I := Finset.univ) (q := fullShare) (f := m (a0Loc d)))) $$ [HSI Ha0]
  · isplitl [HSI] <;> iassumption
  icases H with ⟨%ha0, HSI, -⟩
  ihave H := (persistent_entails_right (SI_pointsTo_agree (st := s') (ℓ := a1Loc d) (I := Finset.univ) (q := fullShare) (f := m (a1Loc d)))) $$ [HSI Ha1]
  · isplitl [HSI] <;> iassumption
  icases H with ⟨%ha1, HSI, -⟩
  ihave H := (persistent_entails_right (SI_pointsTo_agree (st := s') (ℓ := t1Loc d) (I := Finset.univ) (q := fullShare) (f := m (t1Loc d)))) $$ [HSI Ht1]
  · isplitl [HSI] <;> iassumption
  icases H with ⟨%ht1, HSI, -⟩
  ihave H := (persistent_entails_right (SI_pointsTo_agree (st := s') (ℓ := t2Loc d) (I := Finset.univ) (q := fullShare) (f := m (t2Loc d)))) $$ [HSI Ht2]
  · isplitl [HSI] <;> iassumption
  icases H with ⟨%ht2, HSI, -⟩
  ihave H := (persistent_entails_right (SI_pointsTo_agree (st := s') (ℓ := o1Loc d) (I := Finset.univ) (q := fullShare) (f := G1 m d))) $$ [HSI Ho1]
  · isplitl [HSI] <;> iassumption
  icases H with ⟨%ho1, HSI, -⟩
  ihave H := (SI_pointsTo_agree (st := s') (ℓ := o2Loc d) (I := Finset.univ) (q := fullShare) (f := G2 m d)) $$ [HSI Ho2]
  · isplitl [HSI] <;> iassumption
  icases H with %ho2
  ipureintro
  exact ⟨funext fun i => ho1 i (Finset.mem_univ i), funext fun i => ho2 i (Finset.mem_univ i), funext fun i => ha0 i (Finset.mem_univ i), funext fun i => ha1 i (Finset.mem_univ i), funext fun i => ht1 i (Finset.mem_univ i), funext fun i => ht2 i (Finset.mem_univ i)⟩

def QC : PUnit × MemSt nD τ sig (Elt F) → Prop := fun r => ∀ c : Dev nD, r.2.mem (o1Loc c) = G1 m c ∧ r.2.mem (o2Loc c) = G2 m c ∧ r.2.mem (a0Loc c) = m (a0Loc c) ∧ r.2.mem (a1Loc c) = m (a1Loc c) ∧ r.2.mem (t1Loc c) = m (t1Loc c) ∧ r.2.mem (t2Loc c) = m (t2Loc c)

end Cert.Proof.KB

end
-- ==== Proof.KB.Launch.lean ====
/-
  The whole program: @main on the TensorCore cuts the two lists of row numbers (two reshapes), calls the lookup kernel
  on the 32 vector subcores, and returns the two results. The launch theorem turns "each task's body is proved" into
  the run of every thread: the call hands each SparseCore its share of the tables and its tasks' blocks and chunks, and
  takes them back with the chunks at the lookup; the claim is read off the final memory.
-/
import proofs.«215895_g3710851743747_cont_8to1_b_223_15_alg».proof.Proof.KB.Tile
import proofs.«215895_g3710851743747_cont_8to1_b_223_15_alg».proof.Proof.KB.Fin

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## @main on the TensorCore -/

abbrev a0' : DevRef τ sig := Proc.devRef .tc (main_arg0 : Ref sig .tc)
abbrev a1' : DevRef τ sig := Proc.devRef .tc (main_arg1 : Ref sig .tc)
abbrev t1' : DevRef τ sig := Proc.devRef .tc (main_arg2 : Ref sig .tc)
abbrev t2' : DevRef τ sig := Proc.devRef .tc (main_arg3 : Ref sig .tc)
abbrev iw' : DevRef τ sig := Proc.devRef .tc (main_v0 : Ref sig .tc)
abbrev ow' : DevRef τ sig := Proc.devRef .tc (main_v1 : Ref sig .tc)
abbrev o1' : DevRef τ sig := Proc.devRef .tc (main_v2_0 : Ref sig .tc)
abbrev o2' : DevRef τ sig := Proc.devRef .tc (main_v2_1 : Ref sig .tc)
/-- The two reshapes that cut the lists. -/
abbrev opR0 : HloOp τ sig (Elt F) := StableHlo.reshape main_arg0 main_v0 rfl shapeCasts_S16384_S32x4x128
abbrev opR1 : HloOp τ sig (Elt F) := StableHlo.reshape main_arg1 main_v1 rfl shapeCasts_S16384_S32x4x128

/-- The TensorCore's eight arrays. -/
abbrev S8 : Finset (DevRef τ sig) := {a0', a1', t1', t2', iw', ow', o1', o2'}

omit [FloatOps F] in
theorem held_S8 (d : Dev nD) (W : Valuation τ sig (Elt F)) :
    (held (T d) S8 W : sProp 𝕄) = iprop((a0Loc d ↦{fullShare} W a0') ∗ (a1Loc d ↦{fullShare} W a1') ∗ (t1Loc d ↦{fullShare} W t1') ∗ (t2Loc d ↦{fullShare} W t2') ∗ (iwLoc d ↦{fullShare} W iw') ∗ (owLoc d ↦{fullShare} W ow') ∗ (o1Loc d ↦{fullShare} W o1') ∗ (o2Loc d ↦{fullShare} W o2')) := by
  unfold held S8
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation; after the two reshapes. -/
def V0 (d : Dev nD) : Valuation τ sig (Elt F) := fun b => m (d, b)
def V2 (d : Dev nD) : Valuation τ sig (Elt F) := (opR1 (F := F)).result ((opR0 (F := F)).result (V0 m d))

theorem unscoped_held (d : Dev nD) : (unscopedBufs d (fun b => m ((SparseCore.T d).loc b)) : sProp 𝕄) = held (T d) S8 (V0 m d) := by
  rw [unscopedBufs_eq, held_S8]; rfl

theorem hR0 : (opR0 (F := F)).bufs ⊆ S8 := show ({a0', iw'} : Finset (DevRef τ sig)) ⊆ S8 by decide
theorem hR1 : (opR1 (F := F)).bufs ⊆ S8 := show ({a1', ow'} : Finset (DevRef τ sig)) ⊆ S8 by decide

theorem V2_keep {r : Ref sig .tc} (d : Dev nD) (h0 : r ≠ main_v0) (h1 : r ≠ main_v1) : V2 m d (Proc.devRef .tc r) = m ((SparseCore.T d).loc r) := by
  unfold V2
  rw [StableHlo.reshape_result_ne' _ _ _ _ _ h1, StableHlo.reshape_result_ne' _ _ _ _ _ h0]; rfl
theorem V2_iw (d : Dev nD) : V2 m d iw' = W0 m d := by
  unfold V2
  rw [StableHlo.reshape_result_ne' _ _ _ _ _ (show (main_v0 : Ref sig .tc) ≠ main_v1 by decide), StableHlo.reshape_result']; rfl
theorem V2_ow (d : Dev nD) : V2 m d ow' = W1 m d := by
  unfold V2
  rw [StableHlo.reshape_result', StableHlo.reshape_result_ne' _ _ _ _ _ (show (main_arg1 : Ref sig .tc) ≠ main_v0 by decide)]; rfl

theorem held_V2 (d : Dev nD) :
    (held (T d) S8 (V2 m d) : sProp 𝕄) = iprop((a0Loc d ↦{fullShare} m (a0Loc d)) ∗ (a1Loc d ↦{fullShare} m (a1Loc d)) ∗ (t1Loc d ↦{fullShare} m (t1Loc d))
      ∗ (t2Loc d ↦{fullShare} m (t2Loc d)) ∗ (iwLoc d ↦{fullShare} W0 m d) ∗ (owLoc d ↦{fullShare} W1 m d) ∗ (o1Loc d ↦{fullShare} m (o1Loc d)) ∗ (o2Loc d ↦{fullShare} m (o2Loc d))) := by
  rw [held_S8, V2_keep m d (r := main_arg0) (by decide) (by decide), V2_keep m d (r := main_arg1) (by decide) (by decide),
    V2_keep m d (r := main_arg2) (by decide) (by decide), V2_keep m d (r := main_arg3) (by decide) (by decide), V2_iw, V2_ow,
    V2_keep m d (r := main_v2_0) (by decide) (by decide), V2_keep m d (r := main_v2_1) (by decide) (by decide)]

theorem held_V2' (d : Dev nD) :
    (held (T d) S8 ((opR1 (F := F)).result ((opR0 (F := F)).result (V0 m d))) : sProp 𝕄) = iprop((a0Loc d ↦{fullShare} m (a0Loc d)) ∗ (a1Loc d ↦{fullShare} m (a1Loc d)) ∗ (t1Loc d ↦{fullShare} m (t1Loc d))
      ∗ (t2Loc d ↦{fullShare} m (t2Loc d)) ∗ (iwLoc d ↦{fullShare} W0 m d) ∗ (owLoc d ↦{fullShare} W1 m d) ∗ (o1Loc d ↦{fullShare} m (o1Loc d)) ∗ (o2Loc d ↦{fullShare} m (o2Loc d))) :=
  held_V2 m d

/-- @main on device `d`'s TensorCore: the two reshapes, the call, the return. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opR0) (S := S8) hR0 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opR1) (S := S8) hR1 (V := (opR0 (F := F)).result (V0 m d))) $$ [Hb Hheld]
  · isplitl [Hb]; · iexact Hb
    iexact Hheld
  iintro ⟨Hb, Hheld⟩
  rw [wp_ret]; imodintro
  ihave Hh := (Entails.of_eq (held_V2' m d)) $$ Hheld
  icases Hh with ⟨Ha0, Ha1, Ht1, Ht2, Hiw, How, Ho1, Ho2⟩
  ihave Hin := (call_in m d (m (o1Loc d)) (m (o2Loc d))) $$ [Ht1 Ht2 Hiw How Ho1 Ho2]
  · isplitl [Ht1]; · iexact Ht1
    isplitl [Ht2]; · iexact Ht2
    isplitl [Hiw]; · iexact Hiw
    isplitl [How]; · iexact How
    isplitl [Ho1]; · iexact Ho1
    iexact Ho2
  icases Hin with ⟨Hcores, Hrest⟩
  iapply ((K (F := F)).wp_run (D (F := F)) 𝒱 (EH := EH) (P := P m) κ d 0) $$ [Hst Hcores Hrest Ha0 Ha1]
  isplitr; · iexact Hctx
  isplitl [Hst]; · iexact Hst
  isplitl [Hcores]
  · rw [st0_eq]; iexact Hcores
  iintro ⟨Hst, Hdn⟩
  ihave Hdn' := (Entails.of_eq (dn0_eq m d)) $$ Hdn
  ihave Hout := (call_out m d (G1 m d) (G2 m d)) $$ [Hdn' Hrest]
  · isplitl [Hdn']; · iexact Hdn'
    iexact Hrest
  icases Hout with ⟨Ht1, Ht2, Hiw, How, Ho1, Ho2⟩
  imodintro
  isplitl [Hst]; · iexact Hst
  isplitl [Ha0]; · iexact Ha0
  isplitl [Ha1]; · iexact Ha1
  isplitl [Ht1]; · iexact Ht1
  isplitl [Ht2]; · iexact Ht2
  isplitl [Ho1]; · iexact Ho1
  iexact Ho2

/-! ## The program's run -/

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KB.Claims.lean ====
/-
  From the word-level kernel program's run to its frame. The run says: under "every row number names a row of its
  table", every execution ends with the four arguments as launched (and each result the lookup through the cut list).
  The precondition gives that range, so the program's frame is the run with the results dropped.
-/
import proofs.«215895_g3710851743747_cont_8to1_b_223_15_alg».proof.Proof.KB.Fin
import proofs.«215895_g3710851743747_cont_8to1_b_223_15_alg».proof.Proof.PreFacts
import proofs.«215895_g3710851743747_cont_8to1_b_223_15_alg».proof.Defs
import proofs.«215895_g3710851743747_cont_8to1_b_223_15_alg».proof.Proof.Gen.Kernel
import proofs.«215895_g3710851743747_cont_8to1_b_223_15_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The precondition gives what the run asks of the launch memory: every row number of either list is below 100000. -/
theorem preOK_of_pre (m : (ℓ : Loc nD τ sig) → Buf (Elt Bits) ℓ) (h : Cert.Pre_Kernel m) : PreOK m := by
  intro d
  have hr := Cert.Proof.PreFacts.idx_lt _ _ _ _ (h d)
  exact ⟨fun n => (hr.1 n).2, fun n => (hr.2 n).2⟩

/-- The lookup through the cut list is the lookup through the flat list: the first result. -/
theorem G1_eq (m : (ℓ : Loc nD τ sig) → Buf (Elt F) ℓ) (d : Dev nD) :
    G1 m d = Spec.take (m (t1Loc d)) (m (a0Loc d)) := by
  unfold G1 W0
  exact Spec.takeW_shapeCast _ _ _

/-- The second result. -/
theorem G2_eq (m : (ℓ : Loc nD τ sig) → Buf (Elt F) ℓ) (d : Dev nD) :
    G2 m d = Spec.take (m (t2Loc d)) (m (a1Loc d)) := by
  unfold G2 W1
  exact Spec.takeW_shapeCast _ _ _

/-- The program's frame: its run with the two results dropped. -/
theorem frame_of_run (hrun : ∀ (m : (ℓ : Loc nD τ sig) → Buf (Elt Bits) ℓ) (ρ : Dev nD → PrngReg), PreOK m →
      θ_run (Cert.Kernel.defs (F := Bits)) (Cert.Kernel.threads (F := Bits)) ⟨m, fun _ => 0, ρ⟩ (QC m)) : Cert.frame_Kernel := by
  intro m g hpre
  refine (θ_run _ _ _).mono (fun r h c => ?_) (hrun m g (preOK_of_pre m hpre))
  obtain ⟨-, -, ha0, ha1, ht1, ht2⟩ := h c
  exact ⟨ha0, ha1, ht1, ht2⟩

end Cert.Proof.KB

end
-- ==== Proof.lean ====
/-
  The certificate of the embedding-lookup kernel against `jnp.take`: two tables of 100000 rows of 128 numbers, two lists
  of 16384 row numbers, and for each pair the array whose row `n` is the table's row `list[n]`.

  The kernel runs on the 32 vector subcores. Subcore `w` copies block `w` of each list (cut beforehand into 32 blocks of
  4 rows of 128), and for each of its eight chunks gathers the 128 named table rows into a row buffer and copies the
  buffer to rows `[512 w + 128 r, +128)` of the result. Every copy has a semaphore of its own that is free when the copy is
  issued, and no buffer is touched while a copy on it is pending, so every execution ends, and ends with each chunk at the
  lookup (`KI/Tile.lean`, `KI/Value.lean`); the 32 blocks and the 128 chunks partition the arrays (`KI/Geom.lean`,
  `KI/Split.lean`), which gives the whole results (`KI/Launch.lean`). The same text read at the word-level instance gives
  the printed kernel's frame (`KB/`). The reference's run is its 46 host operations composed (`RefRun.lean`); under the
  precondition — every row number in `[0, 99999]` — its negative-index wrap is the identity, its in-bounds mask is all
  true, and its gather reads the named row (`RefValue.lean`): the same lookup (`Spec.lean`). Data movement only: no
  arithmetic on the table's numbers happens on either side, so nothing here depends on their being finite.
-/
import proofs.«215895_g3710851743747_cont_8to1_b_223_15_alg».proof.Defs
import proofs.«215895_g3710851743747_cont_8to1_b_223_15_alg».proof.Proof.Gen.Kernel
import proofs.«215895_g3710851743747_cont_8to1_b_223_15_alg».proof.Proof.Gen.Kernel.Skeleton
import proofs.«215895_g3710851743747_cont_8to1_b_223_15_alg».proof.Proof.Gen.KernelIdeal
import proofs.«215895_g3710851743747_cont_8to1_b_223_15_alg».proof.Proof.Gen.KernelIdeal.Skeleton
import proofs.«215895_g3710851743747_cont_8to1_b_223_15_alg».proof.Proof.Gen.ReferenceIdeal
import proofs.«215895_g3710851743747_cont_8to1_b_223_15_alg».proof.Proof.Gen.Pre_input_domain
import proofs.«215895_g3710851743747_cont_8to1_b_223_15_alg».proof.Proof.RefValue
import proofs.«215895_g3710851743747_cont_8to1_b_223_15_alg».proof.Proof.KI.Launch
import proofs.«215895_g3710851743747_cont_8to1_b_223_15_alg».proof.Proof.KI.Claims
import proofs.«215895_g3710851743747_cont_8to1_b_223_15_alg».proof.Proof.KB.Launch
import proofs.«215895_g3710851743747_cont_8to1_b_223_15_alg».proof.Proof.KB.Claims
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_kernel : Cert.frame_Kernel :=
  Cert.Proof.KB.frame_of_run fun m ρ h => Cert.Proof.KB.run_main m ρ h

/-- So does the kernel read at the ideal instance. -/
theorem frame_kernelIdeal : Cert.frame_KernelIdeal :=
  Cert.Proof.KI.frame_of_run fun m ρ h => Cert.Proof.KI.run_main m ρ h

/-- The reference runs to the end with its arguments unchanged: its run with the results dropped. -/
theorem frame_reference : Cert.frame_ReferenceIdeal := fun m g hpre =>
  (θ_run Cert.ReferenceIdeal.defs _ _).mono (fun _ h c => (h c).2.2) (Cert.Proof.RefValue.run_take m g hpre)

/-- Both programs end with the lookup in each result. -/
theorem algebraic : Cert.algebraic_KernelIdeal_ReferenceIdeal :=
  Cert.Proof.KI.algebraic_of_run fun m ρ h => Cert.Proof.KI.run_main m ρ h

theorem claim : Cert.Claim := ⟨Cert.Kernel.Gen.facts, Cert.KernelIdeal.Gen.facts, Cert.ReferenceIdeal.Gen.facts, Cert.Pre_input_domain.Gen.facts,
  frame_kernel, frame_kernelIdeal, frame_reference, trivial, algebraic⟩

end Cert.Proof

end
